-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S3x512 : Shape := ⟨2, ![3, 512]⟩
abbrev S3x512x512 : Shape := ⟨3, ![3, 512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S3x512 : S_.BroadcastsInDim S3x512 (![] : Fin 0 → Fin S3x512.rank)
  reducesTo_S3x512_S_d0_1 : S3x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_

variable [Facts]

def fn_part1 {F : FTy → Type} [FloatOps F] (main_arg6 : FVec F S3x512 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg6
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  main_v23

def fn {F : FTy → Type} [FloatOps F] (main_arg0 : FVec F S10000x512 .f32) (main_arg1 : IVec S160000 32) (main_arg2 : IVec S160000 32) (main_arg3 : FVec F S3x512 .f32) (main_arg4 : FVec F S3x512 .f32) (main_arg5 : FVec F S3x512x512 .f32) (main_arg6 : FVec F S3x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S3x512 .f32 := Host.absf main_arg3
  let main_cst_0 : FVec F S_ .f32 := constant S_ .f32 0x7F800000#32
  let main_v5 : FVec F S3x512 .f32 := broadcastInDim S3x512 ![] bcast_S_S3x512 main_cst_0
  let main_v6 : IVec S3x512 1 := cmpf .olt main_v4 main_v5
  let main_c_1 : IVec S_ 1 := constantI S_ 1 1#1
  let main_v7 : IVec S_ 1 := (fun x v => Host.reduce IntOp.andi x v reducesTo_S3x512_S_d0_1 h_S_) main_v6 main_c_1
  let main_v8 : IVec S_ 1 := andi main_v3 main_v7
  let main_v9 : FVec F S3x512 .f32 := Host.absf main_arg4
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S3x512x512 .f32 := Host.absf main_arg5
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg6 main_v13 main_v16
-- ==== Kernel.lean ====
abbrev S10000x512 : Shape := ⟨2, ![10000, 512]⟩
abbrev S160000 : Shape := ⟨1, ![160000]⟩
abbrev S3x512 : Shape := ⟨2, ![3, 512]⟩
abbrev S3x512x512 : Shape := ⟨3, ![3, 512, 512]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S512 : Shape := ⟨1, ![512]⟩
abbrev S1x512 : Shape := ⟨2, ![1, 512]⟩
abbrev S2000x512 : Shape := ⟨2, ![2000, 512]⟩
abbrev S2000x1 : Shape := ⟨2, ![2000, 1]⟩
abbrev S160000x512 : Shape := ⟨2, ![160000, 512]⟩
abbrev S1x512x512 : Shape := ⟨3, ![1, 512, 512]⟩
abbrev S512x512 : Shape := ⟨2, ![512, 512]⟩

abbrev nBuf : Space → Nat
  | .hbm => 204
  | .vmem => 54
  | .smem => 0
  | _ => 0

abbrev hbmTy0_0 (i : Nat) : BufTy := match i % 128 with
  | 0 => ⟨S10000x512, .f32⟩
  | 1 => ⟨S160000, .i32⟩
  | 2 => ⟨S160000, .i32⟩
  | 3 => ⟨S3x512, .f32⟩
  | 4 => ⟨S3x512, .f32⟩
  | 5 => ⟨S3x512x512, .f32⟩
  | 6 => ⟨S3x512, .f32⟩
  | 7 => ⟨S_, .f32⟩
  | 8 => ⟨S160000, .f32⟩
  | 9 => ⟨S_, .f32⟩
  | 10 => ⟨S10000, .f32⟩
  | 11 => ⟨S160000x1, .i32⟩
  | 12 => ⟨S10000, .f32⟩
  | 13 => ⟨S_, .f32⟩
  | 14 => ⟨S_, .f32⟩
  | 15 => ⟨S10000, .f32⟩
  | 16 => ⟨S10000, .f32⟩
  | 17 => ⟨S_, .f32⟩
  | 18 => ⟨S10000, .f32⟩
  | 19 => ⟨S160000x1, .i32⟩
  | 20 => ⟨S10000, .f32⟩
  | 21 => ⟨S_, .f32⟩
  | 22 => ⟨S_, .f32⟩
  | 23 => ⟨S10000, .f32⟩
  | 24 => ⟨S10000, .f32⟩
  | 25 => ⟨S_, .f32⟩
  | 26 => ⟨S10000, .f32⟩
  | 27 => ⟨S10000, .f32⟩
  | 28 => ⟨S10000x1, .f32⟩
  | 29 => ⟨S_, .f32⟩
  | 30 => ⟨S10000, .f32⟩
  | 31 => ⟨S10000, .f32⟩
  | 32 => ⟨S10000x1, .f32⟩
  | 33 => ⟨S_, .f32⟩
  | 34 => ⟨S512, .f32⟩
  | 35 => ⟨S1x512, .f32⟩
  | 36 => ⟨S_, .f32⟩
  | 37 => ⟨S1x512, .f32⟩
  | 38 => ⟨S1x512, .f32⟩
  | 39 => ⟨S_, .i32⟩
  | 40 => ⟨S_, .f32⟩
  | 41 => ⟨S512, .f32⟩
  | 42 => ⟨S1x512, .f32⟩
  | 43 => ⟨S_, .f32⟩
  | 44 => ⟨S1x512, .f32⟩
  | 45 => ⟨S1x512, .f32⟩
  | 46 => ⟨S10000x512, .f32⟩
  | 47 => ⟨S10000x512, .f32⟩
  | 48 => ⟨S10000x512, .f32⟩
  | 49 => ⟨S_, .f32⟩
  | 50 => ⟨S_, .f32⟩
  | 51 => ⟨S_, .f32⟩
  | 52 => ⟨S_, .f32⟩
  | 53 => ⟨S512, .f32⟩
  | 54 => ⟨S1x512, .f32⟩
  | 55 => ⟨S1x512, .f32⟩
  | 56 => ⟨S1x512, .f32⟩
  | 57 => ⟨S_, .f32⟩
  | 58 => ⟨S_, .i1⟩
  | 59 => ⟨S_, .f32⟩
  | 60 => ⟨S_, .f32⟩
  | 61 => ⟨S1x512, .f32⟩
  | 62 => ⟨S1x512, .f32⟩
  | 63 => ⟨S1x512, .f32⟩
  | 64 => ⟨S512, .f32⟩
  | 65 => ⟨S1x512, .f32⟩
  | 66 => ⟨S1x512, .f32⟩
  | 67 => ⟨S512, .f32⟩
  | 68 => ⟨S1x512, .f32⟩
  | 69 => ⟨S10000x512, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x512, .f32⟩
  | 79 => ⟨S_, .f32⟩
  | 80 => ⟨S10000x512, .f32⟩
  | 81 => ⟨S160000x1, .i32⟩
  | 82 => ⟨S10000x512, .f32⟩
  | 83 => ⟨S1x512x512, .f32⟩
  | 84 => ⟨S512x512, .f32⟩
  | 85 => ⟨S512x512, .bf16⟩
  | 86 => ⟨S1x512, .f32⟩
  | 87 => ⟨S512, .f32⟩
  | 88 => ⟨S1x512, .f32⟩
  | 89 => ⟨S10000x512, .f32⟩
  | 90 => ⟨S_, .f32⟩
  | 91 => ⟨S512, .f32⟩
  | 92 => ⟨S1x512, .f32⟩
  | 93 => ⟨S_, .f32⟩
  | 94 => ⟨S1x512, .f32⟩
  | 95 => ⟨S1x512, .f32⟩
  | 96 => ⟨S_, .i32⟩
  | 97 => ⟨S_, .f32⟩
  | 98 => ⟨S512, .f32⟩
  | 99 => ⟨S1x512, .f32⟩
  | 100 => ⟨S_, .f32⟩
  | 101 => ⟨S1x512, .f32⟩
  | 102 => ⟨S1x512, .f32⟩
  | 103 => ⟨S10000x512, .f32⟩
  | 104 => ⟨S10000x512, .f32⟩
  | 105 => ⟨S10000x512, .f32⟩
  | 106 => ⟨S_, .f32⟩
  | 107 => ⟨S_, .f32⟩
  | 108 => ⟨S_, .f32⟩
  | 109 => ⟨S_, .f32⟩
  | 110 => ⟨S512, .f32⟩
  | 111 => ⟨S1x512, .f32⟩
  | 112 => ⟨S1x512, .f32⟩
  | 113 => ⟨S1x512, .f32⟩
  | 114 => ⟨S_, .f32⟩
  | 115 => ⟨S_, .i1⟩
  | 116 => ⟨S_, .f32⟩
  | 117 => ⟨S_, .f32⟩
  | 118 => ⟨S1x512, .f32⟩
  | 119 => ⟨S1x512, .f32⟩
  | 120 => ⟨S1x512, .f32⟩
  | 121 => ⟨S512, .f32⟩
  | 122 => ⟨S1x512, .f32⟩
  | 123 => ⟨S1x512, .f32⟩
  | 124 => ⟨S512, .f32⟩
  | 125 => ⟨S1x512, .f32⟩
  | 126 => ⟨S10000x512, .f32⟩
  | 127 => ⟨S_, .i32⟩
  | _ => ⟨S10000x512, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S160000x512, .f32⟩
  | 8 => ⟨S_, .f32⟩
  | 9 => ⟨S10000x512, .f32⟩
  | 10 => ⟨S160000x1, .i32⟩
  | 11 => ⟨S10000x512, .f32⟩
  | 12 => ⟨S1x512x512, .f32⟩
  | 13 => ⟨S512x512, .f32⟩
  | 14 => ⟨S512x512, .bf16⟩
  | 15 => ⟨S1x512, .f32⟩
  | 16 => ⟨S512, .f32⟩
  | 17 => ⟨S1x512, .f32⟩
  | 18 => ⟨S10000x512, .f32⟩
  | 19 => ⟨S_, .f32⟩
  | 20 => ⟨S512, .f32⟩
  | 21 => ⟨S1x512, .f32⟩
  | 22 => ⟨S_, .f32⟩
  | 23 => ⟨S1x512, .f32⟩
  | 24 => ⟨S1x512, .f32⟩
  | 25 => ⟨S_, .i32⟩
  | 26 => ⟨S_, .f32⟩
  | 27 => ⟨S512, .f32⟩
  | 28 => ⟨S1x512, .f32⟩
  | 29 => ⟨S_, .f32⟩
  | 30 => ⟨S1x512, .f32⟩
  | 31 => ⟨S1x512, .f32⟩
  | 32 => ⟨S10000x512, .f32⟩
  | 33 => ⟨S10000x512, .f32⟩
  | 34 => ⟨S10000x512, .f32⟩
  | 35 => ⟨S_, .f32⟩
  | 36 => ⟨S_, .f32⟩
  | 37 => ⟨S_, .f32⟩
  | 38 => ⟨S_, .f32⟩
  | 39 => ⟨S512, .f32⟩
  | 40 => ⟨S1x512, .f32⟩
  | 41 => ⟨S1x512, .f32⟩
  | 42 => ⟨S1x512, .f32⟩
  | 43 => ⟨S_, .f32⟩
  | 44 => ⟨S_, .i1⟩
  | 45 => ⟨S_, .f32⟩
  | 46 => ⟨S_, .f32⟩
  | 47 => ⟨S1x512, .f32⟩
  | 48 => ⟨S1x512, .f32⟩
  | 49 => ⟨S1x512, .f32⟩
  | 50 => ⟨S512, .f32⟩
  | 51 => ⟨S1x512, .f32⟩
  | 52 => ⟨S1x512, .f32⟩
  | 53 => ⟨S512, .f32⟩
  | 54 => ⟨S1x512, .f32⟩
  | 55 => ⟨S10000x512, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x512, .f32⟩
  | 65 => ⟨S_, .f32⟩
  | 66 => ⟨S10000x512, .f32⟩
  | 67 => ⟨S160000x1, .i32⟩
  | 68 => ⟨S10000x512, .f32⟩
  | 69 => ⟨S1x512x512, .f32⟩
  | 70 => ⟨S512x512, .f32⟩
  | 71 => ⟨S512x512, .bf16⟩
  | 72 => ⟨S1x512, .f32⟩
  | 73 => ⟨S512, .f32⟩
  | 74 => ⟨S1x512, .f32⟩
  | 75 => ⟨S10000x512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2000x1, .f32⟩
  | .local _ .vmem, ⟨7, _⟩ => ⟨S2000x1, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x1, .f32⟩
  | .local _ .vmem, ⟨13, _⟩ => ⟨S2000x1, .f32⟩
  | .local _ .vmem, ⟨14, _⟩ => ⟨S512x512, .bf16⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S2000x1, .f32⟩
  | .local _ .vmem, ⟨25, _⟩ => ⟨S2000x1, .f32⟩
  | .local _ .vmem, ⟨26, _⟩ => ⟨S2000x512, .f32⟩
  | .local _ .vmem, ⟨27, _⟩ => ⟨S2000x512, .f32⟩
  | .local _ .vmem, ⟨28, _⟩ => ⟨S2000x512, .f32⟩
  | .local _ .vmem, ⟨29, _⟩ => ⟨S2000x512, .f32⟩
  | .local _ .vmem, ⟨30, _⟩ => ⟨S2000x1, .f32⟩
  | .local _ .vmem, ⟨31, _⟩ => ⟨S2000x1, .f32⟩
  | .local _ .vmem, ⟨32, _⟩ => ⟨S512x512, .bf16⟩
  | .local _ .vmem, ⟨33, _⟩ => ⟨S1x512, .f32⟩
  | .local _ .vmem, ⟨34, _⟩ => ⟨S2000x512, .f32⟩
  | .local _ .vmem, ⟨35, _⟩ => ⟨S2000x512, .f32⟩
  | .local _ .vmem, ⟨36, _⟩ => ⟨S2000x512, .f32⟩
  | .local _ .vmem, ⟨37, _⟩ => ⟨S2000x512, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S2000x1, .f32⟩
  | .local _ .vmem, ⟨43, _⟩ => ⟨S2000x1, .f32⟩
  | .local _ .vmem, ⟨44, _⟩ => ⟨S2000x512, .f32⟩
  | .local _ .vmem, ⟨45, _⟩ => ⟨S2000x512, .f32⟩
  | .local _ .vmem, ⟨46, _⟩ => ⟨S2000x512, .f32⟩
  | .local _ .vmem, ⟨47, _⟩ => ⟨S2000x512, .f32⟩
  | .local _ .vmem, ⟨48, _⟩ => ⟨S2000x1, .f32⟩
  | .local _ .vmem, ⟨49, _⟩ => ⟨S2000x1, .f32⟩
  | .local _ .vmem, ⟨50, _⟩ => ⟨S512x512, .bf16⟩
  | .local _ .vmem, ⟨51, _⟩ => ⟨S1x512, .f32⟩
  | .local _ .vmem, ⟨52, _⟩ => ⟨S2000x512, .f32⟩
  | .local _ .vmem, ⟨53, _⟩ => ⟨S2000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_cst_7 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_cst_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_cst_1 : Ref sig .tc := ⟨.hbm, 50, rfl⟩
abbrev main_call2_v8 : Ref sig .tc := ⟨.hbm, 51, rfl⟩
abbrev main_call2_cst_2 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_cst_3 : Ref sig .tc := ⟨.hbm, 57, rfl⟩
abbrev main_call2_v13 : Ref sig .tc := ⟨.hbm, 58, rfl⟩
abbrev main_call2_cst_4 : Ref sig .tc := ⟨.hbm, 59, rfl⟩
abbrev main_call2_call0_v0 : Ref sig .tc := ⟨.hbm, 60, rfl⟩
abbrev main_call2_call0_v1 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_8 : Ref sig .tc := ⟨.hbm, 70, rfl⟩
abbrev main_v27 : Ref sig .tc := ⟨.hbm, 71, rfl⟩
abbrev main_v28 : Ref sig .tc := ⟨.hbm, 72, rfl⟩
abbrev main_c_9 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_10 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_11 : Ref sig .tc := ⟨.hbm, 90, rfl⟩
abbrev main_v44 : Ref sig .tc := ⟨.hbm, 91, rfl⟩
abbrev main_v45 : Ref sig .tc := ⟨.hbm, 92, rfl⟩
abbrev main_cst_12 : Ref sig .tc := ⟨.hbm, 93, rfl⟩
abbrev main_v46 : Ref sig .tc := ⟨.hbm, 94, rfl⟩
abbrev main_v47 : Ref sig .tc := ⟨.hbm, 95, rfl⟩
abbrev main_c_13 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_cst_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_v7 : Ref sig .tc := ⟨.hbm, 106, rfl⟩
abbrev main_call3_cst_1 : Ref sig .tc := ⟨.hbm, 107, rfl⟩
abbrev main_call3_v8 : Ref sig .tc := ⟨.hbm, 108, rfl⟩
abbrev main_call3_cst_2 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_v12 : Ref sig .tc := ⟨.hbm, 113, rfl⟩
abbrev main_call3_cst_3 : Ref sig .tc := ⟨.hbm, 114, rfl⟩
abbrev main_call3_v13 : Ref sig .tc := ⟨.hbm, 115, rfl⟩
abbrev main_call3_cst_4 : Ref sig .tc := ⟨.hbm, 116, rfl⟩
abbrev main_call3_call0_v0 : Ref sig .tc := ⟨.hbm, 117, rfl⟩
abbrev main_call3_call0_v1 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_c_14 : Ref sig .tc := ⟨.hbm, 127, rfl⟩
abbrev main_v56 : Ref sig .tc := ⟨.hbm, 128, rfl⟩
abbrev main_v57 : Ref sig .tc := ⟨.hbm, 129, rfl⟩
abbrev main_c_15 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_16 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_17 : Ref sig .tc := ⟨.hbm, 147, rfl⟩
abbrev main_v73 : Ref sig .tc := ⟨.hbm, 148, rfl⟩
abbrev main_v74 : Ref sig .tc := ⟨.hbm, 149, rfl⟩
abbrev main_cst_18 : Ref sig .tc := ⟨.hbm, 150, rfl⟩
abbrev main_v75 : Ref sig .tc := ⟨.hbm, 151, rfl⟩
abbrev main_v76 : Ref sig .tc := ⟨.hbm, 152, rfl⟩
abbrev main_c_19 : Ref sig .tc := ⟨.hbm, 153, rfl⟩
abbrev main_call4_cst : Ref sig .tc := ⟨.hbm, 154, rfl⟩
abbrev main_call4_v0 : Ref sig .tc := ⟨.hbm, 155, rfl⟩
abbrev main_call4_v1 : Ref sig .tc := ⟨.hbm, 156, rfl⟩
abbrev main_call4_cst_0 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_v6 : Ref sig .tc := ⟨.hbm, 162, rfl⟩
abbrev main_call4_v7 : Ref sig .tc := ⟨.hbm, 163, rfl⟩
abbrev main_call4_cst_1 : Ref sig .tc := ⟨.hbm, 164, rfl⟩
abbrev main_call4_v8 : Ref sig .tc := ⟨.hbm, 165, rfl⟩
abbrev main_call4_cst_2 : Ref sig .tc := ⟨.hbm, 166, rfl⟩
abbrev main_call4_v9 : Ref sig .tc := ⟨.hbm, 167, rfl⟩
abbrev main_call4_v10 : Ref sig .tc := ⟨.hbm, 168, rfl⟩
abbrev main_call4_v11 : Ref sig .tc := ⟨.hbm, 169, rfl⟩
abbrev main_call4_v12 : Ref sig .tc := ⟨.hbm, 170, rfl⟩
abbrev main_call4_cst_3 : Ref sig .tc := ⟨.hbm, 171, rfl⟩
abbrev main_call4_v13 : Ref sig .tc := ⟨.hbm, 172, rfl⟩
abbrev main_call4_cst_4 : Ref sig .tc := ⟨.hbm, 173, rfl⟩
abbrev main_call4_call0_v0 : Ref sig .tc := ⟨.hbm, 174, rfl⟩
abbrev main_call4_call0_v1 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_c_20 : Ref sig .tc := ⟨.hbm, 184, rfl⟩
abbrev main_v85 : Ref sig .tc := ⟨.hbm, 185, rfl⟩
abbrev main_v86 : Ref sig .tc := ⟨.hbm, 186, rfl⟩
abbrev main_c_21 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_cst_22 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  shapeCasts_S10000_S10000x1 : S10000.ShapeCasts S10000x1
  reducesTo_S10000x512_S512_d0 : S10000x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S10000x512_0_1 : S1x512.BroadcastsInDim S10000x512 (![0, 1] : Fin 2 → Fin S10000x512.rank)
  slices_S3x512_S1x512_0_0 : S3x512.Slices ![0, 0] S1x512
  shapeCasts_S1x512_S512 : S1x512.ShapeCasts S512
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S1x512_S2000x512 : S1x512.Broadcasts S2000x512
  broadcasts_S2000x1_S2000x512 : S2000x1.Broadcasts S2000x512
  bcast_S_S10000x512 : S_.BroadcastsInDim S10000x512 (![] : Fin 0 → Fin S10000x512.rank)
  slices_S3x512x512_S1x512x512_0_0_0 : S3x512x512.Slices ![0, 0, 0] S1x512x512
  shapeCasts_S1x512x512_S512x512 : S1x512x512.ShapeCasts S512x512
  bitsLt_bf16_f32 : FTy.bits .bf16 < FTy.bits .f32
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S3x512_S1x512_1_0 : S3x512.Slices ![1, 0] S1x512
  slices_S3x512x512_S1x512x512_1_0_0 : S3x512x512.Slices ![1, 0, 0] S1x512x512
  slices_S3x512_S1x512_2_0 : S3x512.Slices ![2, 0] S1x512
  slices_S3x512x512_S1x512x512_2_0_0 : S3x512x512.Slices ![2, 0, 0] S1x512x512
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S10000x1.size a
  hwx0_5 : ∀ i : grid0.Coords, EltTy.bits .f32 = 32 ∨ (Rect.block (s := S10000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x512.size a ≤ S10000x512.size a
  hwx0_6 : ∀ i : grid0.Coords, EltTy.bits .f32 = 32 ∨ (Rect.block (s := S10000x512) S2000x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S10000x1.size a
  hwx1_1 : ∀ i : grid1.Coords, EltTy.bits .f32 = 32 ∨ (Rect.block (s := S10000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S10000x512.size a
  hwx1_4 : ∀ i : grid1.Coords, EltTy.bits .f32 = 32 ∨ (Rect.block (s := S10000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S10000x512.size a
  hwx2_0 : ∀ i : grid2.Coords, EltTy.bits .f32 = 32 ∨ (Rect.block (s := S10000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S10000x1.size a
  hwx2_5 : ∀ i : grid2.Coords, EltTy.bits .f32 = 32 ∨ (Rect.block (s := S10000x1) S2000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x512.size a ≤ S10000x512.size a
  hwx2_6 : ∀ i : grid2.Coords, EltTy.bits .f32 = 32 ∨ (Rect.block (s := S10000x512) S2000x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S10000x512.size a
  hwx3_0 : ∀ i : grid3.Coords, EltTy.bits .f32 = 32 ∨ (Rect.block (s := S10000x512) S2000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S10000x1.size a
  hwx3_1 : ∀ i : grid3.Coords, EltTy.bits .f32 = 32 ∨ (Rect.block (s := S10000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .bf16 = 32 ∨ (Rect.block (s := S512x512) S512x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x512.size a ≤ S10000x512.size a
  hwx3_4 : ∀ i : grid3.Coords, EltTy.bits .f32 = 32 ∨ (Rect.block (s := S10000x512) S2000x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S10000x512.size a
  hwx4_0 : ∀ i : grid4.Coords, EltTy.bits .f32 = 32 ∨ (Rect.block (s := S10000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S10000x1.size a
  hwx4_5 : ∀ i : grid4.Coords, EltTy.bits .f32 = 32 ∨ (Rect.block (s := S10000x1) S2000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x512.size a ≤ S10000x512.size a
  hwx4_6 : ∀ i : grid4.Coords, EltTy.bits .f32 = 32 ∨ (Rect.block (s := S10000x512) S2000x512.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S10000x512.size a
  hwx5_0 : ∀ i : grid5.Coords, EltTy.bits .f32 = 32 ∨ (Rect.block (s := S10000x512) S2000x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S10000x1.size a
  hwx5_1 : ∀ i : grid5.Coords, EltTy.bits .f32 = 32 ∨ (Rect.block (s := S10000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S512x512.size a
  hwx5_2 : ∀ i : grid5.Coords, EltTy.bits .bf16 = 32 ∨ (Rect.block (s := S512x512) S512x512.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x512.size a ≤ S10000x512.size a
  hwx5_4 : ∀ i : grid5.Coords, EltTy.bits .f32 = 32 ∨ (Rect.block (s := S10000x512) S2000x512.size (cc5_transform_4 i) (hinb5_4 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2000x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v65) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S2000x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v11) S2000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v84) S2000x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v94) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v97) S512x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S2000x512.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S10000x512 : Shape := ⟨2, ![10000, 512]⟩
abbrev S160000 : Shape := ⟨1, ![160000]⟩
abbrev S3x512 : Shape := ⟨2, ![3, 512]⟩
abbrev S3x512x512 : Shape := ⟨3, ![3, 512, 512]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S512 : Shape := ⟨1, ![512]⟩
abbrev S1x512 : Shape := ⟨2, ![1, 512]⟩
abbrev S160000x512 : Shape := ⟨2, ![160000, 512]⟩
abbrev S1x512x512 : Shape := ⟨3, ![1, 512, 512]⟩
abbrev S512x512 : Shape := ⟨2, ![512, 512]⟩

abbrev nBuf : Space → Nat
  | .hbm => 261
  | .vmem => 0
  | .smem => 0
  | _ => 0

abbrev hbmTy0_0 (i : Nat) : BufTy := match i % 128 with
  | 0 => ⟨S10000x512, .f32⟩
  | 1 => ⟨S160000, .i32⟩
  | 2 => ⟨S160000, .i32⟩
  | 3 => ⟨S3x512, .f32⟩
  | 4 => ⟨S3x512, .f32⟩
  | 5 => ⟨S3x512x512, .f32⟩
  | 6 => ⟨S3x512, .f32⟩
  | 7 => ⟨S_, .f32⟩
  | 8 => ⟨S160000, .f32⟩
  | 9 => ⟨S_, .f32⟩
  | 10 => ⟨S10000, .f32⟩
  | 11 => ⟨S160000x1, .i32⟩
  | 12 => ⟨S10000, .f32⟩
  | 13 => ⟨S_, .f32⟩
  | 14 => ⟨S_, .f32⟩
  | 15 => ⟨S10000, .f32⟩
  | 16 => ⟨S10000, .f32⟩
  | 17 => ⟨S_, .f32⟩
  | 18 => ⟨S10000, .f32⟩
  | 19 => ⟨S160000x1, .i32⟩
  | 20 => ⟨S10000, .f32⟩
  | 21 => ⟨S_, .f32⟩
  | 22 => ⟨S_, .f32⟩
  | 23 => ⟨S10000, .f32⟩
  | 24 => ⟨S10000, .f32⟩
  | 25 => ⟨S_, .f32⟩
  | 26 => ⟨S10000, .f32⟩
  | 27 => ⟨S10000, .f32⟩
  | 28 => ⟨S10000x1, .f32⟩
  | 29 => ⟨S_, .f32⟩
  | 30 => ⟨S10000, .f32⟩
  | 31 => ⟨S10000, .f32⟩
  | 32 => ⟨S10000x1, .f32⟩
  | 33 => ⟨S_, .f32⟩
  | 34 => ⟨S512, .f32⟩
  | 35 => ⟨S_, .f32⟩
  | 36 => ⟨S512, .f32⟩
  | 37 => ⟨S512, .f32⟩
  | 38 => ⟨S_, .i32⟩
  | 39 => ⟨S_, .f32⟩
  | 40 => ⟨S512, .f32⟩
  | 41 => ⟨S1x512, .f32⟩
  | 42 => ⟨S_, .f32⟩
  | 43 => ⟨S1x512, .f32⟩
  | 44 => ⟨S1x512, .f32⟩
  | 45 => ⟨S10000x512, .f32⟩
  | 46 => ⟨S10000x512, .f32⟩
  | 47 => ⟨S10000x512, .f32⟩
  | 48 => ⟨S_, .f32⟩
  | 49 => ⟨S_, .f32⟩
  | 50 => ⟨S_, .f32⟩
  | 51 => ⟨S_, .f32⟩
  | 52 => ⟨S512, .f32⟩
  | 53 => ⟨S512, .f32⟩
  | 54 => ⟨S512, .f32⟩
  | 55 => ⟨S_, .f32⟩
  | 56 => ⟨S_, .i1⟩
  | 57 => ⟨S_, .f32⟩
  | 58 => ⟨S_, .f32⟩
  | 59 => ⟨S512, .f32⟩
  | 60 => ⟨S512, .f32⟩
  | 61 => ⟨S1x512, .f32⟩
  | 62 => ⟨S10000x512, .f32⟩
  | 63 => ⟨S10000x512, .f32⟩
  | 64 => ⟨S_, .f32⟩
  | 65 => ⟨S512, .f32⟩
  | 66 => ⟨S512, .f32⟩
  | 67 => ⟨S512, .f32⟩
  | 68 => ⟨S1x512, .f32⟩
  | 69 => ⟨S10000x512, .f32⟩
  | 70 => ⟨S10000x512, .f32⟩
  | 71 => ⟨S1x512, .f32⟩
  | 72 => ⟨S512, .f32⟩
  | 73 => ⟨S1x512, .f32⟩
  | 74 => ⟨S10000x512, .f32⟩
  | 75 => ⟨S10000x512, .f32⟩
  | 76 => ⟨S1x512, .f32⟩
  | 77 => ⟨S512, .f32⟩
  | 78 => ⟨S1x512, .f32⟩
  | 79 => ⟨S10000x512, .f32⟩
  | 80 => ⟨S10000x512, .f32⟩
  | 81 => ⟨S10000x512, .f32⟩
  | 82 => ⟨S10000x512, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000x512, .f32⟩
  | 92 => ⟨S_, .f32⟩
  | 93 => ⟨S10000x512, .f32⟩
  | 94 => ⟨S160000x1, .i32⟩
  | 95 => ⟨S10000x512, .f32⟩
  | 96 => ⟨S10000x512, .f32⟩
  | 97 => ⟨S10000x512, .f32⟩
  | 98 => ⟨S1x512x512, .f32⟩
  | 99 => ⟨S512x512, .f32⟩
  | 100 => ⟨S10000x512, .f32⟩
  | 101 => ⟨S1x512, .f32⟩
  | 102 => ⟨S512, .f32⟩
  | 103 => ⟨S1x512, .f32⟩
  | 104 => ⟨S10000x512, .f32⟩
  | 105 => ⟨S10000x512, .f32⟩
  | 106 => ⟨S_, .f32⟩
  | 107 => ⟨S10000x512, .f32⟩
  | 108 => ⟨S10000x512, .f32⟩
  | 109 => ⟨S_, .f32⟩
  | 110 => ⟨S512, .f32⟩
  | 111 => ⟨S_, .f32⟩
  | 112 => ⟨S512, .f32⟩
  | 113 => ⟨S512, .f32⟩
  | 114 => ⟨S_, .i32⟩
  | 115 => ⟨S_, .f32⟩
  | 116 => ⟨S512, .f32⟩
  | 117 => ⟨S1x512, .f32⟩
  | 118 => ⟨S_, .f32⟩
  | 119 => ⟨S1x512, .f32⟩
  | 120 => ⟨S1x512, .f32⟩
  | 121 => ⟨S10000x512, .f32⟩
  | 122 => ⟨S10000x512, .f32⟩
  | 123 => ⟨S10000x512, .f32⟩
  | 124 => ⟨S_, .f32⟩
  | 125 => ⟨S_, .f32⟩
  | 126 => ⟨S_, .f32⟩
  | 127 => ⟨S_, .f32⟩
  | _ => ⟨S10000x512, .f32⟩

abbrev hbmTy0_1 (i : Nat) : BufTy := match i % 128 with
  | 0 => ⟨S512, .f32⟩
  | 1 => ⟨S512, .f32⟩
  | 2 => ⟨S512, .f32⟩
  | 3 => ⟨S_, .f32⟩
  | 4 => ⟨S_, .i1⟩
  | 5 => ⟨S_, .f32⟩
  | 6 => ⟨S_, .f32⟩
  | 7 => ⟨S512, .f32⟩
  | 8 => ⟨S512, .f32⟩
  | 9 => ⟨S1x512, .f32⟩
  | 10 => ⟨S10000x512, .f32⟩
  | 11 => ⟨S10000x512, .f32⟩
  | 12 => ⟨S_, .f32⟩
  | 13 => ⟨S512, .f32⟩
  | 14 => ⟨S512, .f32⟩
  | 15 => ⟨S512, .f32⟩
  | 16 => ⟨S1x512, .f32⟩
  | 17 => ⟨S10000x512, .f32⟩
  | 18 => ⟨S10000x512, .f32⟩
  | 19 => ⟨S1x512, .f32⟩
  | 20 => ⟨S512, .f32⟩
  | 21 => ⟨S1x512, .f32⟩
  | 22 => ⟨S10000x512, .f32⟩
  | 23 => ⟨S10000x512, .f32⟩
  | 24 => ⟨S1x512, .f32⟩
  | 25 => ⟨S512, .f32⟩
  | 26 => ⟨S1x512, .f32⟩
  | 27 => ⟨S10000x512, .f32⟩
  | 28 => ⟨S10000x512, .f32⟩
  | 29 => ⟨S10000x512, .f32⟩
  | 30 => ⟨S10000x512, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000x512, .f32⟩
  | 40 => ⟨S_, .f32⟩
  | 41 => ⟨S10000x512, .f32⟩
  | 42 => ⟨S160000x1, .i32⟩
  | 43 => ⟨S10000x512, .f32⟩
  | 44 => ⟨S10000x512, .f32⟩
  | 45 => ⟨S10000x512, .f32⟩
  | 46 => ⟨S1x512x512, .f32⟩
  | 47 => ⟨S512x512, .f32⟩
  | 48 => ⟨S10000x512, .f32⟩
  | 49 => ⟨S1x512, .f32⟩
  | 50 => ⟨S512, .f32⟩
  | 51 => ⟨S1x512, .f32⟩
  | 52 => ⟨S10000x512, .f32⟩
  | 53 => ⟨S10000x512, .f32⟩
  | 54 => ⟨S_, .f32⟩
  | 55 => ⟨S10000x512, .f32⟩
  | 56 => ⟨S10000x512, .f32⟩
  | 57 => ⟨S_, .f32⟩
  | 58 => ⟨S512, .f32⟩
  | 59 => ⟨S_, .f32⟩
  | 60 => ⟨S512, .f32⟩
  | 61 => ⟨S512, .f32⟩
  | 62 => ⟨S_, .i32⟩
  | 63 => ⟨S_, .f32⟩
  | 64 => ⟨S512, .f32⟩
  | 65 => ⟨S1x512, .f32⟩
  | 66 => ⟨S_, .f32⟩
  | 67 => ⟨S1x512, .f32⟩
  | 68 => ⟨S1x512, .f32⟩
  | 69 => ⟨S10000x512, .f32⟩
  | 70 => ⟨S10000x512, .f32⟩
  | 71 => ⟨S10000x512, .f32⟩
  | 72 => ⟨S_, .f32⟩
  | 73 => ⟨S_, .f32⟩
  | 74 => ⟨S_, .f32⟩
  | 75 => ⟨S_, .f32⟩
  | 76 => ⟨S512, .f32⟩
  | 77 => ⟨S512, .f32⟩
  | 78 => ⟨S512, .f32⟩
  | 79 => ⟨S_, .f32⟩
  | 80 => ⟨S_, .i1⟩
  | 81 => ⟨S_, .f32⟩
  | 82 => ⟨S_, .f32⟩
  | 83 => ⟨S512, .f32⟩
  | 84 => ⟨S512, .f32⟩
  | 85 => ⟨S1x512, .f32⟩
  | 86 => ⟨S10000x512, .f32⟩
  | 87 => ⟨S10000x512, .f32⟩
  | 88 => ⟨S_, .f32⟩
  | 89 => ⟨S512, .f32⟩
  | 90 => ⟨S512, .f32⟩
  | 91 => ⟨S512, .f32⟩
  | 92 => ⟨S1x512, .f32⟩
  | 93 => ⟨S10000x512, .f32⟩
  | 94 => ⟨S10000x512, .f32⟩
  | 95 => ⟨S1x512, .f32⟩
  | 96 => ⟨S512, .f32⟩
  | 97 => ⟨S1x512, .f32⟩
  | 98 => ⟨S10000x512, .f32⟩
  | 99 => ⟨S10000x512, .f32⟩
  | 100 => ⟨S1x512, .f32⟩
  | 101 => ⟨S512, .f32⟩
  | 102 => ⟨S1x512, .f32⟩
  | 103 => ⟨S10000x512, .f32⟩
  | 104 => ⟨S10000x512, .f32⟩
  | 105 => ⟨S10000x512, .f32⟩
  | 106 => ⟨S10000x512, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000x512, .f32⟩
  | 116 => ⟨S_, .f32⟩
  | 117 => ⟨S10000x512, .f32⟩
  | 118 => ⟨S160000x1, .i32⟩
  | 119 => ⟨S10000x512, .f32⟩
  | 120 => ⟨S10000x512, .f32⟩
  | 121 => ⟨S10000x512, .f32⟩
  | 122 => ⟨S1x512x512, .f32⟩
  | 123 => ⟨S512x512, .f32⟩
  | 124 => ⟨S10000x512, .f32⟩
  | 125 => ⟨S1x512, .f32⟩
  | 126 => ⟨S512, .f32⟩
  | 127 => ⟨S1x512, .f32⟩
  | _ => ⟨S10000x512, .f32⟩

abbrev hbmTy0_2 (i : Nat) : BufTy := match i % 128 with
  | 0 => ⟨S10000x512, .f32⟩
  | 1 => ⟨S10000x512, .f32⟩
  | 2 => ⟨S_, .f32⟩
  | 3 => ⟨S10000x512, .f32⟩
  | 4 => ⟨S10000x512, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_call2_cst : Ref sig .tc := ⟨.hbm, 39, rfl⟩
abbrev main_call2_v0 : Ref sig .tc := ⟨.hbm, 40, rfl⟩
abbrev main_call2_v1 : Ref sig .tc := ⟨.hbm, 41, rfl⟩
abbrev main_call2_cst_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_cst_1 : Ref sig .tc := ⟨.hbm, 49, rfl⟩
abbrev main_call2_v8 : Ref sig .tc := ⟨.hbm, 50, rfl⟩
abbrev main_call2_cst_2 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_cst_3 : Ref sig .tc := ⟨.hbm, 55, rfl⟩
abbrev main_call2_v12 : Ref sig .tc := ⟨.hbm, 56, rfl⟩
abbrev main_call2_cst_4 : Ref sig .tc := ⟨.hbm, 57, rfl⟩
abbrev main_call2_call0_v0 : Ref sig .tc := ⟨.hbm, 58, rfl⟩
abbrev main_call2_call0_v1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_8 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_c_9 : Ref sig .tc := ⟨.hbm, 83, rfl⟩
abbrev main_v40 : Ref sig .tc := ⟨.hbm, 84, rfl⟩
abbrev main_v41 : Ref sig .tc := ⟨.hbm, 85, rfl⟩
abbrev main_c_10 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_11 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_call3_cst : Ref sig .tc := ⟨.hbm, 106, rfl⟩
abbrev main_call3_v0 : Ref sig .tc := ⟨.hbm, 107, rfl⟩
abbrev main_v60 : Ref sig .tc := ⟨.hbm, 108, rfl⟩
abbrev main_cst_12 : Ref sig .tc := ⟨.hbm, 109, rfl⟩
abbrev main_v61 : Ref sig .tc := ⟨.hbm, 110, rfl⟩
abbrev main_cst_13 : Ref sig .tc := ⟨.hbm, 111, rfl⟩
abbrev main_v62 : Ref sig .tc := ⟨.hbm, 112, rfl⟩
abbrev main_v63 : Ref sig .tc := ⟨.hbm, 113, rfl⟩
abbrev main_c_14 : Ref sig .tc := ⟨.hbm, 114, rfl⟩
abbrev main_call4_cst : Ref sig .tc := ⟨.hbm, 115, rfl⟩
abbrev main_call4_v0 : Ref sig .tc := ⟨.hbm, 116, rfl⟩
abbrev main_call4_v1 : Ref sig .tc := ⟨.hbm, 117, rfl⟩
abbrev main_call4_cst_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_v6 : Ref sig .tc := ⟨.hbm, 123, rfl⟩
abbrev main_call4_v7 : Ref sig .tc := ⟨.hbm, 124, rfl⟩
abbrev main_call4_cst_1 : Ref sig .tc := ⟨.hbm, 125, rfl⟩
abbrev main_call4_v8 : Ref sig .tc := ⟨.hbm, 126, rfl⟩
abbrev main_call4_cst_2 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_cst_3 : Ref sig .tc := ⟨.hbm, 131, rfl⟩
abbrev main_call4_v12 : Ref sig .tc := ⟨.hbm, 132, rfl⟩
abbrev main_call4_cst_4 : Ref sig .tc := ⟨.hbm, 133, rfl⟩
abbrev main_call4_call0_v0 : Ref sig .tc := ⟨.hbm, 134, rfl⟩
abbrev main_call4_call0_v1 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_cst_15 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_c_16 : Ref sig .tc := ⟨.hbm, 159, rfl⟩
abbrev main_v86 : Ref sig .tc := ⟨.hbm, 160, rfl⟩
abbrev main_v87 : Ref sig .tc := ⟨.hbm, 161, rfl⟩
abbrev main_c_17 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_cst_18 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_call5_cst : Ref sig .tc := ⟨.hbm, 182, rfl⟩
abbrev main_call5_v0 : Ref sig .tc := ⟨.hbm, 183, rfl⟩
abbrev main_v106 : Ref sig .tc := ⟨.hbm, 184, rfl⟩
abbrev main_cst_19 : Ref sig .tc := ⟨.hbm, 185, rfl⟩
abbrev main_v107 : Ref sig .tc := ⟨.hbm, 186, rfl⟩
abbrev main_cst_20 : Ref sig .tc := ⟨.hbm, 187, rfl⟩
abbrev main_v108 : Ref sig .tc := ⟨.hbm, 188, rfl⟩
abbrev main_v109 : Ref sig .tc := ⟨.hbm, 189, rfl⟩
abbrev main_c_21 : Ref sig .tc := ⟨.hbm, 190, rfl⟩
abbrev main_call6_cst : Ref sig .tc := ⟨.hbm, 191, rfl⟩
abbrev main_call6_v0 : Ref sig .tc := ⟨.hbm, 192, rfl⟩
abbrev main_call6_v1 : Ref sig .tc := ⟨.hbm, 193, rfl⟩
abbrev main_call6_cst_0 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_call6_v5 : Ref sig .tc := ⟨.hbm, 198, rfl⟩
abbrev main_call6_v6 : Ref sig .tc := ⟨.hbm, 199, rfl⟩
abbrev main_call6_v7 : Ref sig .tc := ⟨.hbm, 200, rfl⟩
abbrev main_call6_cst_1 : Ref sig .tc := ⟨.hbm, 201, rfl⟩
abbrev main_call6_v8 : Ref sig .tc := ⟨.hbm, 202, rfl⟩
abbrev main_call6_cst_2 : Ref sig .tc := ⟨.hbm, 203, rfl⟩
abbrev main_call6_v9 : Ref sig .tc := ⟨.hbm, 204, rfl⟩
abbrev main_call6_v10 : Ref sig .tc := ⟨.hbm, 205, rfl⟩
abbrev main_call6_v11 : Ref sig .tc := ⟨.hbm, 206, rfl⟩
abbrev main_call6_cst_3 : Ref sig .tc := ⟨.hbm, 207, rfl⟩
abbrev main_call6_v12 : Ref sig .tc := ⟨.hbm, 208, rfl⟩
abbrev main_call6_cst_4 : Ref sig .tc := ⟨.hbm, 209, rfl⟩
abbrev main_call6_call0_v0 : Ref sig .tc := ⟨.hbm, 210, rfl⟩
abbrev main_call6_call0_v1 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_cst_22 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_c_23 : Ref sig .tc := ⟨.hbm, 235, rfl⟩
abbrev main_v132 : Ref sig .tc := ⟨.hbm, 236, rfl⟩
abbrev main_v133 : Ref sig .tc := ⟨.hbm, 237, rfl⟩
abbrev main_c_24 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_cst_25 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_call7_cst : Ref sig .tc := ⟨.hbm, 258, rfl⟩
abbrev main_call7_v0 : Ref sig .tc := ⟨.hbm, 259, rfl⟩
abbrev main_v152 : Ref sig .tc := ⟨.hbm, 260, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  reducesTo_S10000x512_S512_d0 : S10000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S10000x512_0_1 : S1x512.BroadcastsInDim S10000x512 (![0, 1] : Fin 2 → Fin S10000x512.rank)
  slices_S3x512_S1x512_0_0 : S3x512.Slices ![0, 0] S1x512
  shapeCasts_S1x512_S512 : S1x512.ShapeCasts S512
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  slices_S3x512x512_S1x512x512_0_0_0 : S3x512x512.Slices ![0, 0, 0] S1x512x512
  shapeCasts_S1x512x512_S512x512 : S1x512x512.ShapeCasts S512x512
  slices_S3x512_S1x512_1_0 : S3x512.Slices ![1, 0] S1x512
  slices_S3x512x512_S1x512x512_1_0_0 : S3x512x512.Slices ![1, 0, 0] S1x512x512
  slices_S3x512_S1x512_2_0 : S3x512.Slices ![2, 0] S1x512
  slices_S3x512x512_S1x512x512_2_0_0 : S3x512x512.Slices ![2, 0, 0] S1x512x512
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.RunValue.lean ====
/-
  The kernel program's run, with the result array read.

  The program is twenty-two segments: stretches of host operations and six kernel launches.  The contents of the
  TensorCore's buffers at each boundary between segments are a fold from the launch memory: a host stretch applies its
  operations' results, a launch leaves each of its result arrays at what its grid points wrote back and every other
  buffer as it was.  Every weakly fair execution ends with every unscoped buffer at the last boundary's contents; read at
  the result buffer that is the value of the run, read at an argument it is the argument as launched.
-/
import proofs.«108859_j74131135529465_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and the
    arguments end as launched. -/
theorem run_value : θ_run defs (onTc (τ := τ) (main (F := F))) ⟨m, fun _ => 0, ρ⟩ (fun r => ∀ c : Dev nD,
      r.2.mem ((c.tc : Thread nD τ).loc main_v101) = W22 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v101 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c)⟩)

end Cert.KernelIdeal.RunValue

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«108859_j74131135529465_1_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.Spec.lean ====
/-
  The two entrywise functions a graph-convolution layer is made of, over the extended reals.

  * `normScale x g be mu var s`: every entry of the matrix `x` is centred by its column's mean `mu`, multiplied by
    the reciprocal square root of its column's variance `var` plus a fixed small constant, by the column's gain `g`,
    shifted by the column's offset `be`, and the whole row is then multiplied by the row's factor `s`:
    `((x (r, j) - mu j) * rsqrt (var j + eps) * g j + be j) * s r`.
  * `scaleAffineRelu a d w b`: every row of `a` is multiplied by the row's factor `d`, the result is multiplied as a
    matrix by `w`, the row vector `b` is added to every row, and negative entries are replaced by zero:
    `max (∑ k, (a (r, k) * d r) * w (k, q) + b q) 0`.

  Column vectors are kept as one-row matrices and row factors as one-column matrices, as the programs hold them.
  Both functions read, for the entry `(r, j)`, only row `r` of the matrix operand; the two congruence lemmas say so.
-/
import Idealize.ShloMosaic.PureOps.Ideal.Laws
import Idealize.ShloMosaic.Lib.ValueIdx
import Idealize.ShloMosaic.Lib.ValueLayout
import Idealize.ShloMosaic.Lib.Pipeline.Value
import proofs.«108859_j74131135529465_1_alg».proof.Proof.LibMatmul
import proofs.«108859_j74131135529465_1_alg».proof.Proof.LibAffineBodies

noncomputable section

open scoped BigOperators
open Idealize.ShloMosaic Idealize.ShloMosaic.ValueIdx

namespace GraphConv

open Gcn (Mat)

variable {M K N : ℕ}

/-- The small constant added to a variance before its reciprocal square root: the binary32 value nearest 1e-5. -/
abbrev eps : EReal := Ideal.ofBits .f32 0x3727C5AC#32

/-- Centre, normalise, gain, offset, then the row's factor. -/
def normScale (x : Mat M N) (g be mu var : Mat 1 N) (s : Mat M 1) : Mat M N :=
  fun i => ((x i - mu (ix2 0 (i 1))) * Ideal.rsqrt (var (ix2 0 (i 1)) + eps) * g (ix2 0 (i 1)) + be (ix2 0 (i 1)))
    * s (ix2 (i 0) 0)

/-- The row's factor, the matrix product, the row vector added, the clamp at zero. -/
def scaleAffineRelu (a : Mat M K) (d : Mat M 1) (w : Mat K N) (b : Mat 1 N) : Mat M N :=
  fun i => max ((∑ k : Fin K, (a (ix2 (i 0) k) * d (ix2 (i 0) 0)) * w (ix2 k (i 1))) + b (ix2 0 (i 1))) 0

/-- A one-column matrix repeated along the columns, read at an entry. -/
theorem colBroadcast_apply (s : FVec Ideal (⟨2, ![M, 1]⟩ : Shape) .f32)
    (hb : (⟨2, ![M, 1]⟩ : Shape).Broadcasts (⟨2, ![M, N]⟩ : Shape)) (p : Fin M) (q : Fin N) :
    broadcastTo (⟨2, ![M, N]⟩ : Shape) s hb (ix2 p q) = s (ix2 p 0) := by
  refine broadcastTo_apply s hb (ix2 p q) (ix2 p 0) fun a => ?_
  match a with
  | ⟨0, _⟩ =>
    show p.val = if M = 1 then 0 else p.val
    split
    · have := p.isLt; omega
    · rfl
  | ⟨1, _⟩ => exact (if_pos rfl).symm

/-- `normScale` at an entry of one matrix is `normScale` at an entry of another when the entries of the matrix
    operands agree, the rows' factors agree, and the two entries are in the same column. -/
theorem normScale_congr {M' : ℕ} {X : Mat M N} {X' : Mat M' N} {g be mu var : Mat 1 N} {S : Mat M 1} {S' : Mat M' 1}
    (j : (⟨2, ![M, N]⟩ : Shape).Idx) (i : (⟨2, ![M', N]⟩ : Shape).Idx)
    (hX : X j = X' i) (hS : S (ix2 (j 0) 0) = S' (ix2 (i 0) 0)) (h1 : (j 1).val = (i 1).val) :
    normScale X g be mu var S j = normScale X' g be mu var S' i := by
  have e : (j 1 : Fin N) = i 1 := Fin.ext h1
  unfold normScale
  rw [hX, hS, e]

/-- `scaleAffineRelu` at an entry of one matrix is `scaleAffineRelu` at an entry of another when the two rows of the
    matrix operands agree, the rows' factors agree, and the two entries are in the same column. -/
theorem scaleAffineRelu_congr {M' : ℕ} {A : Mat M K} {A' : Mat M' K} {D : Mat M 1} {D' : Mat M' 1} {W : Mat K N} {B : Mat 1 N}
    (j : (⟨2, ![M, N]⟩ : Shape).Idx) (i : (⟨2, ![M', N]⟩ : Shape).Idx)
    (hA : ∀ k : Fin K, A (ix2 (j 0) k) = A' (ix2 (i 0) k)) (hD : D (ix2 (j 0) 0) = D' (ix2 (i 0) 0))
    (h1 : (j 1).val = (i 1).val) :
    scaleAffineRelu A D W B j = scaleAffineRelu A' D' W B i := by
  have e : (j 1 : Fin N) = i 1 := Fin.ext h1
  unfold scaleAffineRelu
  rw [hD, e]
  exact congrArg (fun z => max (z + B (ix2 0 (i 1))) 0) (Finset.sum_congr rfl fun k _ => by rw [hA k])

end GraphConv

end
-- ==== Proof.Tiles.lean ====
/-
  Each kernel body's stored value is one of the two entrywise functions, on a tile of 2000 rows.

  The three normalising bodies subtract the broadcast mean row, multiply by the broadcast reciprocal square root of
  the variance row plus the constant, by the broadcast gain row, add the broadcast offset row and multiply by the
  broadcast column of row factors: `GraphConv.normScale` of the tile.  The three product bodies multiply the tile by
  the broadcast column of row factors, narrow it, multiply it as a matrix by the (already narrow) weights into the
  zero matrix, add the broadcast bias row and clamp at zero: `GraphConv.scaleAffineRelu` of the tile — narrowing is the
  identity on extended reals and the product into zero is the plain sum over the contracted axis.
-/
import proofs.«108859_j74131135529465_1_alg».proof.Proof.Gen.KernelIdeal.Skeleton
import proofs.«108859_j74131135529465_1_alg».proof.Proof.Spec

noncomputable section

open scoped BigOperators
open Idealize.ShloMosaic Idealize.ShloMosaic.ValueIdx

namespace Cert.KernelIdeal.Tiles

open Cert.KernelIdeal Cert.KernelIdeal.Gen GraphConv

variable [Cert.KernelIdeal.Facts₀]

theorem rsqrt_apply {s : Shape} {φ : FTy} (a : FVec Ideal s φ) (i : s.Idx) : rsqrt a i = Ideal.rsqrt (a i) := rfl

/-- The printed dimension numbers of the bodies' product are those of a plain matrix product. -/
theorem dot_plain : PlainMatmul.IsPlain (M := 2000) (K := 512) (N := 512) dot_S2000x512_S512x512_S2000x512_1_0_0_1_n_n :=
  ⟨rfl, rfl, rfl, rfl, rfl, rfl⟩

theorem norm0 (v0 : Vec Ideal S2000x512 .f32) (v1 v3 v5 v7 : Vec Ideal S1x512 .f32) (v9 : Vec Ideal S2000x1 .f32) :
    k0_pay1 v0 v1 v3 v5 v7 v9 = normScale (M := 2000) (N := 512) v0 v1 v3 v5 v7 v9 := by
  funext i
  obtain ⟨p, q, rfl⟩ : ∃ (p : Fin 2000) (q : Fin 512), i = ix2 p q := ⟨i 0, i 1, eq_ix2 i⟩
  unfold k0_pay1
  simp only [shapeCast_self]
  simp only [mulf_apply, addf_apply, subf_apply, Gcn.rowBroadcast_apply, colBroadcast_apply, rsqrt_apply]
  rfl

theorem norm2 (v0 : Vec Ideal S2000x512 .f32) (v2 v4 v6 v8 : Vec Ideal S1x512 .f32) (v10 : Vec Ideal S2000x1 .f32) :
    k2_pay1 v0 v2 v4 v6 v8 v10 = normScale (M := 2000) (N := 512) v0 v2 v4 v6 v8 v10 := by
  funext i
  obtain ⟨p, q, rfl⟩ : ∃ (p : Fin 2000) (q : Fin 512), i = ix2 p q := ⟨i 0, i 1, eq_ix2 i⟩
  unfold k2_pay1
  simp only [shapeCast_self]
  simp only [mulf_apply, addf_apply, subf_apply, Gcn.rowBroadcast_apply, colBroadcast_apply, rsqrt_apply]
  rfl

theorem norm4 (v0 : Vec Ideal S2000x512 .f32) (v2 v4 v6 v8 : Vec Ideal S1x512 .f32) (v10 : Vec Ideal S2000x1 .f32) :
    k4_pay1 v0 v2 v4 v6 v8 v10 = normScale (M := 2000) (N := 512) v0 v2 v4 v6 v8 v10 := by
  funext i
  obtain ⟨p, q, rfl⟩ : ∃ (p : Fin 2000) (q : Fin 512), i = ix2 p q := ⟨i 0, i 1, eq_ix2 i⟩
  unfold k4_pay1
  simp only [shapeCast_self]
  simp only [mulf_apply, addf_apply, subf_apply, Gcn.rowBroadcast_apply, colBroadcast_apply, rsqrt_apply]
  rfl

/-- The product body's chain of vector operations, for any of the three bodies once its same-shape casts are gone. -/
theorem prod_body (v0 : Vec Ideal S2000x512 .f32) (v2 : Vec Ideal S2000x1 .f32) (v7 : Vec Ideal S512x512 .bf16)
    (v10 : Vec Ideal S1x512 .f32) (hc : S2000x1.Broadcasts S2000x512) (hr : S1x512.Broadcasts S2000x512)
    (hbits : FTy.bf16.bits < FTy.f32.bits) :
    maximumf (addf (matmul (φ₁ := .bf16) (φ₂ := .bf16) dot_S2000x512_S512x512_S2000x512_1_0_0_1_n_n none
          (truncf .bf16 (mulf v0 (broadcastTo S2000x512 v2 hc)) hbits) v7
          (constant S2000x512 .f32 0x00000000#32))
        (broadcastTo S2000x512 v10 hr))
      (broadcast S2000x512 (Scalar.ofBits (F := Ideal) .f32 0x00000000#32))
    = scaleAffineRelu (M := 2000) (K := 512) (N := 512) v0 v2 v7 v10 := by
  funext i
  obtain ⟨p, q, rfl⟩ : ∃ (p : Fin 2000) (q : Fin 512), i = ix2 p q := ⟨i 0, i 1, eq_ix2 i⟩
  rw [Gcn.clamp_apply, addf_apply, Gcn.rowBroadcast_apply]
  refine congrArg (fun z => max (z + v10 (ix2 0 q)) 0) ?_
  refine (PlainMatmul.apply (φ₁ := .bf16) (φ₂ := .bf16) dot_plain none _ v7 p q).trans (Finset.sum_congr rfl fun k _ => ?_)
  rw [truncf_apply, mulf_apply, colBroadcast_apply]

theorem prod1 (v0 : Vec Ideal S2000x512 .f32) (v2 : Vec Ideal S2000x1 .f32) (v7 : Vec Ideal S512x512 .bf16)
    (v10 : Vec Ideal S1x512 .f32) :
    k1_pay1 v0 v2 v7 v10 = scaleAffineRelu (M := 2000) (K := 512) (N := 512) v0 v2 v7 v10 := by
  unfold k1_pay1
  simp only [shapeCast_self]
  exact prod_body v0 v2 v7 v10 _ _ _

theorem prod3 (v0 : Vec Ideal S2000x512 .f32) (v2 : Vec Ideal S2000x1 .f32) (v7 : Vec Ideal S512x512 .bf16)
    (v10 : Vec Ideal S1x512 .f32) :
    k3_pay1 v0 v2 v7 v10 = scaleAffineRelu (M := 2000) (K := 512) (N := 512) v0 v2 v7 v10 := by
  unfold k3_pay1
  simp only [shapeCast_self]
  exact prod_body v0 v2 v7 v10 _ _ _

theorem prod5 (v0 : Vec Ideal S2000x512 .f32) (v2 : Vec Ideal S2000x1 .f32) (v7 : Vec Ideal S512x512 .bf16)
    (v10 : Vec Ideal S1x512 .f32) :
    k5_pay1 v0 v2 v7 v10 = scaleAffineRelu (M := 2000) (K := 512) (N := 512) v0 v2 v7 v10 := by
  unfold k5_pay1
  simp only [shapeCast_self]
  exact prod_body v0 v2 v7 v10 _ _ _

end Cert.KernelIdeal.Tiles

end
-- ==== Proof.Norm0.lean ====
/-
  Region 0 (a normalising call): the result array after the five grid points, as one function of the arrays the
  region finds.

  Point `t` works on rows `2000 t … 2000 t + 1999`: the matrix operand's and the row factors' blocks are those rows, the
  four one-row operands are whole at every point, and the point writes its tile back to the same rows of the result.
  The tile is `GraphConv.normScale` of the blocks, and `normScale` at a row reads that row only, so what point `t`
  writes is block `t` of `normScale` of the whole arrays; the five blocks tile the 10000 rows.
-/
import proofs.«108859_j74131135529465_1_alg».proof.Proof.Gen.KernelIdeal.Frame
import proofs.«108859_j74131135529465_1_alg».proof.Proof.Tiles
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm0

open Cert.KernelIdeal Cert.KernelIdeal.Gen GraphConv

variable (V : (c : Dev nD) → (b : Ref sig .tc) → Buf (Elt Ideal) ((c : Thread nD τ).loc b))

theorem hz : (![0, 0] : Fin 2 → Nat) = fun _ => 0 := funext fun a => by fin_cases a <;> rfl

/-- The whole-array function: `normScale` of the arrays as the region finds them. -/
abbrev whole (c : Dev nD) : S10000x512.Idx → Elt Ideal .f32 :=
  normScale (M := 10000) (N := 512) (V c main_arg0) (V c main_v22) (V c main_v25) (V c main_v18) (V c main_v19) (V c main_v11)

/-- The printed index maps over the grid: the row-tiled windows are at block `t`, the one-row windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the whole-array function. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero hz]
  simp only [View.ld_unit_zero (S := S2000x512) hz, View.ld_unit_zero (S := S1x512) hz, View.ld_unit_zero (S := S2000x1) hz]
  rw [Tiles.norm0]
  obtain ⟨e00, e01, e10, e11, e20, e21, e30, e31, e40, e41, e50, e51, e60, e61⟩ := idx_facts t
  funext j
  have hj0 : (j 0).val < 2000 := (j 0).isLt
  have hj1 : (j 1).val < 512 := (j 1).isLt
  show normScale (M := 2000) (N := 512) (iblk0 V c 0 t) (iblk0 V c 1 t) (iblk0 V c 2 t) (iblk0 V c 3 t) (iblk0 V c 4 t) (iblk0 V c 5 t) j
    = normScale (M := 10000) (N := 512) (V c main_arg0) (V c main_v22) (V c main_v25) (V c main_v18) (V c main_v19) (V c main_v11) (((cfg0.win 6).blk t).view.emb j)
  have h1 : (iblk0 V c 1 t : S1x512.Idx → Elt Ideal .f32) = V c main_v22 := by
    funext y
    show V c main_v22 (((cfg0.win 1).blk t).view.emb y) = V c main_v22 y
    refine congrArg _ (funext fun a => Fin.ext ?_)
    match a with
    | ⟨0, _⟩ => show win0_1.index t (0 : Fin 2) * 1 + 1 * (y 0).val = (y 0).val; omega
    | ⟨1, _⟩ => show win0_1.index t (1 : Fin 2) * 512 + 1 * (y 1).val = (y 1).val; omega
  have h2 : (iblk0 V c 2 t : S1x512.Idx → Elt Ideal .f32) = V c main_v25 := by
    funext y
    show V c main_v25 (((cfg0.win 2).blk t).view.emb y) = V c main_v25 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 512 + 1 * (y 1).val = (y 1).val; omega
  have h3 : (iblk0 V c 3 t : S1x512.Idx → Elt Ideal .f32) = V c main_v18 := by
    funext y
    show V c main_v18 (((cfg0.win 3).blk t).view.emb y) = V c main_v18 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 512 + 1 * (y 1).val = (y 1).val; omega
  have h4 : (iblk0 V c 4 t : S1x512.Idx → Elt Ideal .f32) = V c main_v19 := by
    funext y
    show V c main_v19 (((cfg0.win 4).blk t).view.emb y) = V c main_v19 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 512 + 1 * (y 1).val = (y 1).val; omega
  rw [h1, h2, h3, h4]
  refine normScale_congr j _ ?_ ?_ ?_
  · show V c main_arg0 (((cfg0.win 0).blk t).view.emb j) = V c main_arg0 (((cfg0.win 6).blk t).view.emb j)
    refine congrArg _ (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 512 + 1 * (j 1).val = win0_6.index t (1 : Fin 2) * 512 + 1 * (j 1).val; omega
  · show V c main_v11 (((cfg0.win 5).blk t).view.emb (ix2 (j 0) 0)) = V c main_v11 (ix2 ((((cfg0.win 6).blk t).view.emb j) 0) 0)
    refine congrArg _ (funext fun a => Fin.ext ?_)
    match a with
    | ⟨0, _⟩ => show win0_5.index t (0 : Fin 2) * 2000 + 1 * (j 0).val = win0_6.index t (0 : Fin 2) * 2000 + 1 * (j 0).val; omega
    | ⟨1, _⟩ => show win0_5.index t (1 : Fin 2) * 1 + 1 * 0 = 0; omega
  · show (j 1).val = win0_6.index t (1 : Fin 2) * 512 + 1 * (j 1).val; omega

/-- An index of the result array is in point `t`'s block iff each coordinate is in the block's range on its axis. -/
theorem mem_blk (t : Fin cfg0.N) (i : S10000x512.Idx) :
    i ∈ ((cfg0.win 6).blk t).view.set ↔ ∀ a : Fin 2, win0_6.index t a * S2000x512.size a ≤ (i a).val ∧ (i a).val < win0_6.index t a * S2000x512.size a + S2000x512.size a := by
  show i ∈ ((View.whole main_v26).slice (win0_6.rect t)).set ↔ _
  rw [View.set_slice_whole, Rect.mem_set_unit]
  exact Iff.rfl

/-- Row `r` is in the block of point `r / 2000`. -/
theorem cover (i : S10000x512.Idx) :
    ∃ t : Fin cfg0.N, (cfg0.win 6).flush t = true ∧ i ∈ ((cfg0.win 6).blk t).view.set := by
  have hi0 : (i 0).val < 10000 := (i 0).isLt
  have hi1 : (i 1).val < 512 := (i 1).isLt
  have hN : cfg0.N = 5 := N_0
  refine ⟨⟨(i 0).val / 2000, by rw [hN]; omega⟩, flush0_6 _, ?_⟩
  obtain ⟨-, -, -, -, -, -, -, -, -, -, -, -, e60, e61⟩ := idx_facts ⟨(i 0).val / 2000, by rw [hN]; omega⟩
  rw [mem_blk]
  intro a
  match a with
  | ⟨0, _⟩ =>
    show win0_6.index _ (0 : Fin 2) * 2000 ≤ (i 0).val ∧ (i 0).val < win0_6.index _ (0 : Fin 2) * 2000 + 2000
    rw [e60]; show (i 0).val / 2000 * 2000 ≤ (i 0).val ∧ (i 0).val < (i 0).val / 2000 * 2000 + 2000; omega
  | ⟨1, _⟩ =>
    show win0_6.index _ (1 : Fin 2) * 512 ≤ (i 1).val ∧ (i 1).val < win0_6.index _ (1 : Fin 2) * 512 + 512
    rw [e61]; omega

/-- The result array after the region is `normScale` of the arrays the region finds. -/
theorem final (c : Dev nD) : (dat0 V c).arrAt 6 cfg0.N = whole V c :=
  (dat0 V c).arrAt_eq_of_cover 6 (whole V c) (fun t _ => flushed_eq V c t) cover

end Cert.KernelIdeal.Norm0

end
-- ==== Proof.Norm2.lean ====
/-
  Region 2 (a normalising call): the result array after the five grid points, as one function of the arrays the
  region finds.

  Point `t` works on rows `2000 t … 2000 t + 1999`: the matrix operand's and the row factors' blocks are those rows, the
  four one-row operands are whole at every point, and the point writes its tile back to the same rows of the result.
  The tile is `GraphConv.normScale` of the blocks, and `normScale` at a row reads that row only, so what point `t`
  writes is block `t` of `normScale` of the whole arrays; the five blocks tile the 10000 rows.
-/
import proofs.«108859_j74131135529465_1_alg».proof.Proof.Gen.KernelIdeal.Frame
import proofs.«108859_j74131135529465_1_alg».proof.Proof.Tiles
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm2

open Cert.KernelIdeal Cert.KernelIdeal.Gen GraphConv

variable (V : (c : Dev nD) → (b : Ref sig .tc) → Buf (Elt Ideal) ((c : Thread nD τ).loc b))

theorem hz : (![0, 0] : Fin 2 → Nat) = fun _ => 0 := funext fun a => by fin_cases a <;> rfl

/-- The whole-array function: `normScale` of the arrays as the region finds them. -/
abbrev whole (c : Dev nD) : S10000x512.Idx → Elt Ideal .f32 :=
  normScale (M := 10000) (N := 512) (V c main_v43) (V c main_v51) (V c main_v54) (V c main_v47) (V c main_v48) (V c main_v11)

/-- The printed index maps over the grid: the row-tiled windows are at block `t`, the one-row windows at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point `t` writes back is block `t` of the whole-array function. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero hz]
  simp only [View.ld_unit_zero (S := S2000x512) hz, View.ld_unit_zero (S := S1x512) hz, View.ld_unit_zero (S := S2000x1) hz]
  rw [Tiles.norm2]
  obtain ⟨e00, e01, e10, e11, e20, e21, e30, e31, e40, e41, e50, e51, e60, e61⟩ := idx_facts t
  funext j
  have hj0 : (j 0).val < 2000 := (j 0).isLt
  have hj1 : (j 1).val < 512 := (j 1).isLt
  show normScale (M := 2000) (N := 512) (iblk2 V c 0 t) (iblk2 V c 1 t) (iblk2 V c 2 t) (iblk2 V c 3 t) (iblk2 V c 4 t) (iblk2 V c 5 t) j
    = normScale (M := 10000) (N := 512) (V c main_v43) (V c main_v51) (V c main_v54) (V c main_v47) (V c main_v48) (V c main_v11) (((cfg2.win 6).blk t).view.emb j)
  have h1 : (iblk2 V c 1 t : S1x512.Idx → Elt Ideal .f32) = V c main_v51 := by
    funext y
    show V c main_v51 (((cfg2.win 1).blk t).view.emb y) = V c main_v51 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 512 + 1 * (y 1).val = (y 1).val; omega
  have h2 : (iblk2 V c 2 t : S1x512.Idx → Elt Ideal .f32) = V c main_v54 := by
    funext y
    show V c main_v54 (((cfg2.win 2).blk t).view.emb y) = V c main_v54 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 512 + 1 * (y 1).val = (y 1).val; omega
  have h3 : (iblk2 V c 3 t : S1x512.Idx → Elt Ideal .f32) = V c main_v47 := by
    funext y
    show V c main_v47 (((cfg2.win 3).blk t).view.emb y) = V c main_v47 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 512 + 1 * (y 1).val = (y 1).val; omega
  have h4 : (iblk2 V c 4 t : S1x512.Idx → Elt Ideal .f32) = V c main_v48 := by
    funext y
    show V c main_v48 (((cfg2.win 4).blk t).view.emb y) = V c main_v48 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 512 + 1 * (y 1).val = (y 1).val; omega
  rw [h1, h2, h3, h4]
  refine normScale_congr j _ ?_ ?_ ?_
  · show V c main_v43 (((cfg2.win 0).blk t).view.emb j) = V c main_v43 (((cfg2.win 6).blk t).view.emb j)
    refine congrArg _ (funext fun a => Fin.ext ?_)
    match a with
    | ⟨0, _⟩ => show win2_0.index t (0 : Fin 2) * 2000 + 1 * (j 0).val = win2_6.index t (0 : Fin 2) * 2000 + 1 * (j 0).val; omega
    | ⟨1, _⟩ => show win2_0.index t (1 : Fin 2) * 512 + 1 * (j 1).val = win2_6.index t (1 : Fin 2) * 512 + 1 * (j 1).val; omega
  · show V c main_v11 (((cfg2.win 5).blk t).view.emb (ix2 (j 0) 0)) = V c main_v11 (ix2 ((((cfg2.win 6).blk t).view.emb j) 0) 0)
    refine congrArg _ (funext fun a => Fin.ext ?_)
    match a with
    | ⟨0, _⟩ => show win2_5.index t (0 : Fin 2) * 2000 + 1 * (j 0).val = win2_6.index t (0 : Fin 2) * 2000 + 1 * (j 0).val; omega
    | ⟨1, _⟩ => show win2_5.index t (1 : Fin 2) * 1 + 1 * 0 = 0; omega
  · show (j 1).val = win2_6.index t (1 : Fin 2) * 512 + 1 * (j 1).val; omega

/-- An index of the result array is in point `t`'s block iff each coordinate is in the block's range on its axis. -/
theorem mem_blk (t : Fin cfg2.N) (i : S10000x512.Idx) :
    i ∈ ((cfg2.win 6).blk t).view.set ↔ ∀ a : Fin 2, win2_6.index t a * S2000x512.size a ≤ (i a).val ∧ (i a).val < win2_6.index t a * S2000x512.size a + S2000x512.size a := by
  show i ∈ ((View.whole main_v55).slice (win2_6.rect t)).set ↔ _
  rw [View.set_slice_whole, Rect.mem_set_unit]
  exact Iff.rfl

/-- Row `r` is in the block of point `r / 2000`. -/
theorem cover (i : S10000x512.Idx) :
    ∃ t : Fin cfg2.N, (cfg2.win 6).flush t = true ∧ i ∈ ((cfg2.win 6).blk t).view.set := by
  have hi0 : (i 0).val < 10000 := (i 0).isLt
  have hi1 : (i 1).val < 512 := (i 1).isLt
  have hN : cfg2.N = 5 := N_2
  refine ⟨⟨(i 0).val / 2000, by rw [hN]; omega⟩, flush2_6 _, ?_⟩
  obtain ⟨-, -, -, -, -, -, -, -, -, -, -, -, e60, e61⟩ := idx_facts ⟨(i 0).val / 2000, by rw [hN]; omega⟩
  rw [mem_blk]
  intro a
  match a with
  | ⟨0, _⟩ =>
    show win2_6.index _ (0 : Fin 2) * 2000 ≤ (i 0).val ∧ (i 0).val < win2_6.index _ (0 : Fin 2) * 2000 + 2000
    rw [e60]; show (i 0).val / 2000 * 2000 ≤ (i 0).val ∧ (i 0).val < (i 0).val / 2000 * 2000 + 2000; omega
  | ⟨1, _⟩ =>
    show win2_6.index _ (1 : Fin 2) * 512 ≤ (i 1).val ∧ (i 1).val < win2_6.index _ (1 : Fin 2) * 512 + 512
    rw [e61]; omega

/-- The result array after the region is `normScale` of the arrays the region finds. -/
theorem final (c : Dev nD) : (dat2 V c).arrAt 6 cfg2.N = whole V c :=
  (dat2 V c).arrAt_eq_of_cover 6 (whole V c) (fun t _ => flushed_eq V c t) cover

end Cert.KernelIdeal.Norm2

end
-- ==== Proof.Norm4.lean ====
/-
  Region 4 (a normalising call): the result array after the five grid points, as one function of the arrays the
  region finds.

  Point `t` works on rows `2000 t … 2000 t + 1999`: the matrix operand's and the row factors' blocks are those rows, the
  four one-row operands are whole at every point, and the point writes its tile back to the same rows of the result.
  The tile is `GraphConv.normScale` of the blocks, and `normScale` at a row reads that row only, so what point `t`
  writes is block `t` of `normScale` of the whole arrays; the five blocks tile the 10000 rows.
-/
import proofs.«108859_j74131135529465_1_alg».proof.Proof.Gen.KernelIdeal.Frame
import proofs.«108859_j74131135529465_1_alg».proof.Proof.Tiles
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm4

open Cert.KernelIdeal Cert.KernelIdeal.Gen GraphConv

variable (V : (c : Dev nD) → (b : Ref sig .tc) → Buf (Elt Ideal) ((c : Thread nD τ).loc b))

theorem hz : (![0, 0] : Fin 2 → Nat) = fun _ => 0 := funext fun a => by fin_cases a <;> rfl

/-- The whole-array function: `normScale` of the arrays as the region finds them. -/
abbrev whole (c : Dev nD) : S10000x512.Idx → Elt Ideal .f32 :=
  normScale (M := 10000) (N := 512) (V c main_v72) (V c main_v80) (V c main_v83) (V c main_v76) (V c main_v77) (V c main_v11)

/-- The printed index maps over the grid: the row-tiled windows are at block `t`, the one-row windows at block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- What point `t` writes back is block `t` of the whole-array function. -/
theorem flushed_eq (c : Dev nD) (t : Fin cfg4.N) :
    (dat4 V c).flushed 6 t = ((cfg4.win 6).blk t).view.read (Elt Ideal) (whole V c) := by
  show (cfg4.win 6).cut (grid4.coords t) ((dat4 V c).after 6 t) = _
  rw [after4_6]
  unfold out4_6
  rw [View.canon_unit_zero hz]
  simp only [View.ld_unit_zero (S := S2000x512) hz, View.ld_unit_zero (S := S1x512) hz, View.ld_unit_zero (S := S2000x1) hz]
  rw [Tiles.norm4]
  obtain ⟨e00, e01, e10, e11, e20, e21, e30, e31, e40, e41, e50, e51, e60, e61⟩ := idx_facts t
  funext j
  have hj0 : (j 0).val < 2000 := (j 0).isLt
  have hj1 : (j 1).val < 512 := (j 1).isLt
  show normScale (M := 2000) (N := 512) (iblk4 V c 0 t) (iblk4 V c 1 t) (iblk4 V c 2 t) (iblk4 V c 3 t) (iblk4 V c 4 t) (iblk4 V c 5 t) j
    = normScale (M := 10000) (N := 512) (V c main_v72) (V c main_v80) (V c main_v83) (V c main_v76) (V c main_v77) (V c main_v11) (((cfg4.win 6).blk t).view.emb j)
  have h1 : (iblk4 V c 1 t : S1x512.Idx → Elt Ideal .f32) = V c main_v80 := by
    funext y
    show V c main_v80 (((cfg4.win 1).blk t).view.emb y) = V c main_v80 y
    refine congrArg _ (funext fun a => Fin.ext ?_)
    match a with
    | ⟨0, _⟩ => show win4_1.index t (0 : Fin 2) * 1 + 1 * (y 0).val = (y 0).val; omega
    | ⟨1, _⟩ => show win4_1.index t (1 : Fin 2) * 512 + 1 * (y 1).val = (y 1).val; omega
  have h2 : (iblk4 V c 2 t : S1x512.Idx → Elt Ideal .f32) = V c main_v83 := by
    funext y
    show V c main_v83 (((cfg4.win 2).blk t).view.emb y) = V c main_v83 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 512 + 1 * (y 1).val = (y 1).val; omega
  have h3 : (iblk4 V c 3 t : S1x512.Idx → Elt Ideal .f32) = V c main_v76 := by
    funext y
    show V c main_v76 (((cfg4.win 3).blk t).view.emb y) = V c main_v76 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 512 + 1 * (y 1).val = (y 1).val; omega
  have h4 : (iblk4 V c 4 t : S1x512.Idx → Elt Ideal .f32) = V c main_v77 := by
    funext y
    show V c main_v77 (((cfg4.win 4).blk t).view.emb y) = V c main_v77 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 512 + 1 * (y 1).val = (y 1).val; omega
  rw [h1, h2, h3, h4]
  refine normScale_congr j _ ?_ ?_ ?_
  · show V c main_v72 (((cfg4.win 0).blk t).view.emb j) = V c main_v72 (((cfg4.win 6).blk t).view.emb j)
    refine congrArg _ (funext fun a => Fin.ext ?_)
    match a with
    | ⟨0, _⟩ => show win4_0.index t (0 : Fin 2) * 2000 + 1 * (j 0).val = win4_6.index t (0 : Fin 2) * 2000 + 1 * (j 0).val; omega
    | ⟨1, _⟩ => show win4_0.index t (1 : Fin 2) * 512 + 1 * (j 1).val = win4_6.index t (1 : Fin 2) * 512 + 1 * (j 1).val; omega
  · show V c main_v11 (((cfg4.win 5).blk t).view.emb (ix2 (j 0) 0)) = V c main_v11 (ix2 ((((cfg4.win 6).blk t).view.emb j) 0) 0)
    refine congrArg _ (funext fun a => Fin.ext ?_)
    match a with
    | ⟨0, _⟩ => show win4_5.index t (0 : Fin 2) * 2000 + 1 * (j 0).val = win4_6.index t (0 : Fin 2) * 2000 + 1 * (j 0).val; omega
    | ⟨1, _⟩ => show win4_5.index t (1 : Fin 2) * 1 + 1 * 0 = 0; omega
  · show (j 1).val = win4_6.index t (1 : Fin 2) * 512 + 1 * (j 1).val; omega

/-- An index of the result array is in point `t`'s block iff each coordinate is in the block's range on its axis. -/
theorem mem_blk (t : Fin cfg4.N) (i : S10000x512.Idx) :
    i ∈ ((cfg4.win 6).blk t).view.set ↔ ∀ a : Fin 2, win4_6.index t a * S2000x512.size a ≤ (i a).val ∧ (i a).val < win4_6.index t a * S2000x512.size a + S2000x512.size a := by
  show i ∈ ((View.whole main_v84).slice (win4_6.rect t)).set ↔ _
  rw [View.set_slice_whole, Rect.mem_set_unit]
  exact Iff.rfl

/-- Row `r` is in the block of point `r / 2000`. -/
theorem cover (i : S10000x512.Idx) :
    ∃ t : Fin cfg4.N, (cfg4.win 6).flush t = true ∧ i ∈ ((cfg4.win 6).blk t).view.set := by
  have hi0 : (i 0).val < 10000 := (i 0).isLt
  have hi1 : (i 1).val < 512 := (i 1).isLt
  have hN : cfg4.N = 5 := N_4
  refine ⟨⟨(i 0).val / 2000, by rw [hN]; omega⟩, flush4_6 _, ?_⟩
  obtain ⟨-, -, -, -, -, -, -, -, -, -, -, -, e60, e61⟩ := idx_facts ⟨(i 0).val / 2000, by rw [hN]; omega⟩
  rw [mem_blk]
  intro a
  match a with
  | ⟨0, _⟩ =>
    show win4_6.index _ (0 : Fin 2) * 2000 ≤ (i 0).val ∧ (i 0).val < win4_6.index _ (0 : Fin 2) * 2000 + 2000
    rw [e60]; show (i 0).val / 2000 * 2000 ≤ (i 0).val ∧ (i 0).val < (i 0).val / 2000 * 2000 + 2000; omega
  | ⟨1, _⟩ =>
    show win4_6.index _ (1 : Fin 2) * 512 ≤ (i 1).val ∧ (i 1).val < win4_6.index _ (1 : Fin 2) * 512 + 512
    rw [e61]; omega

/-- The result array after the region is `normScale` of the arrays the region finds. -/
theorem final (c : Dev nD) : (dat4 V c).arrAt 6 cfg4.N = whole V c :=
  (dat4 V c).arrAt_eq_of_cover 6 (whole V c) (fun t _ => flushed_eq V c t) cover

end Cert.KernelIdeal.Norm4

end
-- ==== Proof.Prod1.lean ====
/-
  Region 1 (a product call): the result array after the five grid points, as one function of the arrays the region
  finds.

  Point `t` works on rows `2000 t … 2000 t + 1999`: the matrix operand's and the row factors' blocks are those rows, the
  weights and the bias row are whole at every point, and the point writes its tile back to the same rows of the
  result.  The tile is `GraphConv.scaleAffineRelu` of the blocks, which at a row reads that row of the matrix operand
  only, so what point `t` writes is block `t` of `scaleAffineRelu` of the whole arrays; the five blocks tile the rows.
-/
import proofs.«108859_j74131135529465_1_alg».proof.Proof.Gen.KernelIdeal.Frame
import proofs.«108859_j74131135529465_1_alg».proof.Proof.Tiles
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Prod1

open Cert.KernelIdeal Cert.KernelIdeal.Gen GraphConv

variable (V : (c : Dev nD) → (b : Ref sig .tc) → Buf (Elt Ideal) ((c : Thread nD τ).loc b))

theorem hz : (![0, 0] : Fin 2 → Nat) = fun _ => 0 := funext fun a => by fin_cases a <;> rfl

/-- The whole-array function: `scaleAffineRelu` of the arrays as the region finds them. -/
abbrev whole (c : Dev nD) : S10000x512.Idx → Elt Ideal .f32 :=
  scaleAffineRelu (M := 10000) (K := 512) (N := 512) (V c main_v36) (V c main_v14) (V c main_v39) (V c main_v42)

/-- The printed index maps over the grid: the row-tiled windows are at block `t`, the whole windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the whole-array function. -/
theorem flushed_eq (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  unfold out1_4
  rw [View.canon_unit_zero hz]
  simp only [View.ld_unit_zero (S := S2000x512) hz, View.ld_unit_zero (S := S1x512) hz, View.ld_unit_zero (S := S2000x1) hz,
    View.ld_unit_zero (S := S512x512) hz]
  rw [Tiles.prod1]
  obtain ⟨e00, e01, e10, e11, e20, e21, e30, e31, e40, e41⟩ := idx_facts t
  funext j
  have hj0 : (j 0).val < 2000 := (j 0).isLt
  have hj1 : (j 1).val < 512 := (j 1).isLt
  show scaleAffineRelu (M := 2000) (K := 512) (N := 512) (iblk1 V c 0 t) (iblk1 V c 1 t) (iblk1 V c 2 t) (iblk1 V c 3 t) j
    = scaleAffineRelu (M := 10000) (K := 512) (N := 512) (V c main_v36) (V c main_v14) (V c main_v39) (V c main_v42) (((cfg1.win 4).blk t).view.emb j)
  have h2 : (iblk1 V c 2 t : S512x512.Idx → Elt Ideal .bf16) = V c main_v39 := by
    funext y
    show V c main_v39 (((cfg1.win 2).blk t).view.emb y) = V c main_v39 y
    refine congrArg _ (funext fun a => Fin.ext ?_)
    match a with
    | ⟨0, _⟩ => show win1_2.index t (0 : Fin 2) * 512 + 1 * (y 0).val = (y 0).val; omega
    | ⟨1, _⟩ => show win1_2.index t (1 : Fin 2) * 512 + 1 * (y 1).val = (y 1).val; omega
  have h3 : (iblk1 V c 3 t : S1x512.Idx → Elt Ideal .f32) = V c main_v42 := by
    funext y
    show V c main_v42 (((cfg1.win 3).blk t).view.emb y) = V c main_v42 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 512 + 1 * (y 1).val = (y 1).val; omega
  rw [h2, h3]
  refine scaleAffineRelu_congr j _ (fun k => ?_) ?_ ?_
  · have hk : k.val < 512 := k.isLt
    show V c main_v36 (((cfg1.win 0).blk t).view.emb (ix2 (j 0) k)) = V c main_v36 (ix2 ((((cfg1.win 4).blk t).view.emb j) 0) k)
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 512 + 1 * k.val = k.val; omega
  · show V c main_v14 (((cfg1.win 1).blk t).view.emb (ix2 (j 0) 0)) = V c main_v14 (ix2 ((((cfg1.win 4).blk t).view.emb j) 0) 0)
    refine congrArg _ (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  · show (j 1).val = win1_4.index t (1 : Fin 2) * 512 + 1 * (j 1).val; omega

/-- An index of the result array is in point `t`'s block iff each coordinate is in the block's range on its axis. -/
theorem mem_blk (t : Fin cfg1.N) (i : S10000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v43).slice (win1_4.rect t)).set ↔ _
  rw [View.set_slice_whole, Rect.mem_set_unit]
  exact Iff.rfl

/-- Row `r` is in the block of point `r / 2000`. -/
theorem cover (i : S10000x512.Idx) :
    ∃ t : Fin cfg1.N, (cfg1.win 4).flush t = true ∧ i ∈ ((cfg1.win 4).blk t).view.set := by
  have hi0 : (i 0).val < 10000 := (i 0).isLt
  have hi1 : (i 1).val < 512 := (i 1).isLt
  have hN : cfg1.N = 5 := N_1
  refine ⟨⟨(i 0).val / 2000, by rw [hN]; omega⟩, flush1_4 _, ?_⟩
  obtain ⟨-, -, -, -, -, -, -, -, e40, e41⟩ := idx_facts ⟨(i 0).val / 2000, by rw [hN]; omega⟩
  rw [mem_blk]
  intro a
  match a with
  | ⟨0, _⟩ =>
    show win1_4.index _ (0 : Fin 2) * 2000 ≤ (i 0).val ∧ (i 0).val < win1_4.index _ (0 : Fin 2) * 2000 + 2000
    rw [e40]; show (i 0).val / 2000 * 2000 ≤ (i 0).val ∧ (i 0).val < (i 0).val / 2000 * 2000 + 2000; omega
  | ⟨1, _⟩ =>
    show win1_4.index _ (1 : Fin 2) * 512 ≤ (i 1).val ∧ (i 1).val < win1_4.index _ (1 : Fin 2) * 512 + 512
    rw [e41]; omega

/-- The result array after the region is `scaleAffineRelu` of the arrays the region finds. -/
theorem final (c : Dev nD) : (dat1 V c).arrAt 4 cfg1.N = whole V c :=
  (dat1 V c).arrAt_eq_of_cover 4 (whole V c) (fun t _ => flushed_eq V c t) cover

end Cert.KernelIdeal.Prod1

end
-- ==== Proof.Prod3.lean ====
/-
  Region 3 (a product call): the result array after the five grid points, as one function of the arrays the region
  finds.

  Point `t` works on rows `2000 t … 2000 t + 1999`: the matrix operand's and the row factors' blocks are those rows, the
  weights and the bias row are whole at every point, and the point writes its tile back to the same rows of the
  result.  The tile is `GraphConv.scaleAffineRelu` of the blocks, which at a row reads that row of the matrix operand
  only, so what point `t` writes is block `t` of `scaleAffineRelu` of the whole arrays; the five blocks tile the rows.
-/
import proofs.«108859_j74131135529465_1_alg».proof.Proof.Gen.KernelIdeal.Frame
import proofs.«108859_j74131135529465_1_alg».proof.Proof.Tiles
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Prod3

open Cert.KernelIdeal Cert.KernelIdeal.Gen GraphConv

variable (V : (c : Dev nD) → (b : Ref sig .tc) → Buf (Elt Ideal) ((c : Thread nD τ).loc b))

theorem hz : (![0, 0] : Fin 2 → Nat) = fun _ => 0 := funext fun a => by fin_cases a <;> rfl

/-- The whole-array function: `scaleAffineRelu` of the arrays as the region finds them. -/
abbrev whole (c : Dev nD) : S10000x512.Idx → Elt Ideal .f32 :=
  scaleAffineRelu (M := 10000) (K := 512) (N := 512) (V c main_v65) (V c main_v14) (V c main_v68) (V c main_v71)

/-- The printed index maps over the grid: the row-tiled windows are at block `t`, the whole windows at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the whole-array function. -/
theorem flushed_eq (c : Dev nD) (t : Fin cfg3.N) :
    (dat3 V c).flushed 4 t = ((cfg3.win 4).blk t).view.read (Elt Ideal) (whole V c) := by
  show (cfg3.win 4).cut (grid3.coords t) ((dat3 V c).after 4 t) = _
  rw [after3_4]
  unfold out3_4
  rw [View.canon_unit_zero hz]
  simp only [View.ld_unit_zero (S := S2000x512) hz, View.ld_unit_zero (S := S1x512) hz, View.ld_unit_zero (S := S2000x1) hz,
    View.ld_unit_zero (S := S512x512) hz]
  rw [Tiles.prod3]
  obtain ⟨e00, e01, e10, e11, e20, e21, e30, e31, e40, e41⟩ := idx_facts t
  funext j
  have hj0 : (j 0).val < 2000 := (j 0).isLt
  have hj1 : (j 1).val < 512 := (j 1).isLt
  show scaleAffineRelu (M := 2000) (K := 512) (N := 512) (iblk3 V c 0 t) (iblk3 V c 1 t) (iblk3 V c 2 t) (iblk3 V c 3 t) j
    = scaleAffineRelu (M := 10000) (K := 512) (N := 512) (V c main_v65) (V c main_v14) (V c main_v68) (V c main_v71) (((cfg3.win 4).blk t).view.emb j)
  have h2 : (iblk3 V c 2 t : S512x512.Idx → Elt Ideal .bf16) = V c main_v68 := by
    funext y
    show V c main_v68 (((cfg3.win 2).blk t).view.emb y) = V c main_v68 y
    refine congrArg _ (funext fun a => Fin.ext ?_)
    match a with
    | ⟨0, _⟩ => show win3_2.index t (0 : Fin 2) * 512 + 1 * (y 0).val = (y 0).val; omega
    | ⟨1, _⟩ => show win3_2.index t (1 : Fin 2) * 512 + 1 * (y 1).val = (y 1).val; omega
  have h3 : (iblk3 V c 3 t : S1x512.Idx → Elt Ideal .f32) = V c main_v71 := by
    funext y
    show V c main_v71 (((cfg3.win 3).blk t).view.emb y) = V c main_v71 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 512 + 1 * (y 1).val = (y 1).val; omega
  rw [h2, h3]
  refine scaleAffineRelu_congr j _ (fun k => ?_) ?_ ?_
  · have hk : k.val < 512 := k.isLt
    show V c main_v65 (((cfg3.win 0).blk t).view.emb (ix2 (j 0) k)) = V c main_v65 (ix2 ((((cfg3.win 4).blk t).view.emb j) 0) k)
    refine congrArg _ (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 512 + 1 * k.val = k.val; omega
  · show V c main_v14 (((cfg3.win 1).blk t).view.emb (ix2 (j 0) 0)) = V c main_v14 (ix2 ((((cfg3.win 4).blk t).view.emb j) 0) 0)
    refine congrArg _ (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 1 + 1 * 0 = 0; omega
  · show (j 1).val = win3_4.index t (1 : Fin 2) * 512 + 1 * (j 1).val; omega

/-- An index of the result array is in point `t`'s block iff each coordinate is in the block's range on its axis. -/
theorem mem_blk (t : Fin cfg3.N) (i : S10000x512.Idx) :
    i ∈ ((cfg3.win 4).blk t).view.set ↔ ∀ a : Fin 2, win3_4.index t a * S2000x512.size a ≤ (i a).val ∧ (i a).val < win3_4.index t a * S2000x512.size a + S2000x512.size a := by
  show i ∈ ((View.whole main_v72).slice (win3_4.rect t)).set ↔ _
  rw [View.set_slice_whole, Rect.mem_set_unit]
  exact Iff.rfl

/-- Row `r` is in the block of point `r / 2000`. -/
theorem cover (i : S10000x512.Idx) :
    ∃ t : Fin cfg3.N, (cfg3.win 4).flush t = true ∧ i ∈ ((cfg3.win 4).blk t).view.set := by
  have hi0 : (i 0).val < 10000 := (i 0).isLt
  have hi1 : (i 1).val < 512 := (i 1).isLt
  have hN : cfg3.N = 5 := N_3
  refine ⟨⟨(i 0).val / 2000, by rw [hN]; omega⟩, flush3_4 _, ?_⟩
  obtain ⟨-, -, -, -, -, -, -, -, e40, e41⟩ := idx_facts ⟨(i 0).val / 2000, by rw [hN]; omega⟩
  rw [mem_blk]
  intro a
  match a with
  | ⟨0, _⟩ =>
    show win3_4.index _ (0 : Fin 2) * 2000 ≤ (i 0).val ∧ (i 0).val < win3_4.index _ (0 : Fin 2) * 2000 + 2000
    rw [e40]; show (i 0).val / 2000 * 2000 ≤ (i 0).val ∧ (i 0).val < (i 0).val / 2000 * 2000 + 2000; omega
  | ⟨1, _⟩ =>
    show win3_4.index _ (1 : Fin 2) * 512 ≤ (i 1).val ∧ (i 1).val < win3_4.index _ (1 : Fin 2) * 512 + 512
    rw [e41]; omega

/-- The result array after the region is `scaleAffineRelu` of the arrays the region finds. -/
theorem final (c : Dev nD) : (dat3 V c).arrAt 4 cfg3.N = whole V c :=
  (dat3 V c).arrAt_eq_of_cover 4 (whole V c) (fun t _ => flushed_eq V c t) cover

end Cert.KernelIdeal.Prod3

end
-- ==== Proof.Prod5.lean ====
/-
  Region 5 (a product call): the result array after the five grid points, as one function of the arrays the region
  finds.

  Point `t` works on rows `2000 t … 2000 t + 1999`: the matrix operand's and the row factors' blocks are those rows, the
  weights and the bias row are whole at every point, and the point writes its tile back to the same rows of the
  result.  The tile is `GraphConv.scaleAffineRelu` of the blocks, which at a row reads that row of the matrix operand
  only, so what point `t` writes is block `t` of `scaleAffineRelu` of the whole arrays; the five blocks tile the rows.
-/
import proofs.«108859_j74131135529465_1_alg».proof.Proof.Gen.KernelIdeal.Frame
import proofs.«108859_j74131135529465_1_alg».proof.Proof.Tiles
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Prod5

open Cert.KernelIdeal Cert.KernelIdeal.Gen GraphConv

variable (V : (c : Dev nD) → (b : Ref sig .tc) → Buf (Elt Ideal) ((c : Thread nD τ).loc b))

theorem hz : (![0, 0] : Fin 2 → Nat) = fun _ => 0 := funext fun a => by fin_cases a <;> rfl

/-- The whole-array function: `scaleAffineRelu` of the arrays as the region finds them. -/
abbrev whole (c : Dev nD) : S10000x512.Idx → Elt Ideal .f32 :=
  scaleAffineRelu (M := 10000) (K := 512) (N := 512) (V c main_v94) (V c main_v14) (V c main_v97) (V c main_v100)

/-- The printed index maps over the grid: the row-tiled windows are at block `t`, the whole windows at block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the whole-array function. -/
theorem flushed_eq (c : Dev nD) (t : Fin cfg5.N) :
    (dat5 V c).flushed 4 t = ((cfg5.win 4).blk t).view.read (Elt Ideal) (whole V c) := by
  show (cfg5.win 4).cut (grid5.coords t) ((dat5 V c).after 4 t) = _
  rw [after5_4]
  unfold out5_4
  rw [View.canon_unit_zero hz]
  simp only [View.ld_unit_zero (S := S2000x512) hz, View.ld_unit_zero (S := S1x512) hz, View.ld_unit_zero (S := S2000x1) hz,
    View.ld_unit_zero (S := S512x512) hz]
  rw [Tiles.prod5]
  obtain ⟨e00, e01, e10, e11, e20, e21, e30, e31, e40, e41⟩ := idx_facts t
  funext j
  have hj0 : (j 0).val < 2000 := (j 0).isLt
  have hj1 : (j 1).val < 512 := (j 1).isLt
  show scaleAffineRelu (M := 2000) (K := 512) (N := 512) (iblk5 V c 0 t) (iblk5 V c 1 t) (iblk5 V c 2 t) (iblk5 V c 3 t) j
    = scaleAffineRelu (M := 10000) (K := 512) (N := 512) (V c main_v94) (V c main_v14) (V c main_v97) (V c main_v100) (((cfg5.win 4).blk t).view.emb j)
  have h2 : (iblk5 V c 2 t : S512x512.Idx → Elt Ideal .bf16) = V c main_v97 := by
    funext y
    show V c main_v97 (((cfg5.win 2).blk t).view.emb y) = V c main_v97 y
    refine congrArg _ (funext fun a => Fin.ext ?_)
    match a with
    | ⟨0, _⟩ => show win5_2.index t (0 : Fin 2) * 512 + 1 * (y 0).val = (y 0).val; omega
    | ⟨1, _⟩ => show win5_2.index t (1 : Fin 2) * 512 + 1 * (y 1).val = (y 1).val; omega
  have h3 : (iblk5 V c 3 t : S1x512.Idx → Elt Ideal .f32) = V c main_v100 := by
    funext y
    show V c main_v100 (((cfg5.win 3).blk t).view.emb y) = V c main_v100 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 512 + 1 * (y 1).val = (y 1).val; omega
  rw [h2, h3]
  refine scaleAffineRelu_congr j _ (fun k => ?_) ?_ ?_
  · have hk : k.val < 512 := k.isLt
    show V c main_v94 (((cfg5.win 0).blk t).view.emb (ix2 (j 0) k)) = V c main_v94 (ix2 ((((cfg5.win 4).blk t).view.emb j) 0) k)
    refine congrArg _ (funext fun a => Fin.ext ?_)
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 512 + 1 * k.val = k.val; omega
  · show V c main_v14 (((cfg5.win 1).blk t).view.emb (ix2 (j 0) 0)) = V c main_v14 (ix2 ((((cfg5.win 4).blk t).view.emb j) 0) 0)
    refine congrArg _ (funext fun a => Fin.ext ?_)
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 1 + 1 * 0 = 0; omega
  · show (j 1).val = win5_4.index t (1 : Fin 2) * 512 + 1 * (j 1).val; omega

/-- An index of the result array is in point `t`'s block iff each coordinate is in the block's range on its axis. -/
theorem mem_blk (t : Fin cfg5.N) (i : S10000x512.Idx) :
    i ∈ ((cfg5.win 4).blk t).view.set ↔ ∀ a : Fin 2, win5_4.index t a * S2000x512.size a ≤ (i a).val ∧ (i a).val < win5_4.index t a * S2000x512.size a + S2000x512.size a := by
  show i ∈ ((View.whole main_v101).slice (win5_4.rect t)).set ↔ _
  rw [View.set_slice_whole, Rect.mem_set_unit]
  exact Iff.rfl

/-- Row `r` is in the block of point `r / 2000`. -/
theorem cover (i : S10000x512.Idx) :
    ∃ t : Fin cfg5.N, (cfg5.win 4).flush t = true ∧ i ∈ ((cfg5.win 4).blk t).view.set := by
  have hi0 : (i 0).val < 10000 := (i 0).isLt
  have hi1 : (i 1).val < 512 := (i 1).isLt
  have hN : cfg5.N = 5 := N_5
  refine ⟨⟨(i 0).val / 2000, by rw [hN]; omega⟩, flush5_4 _, ?_⟩
  obtain ⟨-, -, -, -, -, -, -, -, e40, e41⟩ := idx_facts ⟨(i 0).val / 2000, by rw [hN]; omega⟩
  rw [mem_blk]
  intro a
  match a with
  | ⟨0, _⟩ =>
    show win5_4.index _ (0 : Fin 2) * 2000 ≤ (i 0).val ∧ (i 0).val < win5_4.index _ (0 : Fin 2) * 2000 + 2000
    rw [e40]; show (i 0).val / 2000 * 2000 ≤ (i 0).val ∧ (i 0).val < (i 0).val / 2000 * 2000 + 2000; omega
  | ⟨1, _⟩ =>
    show win5_4.index _ (1 : Fin 2) * 512 ≤ (i 1).val ∧ (i 1).val < win5_4.index _ (1 : Fin 2) * 512 + 512
    rw [e41]; omega

/-- The result array after the region is `scaleAffineRelu` of the arrays the region finds. -/
theorem final (c : Dev nD) : (dat5 V c).arrAt 4 cfg5.N = whole V c :=
  (dat5 V c).arrAt_eq_of_cover 4 (whole V c) (fun t _ => flushed_eq V c t) cover

end Cert.KernelIdeal.Prod5

end
-- ==== Proof.KerVal.lean ====
/-
  The kernel program's host stretches as pure functions of arrays, spelt with the program's own operations, and one layer
  of the program as one function.

  Between its launches the program computes on the host: the degree factors once; per layer the columns' mean and biased
  variance (kept as one-row matrices), the layer's gain, offset and bias rows, the gather of rows by source index added
  into rows by destination index, and the layer's weights narrowed.  The two launches of a layer compute
  `GraphConv.normScale` and `GraphConv.scaleAffineRelu` of what those stretches leave, so a layer is `layer` below.
-/
import proofs.«108859_j74131135529465_1_alg».proof.KernelIdeal
import proofs.«108859_j74131135529465_1_alg».proof.Proof.Spec

noncomputable section

namespace Cert.KernelIdeal.KerVal

open Cert.KernelIdeal Cert.KernelIdeal.Facts₀ Idealize.ShloMosaic

section
variable {F : FTy → Type} [FloatOps F] [Cert.KernelIdeal.Facts₀]

/-- The degree factor of every node: the number of edges that name it (at least one) to the power −1/2. -/
def degFactor (a : (⟨S160000, .i32⟩ : BufTy).Contents (Elt F)) :
    (⟨S10000, .f32⟩ : BufTy).Contents (Elt F) :=
  let t_main_cst := (constant (F := F) S_ .f32 0x3F800000#32)
  let t_main_v0 := (broadcastInDim S160000 ![] bcast_S_S160000 : (⟨S_, .f32⟩ : BufTy).Contents (Elt F) → (⟨S160000, .f32⟩ : BufTy).Contents (Elt F)) t_main_cst
  let t_main_cst_0 := (constant (F := F) S_ .f32 0x00000000#32)
  let t_main_v1 := (broadcastInDim S10000 ![] bcast_S_S10000 : (⟨S_, .f32⟩ : BufTy).Contents (Elt F) → (⟨S10000, .f32⟩ : BufTy).Contents (Elt F)) t_main_cst_0
  let t_main_v2 := (broadcastInDim S160000x1 ![0] bcast_S160000_S160000x1_0 : (⟨S160000, .i32⟩ : BufTy).Contents (Elt F) → (⟨S160000x1, .i32⟩ : BufTy).Contents (Elt F)) a
  let t_main_v3 := ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)) t_main_v1 t_main_v2 t_main_v0
  let t_main_cst_1 := (constant (F := F) S_ .f32 0x3F800000#32)
  let t_main_call0_v0 := id t_main_cst_1
  let t_main_call0_v1 := (broadcastInDim S10000 ![] bcast_S_S10000) t_main_call0_v0
  let t_main_v4 := maximumf t_main_call0_v1 t_main_v3
  let t_main_cst_4 := (constant (F := F) S_ .f32 0xBF000000#32)
  let t_main_v9 := (broadcastInDim S10000 ![] bcast_S_S10000 : (⟨S_, .f32⟩ : BufTy).Contents (Elt F) → (⟨S10000, .f32⟩ : BufTy).Contents (Elt F)) t_main_cst_4
  let t_main_v10 := (Host.powf : (⟨S10000, .f32⟩ : BufTy).Contents (Elt F) → (⟨S10000, .f32⟩ : BufTy).Contents (Elt F) → (⟨S10000, .f32⟩ : BufTy).Contents (Elt F)) t_main_v4 t_main_v9
  t_main_v10

/-- A vector as a one-column matrix. -/
def asCol (n : (⟨S10000, .f32⟩ : BufTy).Contents (Elt F)) :
    (⟨S10000x1, .f32⟩ : BufTy).Contents (Elt F) :=
  let t_main_v11 := shapeCast S10000x1 n shapeCasts_S10000_S10000x1
  t_main_v11

/-- The mean of every column, as a one-row matrix. -/
def colMean (x : (⟨S10000x512, .f32⟩ : BufTy).Contents (Elt F)) :
    (⟨S1x512, .f32⟩ : BufTy).Contents (Elt F) :=
  let t_main_cst_6 := (constant (F := F) S_ .f32 0x00000000#32)
  let t_main_v15 := ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) x t_main_cst_6
  let t_main_v16 := (broadcastInDim S1x512 ![1] bcast_S512_S1x512_1 : (⟨S512, .f32⟩ : BufTy).Contents (Elt F) → (⟨S1x512, .f32⟩ : BufTy).Contents (Elt F)) t_main_v15
  let t_main_cst_7 := (constant (F := F) S_ .f32 0x461C4000#32)
  let t_main_v17 := (broadcastInDim S1x512 ![] bcast_S_S1x512 : (⟨S_, .f32⟩ : BufTy).Contents (Elt F) → (⟨S1x512, .f32⟩ : BufTy).Contents (Elt F)) t_main_cst_7
  let t_main_v18 := (Host.divf : (⟨S1x512, .f32⟩ : BufTy).Contents (Elt F) → (⟨S1x512, .f32⟩ : BufTy).Contents (Elt F) → (⟨S1x512, .f32⟩ : BufTy).Contents (Elt F)) t_main_v16 t_main_v17
  t_main_v18

/-- The (biased) variance of every column, as a one-row matrix. -/
def colVar (x : (⟨S10000x512, .f32⟩ : BufTy).Contents (Elt F)) :
    (⟨S1x512, .f32⟩ : BufTy).Contents (Elt F) :=
  let t_main_c := (constantI S_ 32 0#32)
  let t_main_call2_cst := (constant (F := F) S_ .f32 0x00000000#32)
  let t_main_call2_v0 := (fun x v => Host.reduceAdd x v reducesTo_S10000x512_S512_d0 h_S_) x t_main_call2_cst
  let t_main_call2_v1 := (broadcastInDim S1x512 ![1] bcast_S512_S1x512_1) t_main_call2_v0
  let t_main_call2_cst_0 := (constant (F := F) S_ .f32 0x461C4000#32)
  let t_main_call2_v2 := (broadcastInDim S1x512 ![] bcast_S_S1x512) t_main_call2_cst_0
  let t_main_call2_v3 := Host.divf t_main_call2_v1 t_main_call2_v2
  let t_main_call2_v4 := (broadcastInDim S10000x512 ![0, 1] bcast_S1x512_S10000x512_0_1) t_main_call2_v3
  let t_main_call2_v5 := subf x t_main_call2_v4
  let t_main_call2_v6 := mulf t_main_call2_v5 t_main_call2_v5
  let t_main_call2_v7 := (sitofp (F := F) .f32) t_main_c
  let t_main_call2_cst_1 := (constant (F := F) S_ .f32 0x461C4000#32)
  let t_main_call2_v8 := subf t_main_call2_cst_1 t_main_call2_v7
  let t_main_call2_cst_2 := (constant (F := F) S_ .f32 0x00000000#32)
  let t_main_call2_v9 := (fun x v => Host.reduceAdd x v reducesTo_S10000x512_S512_d0 h_S_) t_main_call2_v6 t_main_call2_cst_2
  let t_main_call2_v10 := (broadcastInDim S1x512 ![1] bcast_S512_S1x512_1) t_main_call2_v9
  let t_main_call2_v11 := (broadcastInDim S1x512 ![] bcast_S_S1x512) t_main_call2_v8
  let t_main_call2_v12 := Host.divf t_main_call2_v10 t_main_call2_v11
  let t_main_call2_cst_3 := (constant (F := F) S_ .f32 0x00000000#32)
  let t_main_call2_v13 := (cmpf .ogt) t_main_call2_v8 t_main_call2_cst_3
  let t_main_call2_cst_4 := (constant (F := F) S_ .f32 0x7FC00000#32)
  let t_main_call2_call0_v0 := id t_main_call2_cst_4
  let t_main_call2_call0_v1 := (broadcastInDim S1x512 ![] bcast_S_S1x512) t_main_call2_call0_v0
  let t_main_v19 := (fun p a b => select (broadcastInDim S1x512 ![] bcast_S_S1x512 p) a b) t_main_call2_v13 t_main_call2_v12 t_main_call2_call0_v1
  t_main_v19

/-- A one-row slice flattened and made a one-row matrix again. -/
def asRow (g : (⟨S1x512, .f32⟩ : BufTy).Contents (Elt F)) :
    (⟨S1x512, .f32⟩ : BufTy).Contents (Elt F) :=
  let t_main_v21 := shapeCast S512 g shapeCasts_S1x512_S512
  let t_main_v22 := shapeCast S1x512 t_main_v21 shapeCasts_S512_S1x512
  t_main_v22

/-- The rows named by the source indices (negative ones counted from the end), added into the rows named by the destination indices. -/
def aggregate (h : (⟨S10000x512, .f32⟩ : BufTy).Contents (Elt F)) (a1 : (⟨S160000, .i32⟩ : BufTy).Contents (Elt F)) (a2 : (⟨S160000, .i32⟩ : BufTy).Contents (Elt F)) :
    (⟨S10000x512, .f32⟩ : BufTy).Contents (Elt F) :=
  let t_main_c_8 := (constantI S_ 32 0#32)
  let t_main_v27 := (broadcastInDim S160000 ![] bcast_S_S160000 : (⟨S_, .i32⟩ : BufTy).Contents (Elt F) → (⟨S160000, .i32⟩ : BufTy).Contents (Elt F)) t_main_c_8
  let t_main_v28 := (cmpi .slt : (⟨S160000, .i32⟩ : BufTy).Contents (Elt F) → (⟨S160000, .i32⟩ : BufTy).Contents (Elt F) → (⟨S160000, .i1⟩ : BufTy).Contents (Elt F)) a1 t_main_v27
  let t_main_c_9 := (constantI S_ 32 10000#32)
  let t_main_v29 := (broadcastInDim S160000 ![] bcast_S_S160000 : (⟨S_, .i32⟩ : BufTy).Contents (Elt F) → (⟨S160000, .i32⟩ : BufTy).Contents (Elt F)) t_main_c_9
  let t_main_v30 := (addi : (⟨S160000, .i32⟩ : BufTy).Contents (Elt F) → (⟨S160000, .i32⟩ : BufTy).Contents (Elt F) → (⟨S160000, .i32⟩ : BufTy).Contents (Elt F)) a1 t_main_v29
  let t_main_v31 := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) t_main_v28 t_main_v30 a1
  let t_main_v32 := (broadcastInDim S160000x1 ![0] bcast_S160000_S160000x1_0 : (⟨S160000, .i32⟩ : BufTy).Contents (Elt F) → (⟨S160000x1, .i32⟩ : BufTy).Contents (Elt F)) t_main_v31
  let t_main_v33 := ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)) h t_main_v32
  let t_main_cst_10 := (constant (F := F) S_ .f32 0x00000000#32)
  let t_main_v34 := (broadcastInDim S10000x512 ![] bcast_S_S10000x512 : (⟨S_, .f32⟩ : BufTy).Contents (Elt F) → (⟨S10000x512, .f32⟩ : BufTy).Contents (Elt F)) t_main_cst_10
  let t_main_v35 := (broadcastInDim S160000x1 ![0] bcast_S160000_S160000x1_0 : (⟨S160000, .i32⟩ : BufTy).Contents (Elt F) → (⟨S160000x1, .i32⟩ : BufTy).Contents (Elt F)) a2
  let t_main_v36 := ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)) t_main_v34 t_main_v35 t_main_v33
  t_main_v36

/-- A layer's weights as a matrix, narrowed. -/
def narrow (w : (⟨S1x512x512, .f32⟩ : BufTy).Contents (Elt F)) :
    (⟨S512x512, .bf16⟩ : BufTy).Contents (Elt F) :=
  let t_main_v38 := shapeCast S512x512 w shapeCasts_S1x512x512_S512x512
  let t_main_v39 := ((truncf .bf16 · bitsLt_bf16_f32) : (⟨S512x512, .f32⟩ : BufTy).Contents (Elt F) → (⟨S512x512, .bf16⟩ : BufTy).Contents (Elt F)) t_main_v38
  t_main_v39

end

variable [Cert.KernelIdeal.Facts₀]

/-- One layer, over the extended reals. -/
def layer (x : (⟨S10000x512, .f32⟩ : BufTy).Contents (Elt Ideal)) (s d : (⟨S10000x1, .f32⟩ : BufTy).Contents (Elt Ideal)) (a1 a2 : (⟨S160000, .i32⟩ : BufTy).Contents (Elt Ideal))
    (g be : (⟨S1x512, .f32⟩ : BufTy).Contents (Elt Ideal)) (w : (⟨S1x512x512, .f32⟩ : BufTy).Contents (Elt Ideal)) (b : (⟨S1x512, .f32⟩ : BufTy).Contents (Elt Ideal)) :
    (⟨S10000x512, .f32⟩ : BufTy).Contents (Elt Ideal) :=
  GraphConv.scaleAffineRelu (M := 10000) (K := 512) (N := 512)
    (aggregate (F := Ideal) (GraphConv.normScale (M := 10000) (N := 512) x (asRow g) (asRow be) (colMean x) (colVar x) s) a1 a2)
    d (narrow w) (asRow b)

end Cert.KernelIdeal.KerVal

end
-- ==== Proof.KerFold.lean ====
/-
  The kernel program's fold of buffer contents, read where it matters.

  The contents at the boundaries between the program's segments are a fold from the launch memory.  A host stretch
  changes only the buffers its operations write, a launch only its result array; so the arguments and the two columns of
  degree factors, once written, stay what they were at every later boundary, and each buffer a launch reads is a pure
  function (`KerVal`) of arguments and of the previous layer's result.  A layer's first launch leaves
  `GraphConv.normScale` and its second `GraphConv.scaleAffineRelu` of what they find (the region modules), so the result
  buffer after the last launch is three applications of `KerVal.layer` to the first argument.
-/
import proofs.«108859_j74131135529465_1_alg».proof.Proof.Gen.KernelIdeal.Frame
import proofs.«108859_j74131135529465_1_alg».proof.Proof.Norm0
import proofs.«108859_j74131135529465_1_alg».proof.Proof.Norm2
import proofs.«108859_j74131135529465_1_alg».proof.Proof.Norm4
import proofs.«108859_j74131135529465_1_alg».proof.Proof.Prod1
import proofs.«108859_j74131135529465_1_alg».proof.Proof.Prod3
import proofs.«108859_j74131135529465_1_alg».proof.Proof.Prod5
import proofs.«108859_j74131135529465_1_alg».proof.Proof.KerVal
import Idealize.ShloMosaic.Lib.StableHlo.Run

set_option maxRecDepth 16384

noncomputable section

namespace Cert.KernelIdeal.Fold

open Cert.KernelIdeal Cert.KernelIdeal.Gen Cert.KernelIdeal.KerVal Idealize.ShloMosaic Idealize.ShloMosaic.TcCoe Idealize.SL.Sem
open Idealize.ShloMosaic.Pipeline (Dat)
open Idealize.ShloMosaic.StableHlo (after_cons after_nil)

/-- A buffer that no operation of a host stretch writes keeps its contents across the stretch. -/
macro "host_keeps" : tactic =>
  `(tactic| exact StableHlo.after_of_forall_not_mem _ _ (List.forall_iff_forall_mem.mp (by
      simp only [hostOps0, hostOps0_1, hostOps0_2, hostOps0_3, hostOps0_4, hostOps0_5, hostOps0_6, hostOps1, hostOps2, hostOps2_1, hostOps2_2, hostOps3, hostOps4, hostOps4_1, hostOps4_2, hostOps5, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## Region 0's entry: the arguments as launched, the degree columns, layer 0's column statistics and rows -/

theorem at7_main_arg0 : W7 m ρ c (Proc.devRef .tc main_arg0) = (m ((c : Thread nD τ).loc main_arg0)) :=
  calc W7 m ρ c (Proc.devRef .tc main_arg0)
    _ = W6 m ρ c (Proc.devRef .tc main_arg0) := by host_keeps
    _ = W5 m ρ c (Proc.devRef .tc main_arg0) := by host_keeps
    _ = W4 m ρ c (Proc.devRef .tc main_arg0) := by host_keeps
    _ = W3 m ρ c (Proc.devRef .tc main_arg0) := by host_keeps
    _ = W2 m ρ c (Proc.devRef .tc main_arg0) := by host_keeps
    _ = W1 m ρ c (Proc.devRef .tc main_arg0) := by host_keeps
    _ = W0 m ρ c (Proc.devRef .tc main_arg0) := by host_keeps
    _ = (m ((c : Thread nD τ).loc main_arg0)) := rfl

theorem at7_main_arg1 : W7 m ρ c (Proc.devRef .tc main_arg1) = (m ((c : Thread nD τ).loc main_arg1)) :=
  calc W7 m ρ c (Proc.devRef .tc main_arg1)
    _ = W6 m ρ c (Proc.devRef .tc main_arg1) := by host_keeps
    _ = W5 m ρ c (Proc.devRef .tc main_arg1) := by host_keeps
    _ = W4 m ρ c (Proc.devRef .tc main_arg1) := by host_keeps
    _ = W3 m ρ c (Proc.devRef .tc main_arg1) := by host_keeps
    _ = W2 m ρ c (Proc.devRef .tc main_arg1) := by host_keeps
    _ = W1 m ρ c (Proc.devRef .tc main_arg1) := by host_keeps
    _ = W0 m ρ c (Proc.devRef .tc main_arg1) := by host_keeps
    _ = (m ((c : Thread nD τ).loc main_arg1)) := rfl

theorem at7_main_arg2 : W7 m ρ c (Proc.devRef .tc main_arg2) = (m ((c : Thread nD τ).loc main_arg2)) :=
  calc W7 m ρ c (Proc.devRef .tc main_arg2)
    _ = W6 m ρ c (Proc.devRef .tc main_arg2) := by host_keeps
    _ = W5 m ρ c (Proc.devRef .tc main_arg2) := by host_keeps
    _ = W4 m ρ c (Proc.devRef .tc main_arg2) := by host_keeps
    _ = W3 m ρ c (Proc.devRef .tc main_arg2) := by host_keeps
    _ = W2 m ρ c (Proc.devRef .tc main_arg2) := by host_keeps
    _ = W1 m ρ c (Proc.devRef .tc main_arg2) := by host_keeps
    _ = W0 m ρ c (Proc.devRef .tc main_arg2) := by host_keeps
    _ = (m ((c : Thread nD τ).loc main_arg2)) := rfl

theorem at7_main_arg3 : W7 m ρ c (Proc.devRef .tc main_arg3) = (m ((c : Thread nD τ).loc main_arg3)) :=
  calc W7 m ρ c (Proc.devRef .tc main_arg3)
    _ = W6 m ρ c (Proc.devRef .tc main_arg3) := by host_keeps
    _ = W5 m ρ c (Proc.devRef .tc main_arg3) := by host_keeps
    _ = W4 m ρ c (Proc.devRef .tc main_arg3) := by host_keeps
    _ = W3 m ρ c (Proc.devRef .tc main_arg3) := by host_keeps
    _ = W2 m ρ c (Proc.devRef .tc main_arg3) := by host_keeps
    _ = W1 m ρ c (Proc.devRef .tc main_arg3) := by host_keeps
    _ = W0 m ρ c (Proc.devRef .tc main_arg3) := by host_keeps
    _ = (m ((c : Thread nD τ).loc main_arg3)) := rfl

theorem at7_main_arg4 : W7 m ρ c (Proc.devRef .tc main_arg4) = (m ((c : Thread nD τ).loc main_arg4)) :=
  calc W7 m ρ c (Proc.devRef .tc main_arg4)
    _ = W6 m ρ c (Proc.devRef .tc main_arg4) := by host_keeps
    _ = W5 m ρ c (Proc.devRef .tc main_arg4) := by host_keeps
    _ = W4 m ρ c (Proc.devRef .tc main_arg4) := by host_keeps
    _ = W3 m ρ c (Proc.devRef .tc main_arg4) := by host_keeps
    _ = W2 m ρ c (Proc.devRef .tc main_arg4) := by host_keeps
    _ = W1 m ρ c (Proc.devRef .tc main_arg4) := by host_keeps
    _ = W0 m ρ c (Proc.devRef .tc main_arg4) := by host_keeps
    _ = (m ((c : Thread nD τ).loc main_arg4)) := rfl

theorem at7_main_arg5 : W7 m ρ c (Proc.devRef .tc main_arg5) = (m ((c : Thread nD τ).loc main_arg5)) :=
  calc W7 m ρ c (Proc.devRef .tc main_arg5)
    _ = W6 m ρ c (Proc.devRef .tc main_arg5) := by host_keeps
    _ = W5 m ρ c (Proc.devRef .tc main_arg5) := by host_keeps
    _ = W4 m ρ c (Proc.devRef .tc main_arg5) := by host_keeps
    _ = W3 m ρ c (Proc.devRef .tc main_arg5) := by host_keeps
    _ = W2 m ρ c (Proc.devRef .tc main_arg5) := by host_keeps
    _ = W1 m ρ c (Proc.devRef .tc main_arg5) := by host_keeps
    _ = W0 m ρ c (Proc.devRef .tc main_arg5) := by host_keeps
    _ = (m ((c : Thread nD τ).loc main_arg5)) := rfl

theorem at7_main_arg6 : W7 m ρ c (Proc.devRef .tc main_arg6) = (m ((c : Thread nD τ).loc main_arg6)) :=
  calc W7 m ρ c (Proc.devRef .tc main_arg6)
    _ = W6 m ρ c (Proc.devRef .tc main_arg6) := by host_keeps
    _ = W5 m ρ c (Proc.devRef .tc main_arg6) := by host_keeps
    _ = W4 m ρ c (Proc.devRef .tc main_arg6) := by host_keeps
    _ = W3 m ρ c (Proc.devRef .tc main_arg6) := by host_keeps
    _ = W2 m ρ c (Proc.devRef .tc main_arg6) := by host_keeps
    _ = W1 m ρ c (Proc.devRef .tc main_arg6) := by host_keeps
    _ = W0 m ρ c (Proc.devRef .tc main_arg6) := by host_keeps
    _ = (m ((c : Thread nD τ).loc main_arg6)) := rfl

set_option maxRecDepth 16384 in
set_option maxHeartbeats 8000000 in
theorem at7_main_v11 : W7 m ρ c (Proc.devRef .tc main_v11) = asCol (degFactor (m ((c : Thread nD τ).loc main_arg1))) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v11) = _
  after_results_simp
  rfl

set_option maxRecDepth 16384 in
set_option maxHeartbeats 8000000 in
theorem at7_main_v14 : W7 m ρ c (Proc.devRef .tc main_v14) = asCol (degFactor (m ((c : Thread nD τ).loc main_arg2))) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v14) = _
  after_results_simp
  rfl

set_option maxRecDepth 16384 in
set_option maxHeartbeats 8000000 in
theorem at7_main_v18 : W7 m ρ c (Proc.devRef .tc main_v18) = colMean (m ((c : Thread nD τ).loc main_arg0)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v18) = _
  after_results_simp
  rfl

set_option maxRecDepth 16384 in
set_option maxHeartbeats 8000000 in
theorem at7_main_v19 : W7 m ρ c (Proc.devRef .tc main_v19) = colVar (m ((c : Thread nD τ).loc main_arg0)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v19) = _
  after_results_simp
  rfl

set_option maxRecDepth 16384 in
set_option maxHeartbeats 8000000 in
theorem at7_main_v22 : W7 m ρ c (Proc.devRef .tc main_v22) = asRow (extractStridedSlice S1x512 ![0, 0] (m ((c : Thread nD τ).loc main_arg3)) slices_S3x512_S1x512_0_0) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v22) = _
  after_results_simp
  rfl

set_option maxRecDepth 16384 in
set_option maxHeartbeats 8000000 in
theorem at7_main_v25 : W7 m ρ c (Proc.devRef .tc main_v25) = asRow (extractStridedSlice S1x512 ![0, 0] (m ((c : Thread nD τ).loc main_arg4)) slices_S3x512_S1x512_0_0) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v25) = _
  after_results_simp
  rfl

/-! ## What the later segments read of the arguments and the degree columns, at every boundary -/

theorem at8_main_arg1 : W8 m ρ c (Proc.devRef .tc main_arg1) = (m ((c : Thread nD τ).loc main_arg1)) :=
  ((W8_of_ne m ρ c main_arg1 (by decide)) : W8 m ρ c (Proc.devRef .tc main_arg1) = W7 m ρ c (Proc.devRef .tc main_arg1)).trans (at7_main_arg1 m ρ c)

theorem at8_main_arg2 : W8 m ρ c (Proc.devRef .tc main_arg2) = (m ((c : Thread nD τ).loc main_arg2)) :=
  ((W8_of_ne m ρ c main_arg2 (by decide)) : W8 m ρ c (Proc.devRef .tc main_arg2) = W7 m ρ c (Proc.devRef .tc main_arg2)).trans (at7_main_arg2 m ρ c)

theorem at8_main_arg3 : W8 m ρ c (Proc.devRef .tc main_arg3) = (m ((c : Thread nD τ).loc main_arg3)) :=
  ((W8_of_ne m ρ c main_arg3 (by decide)) : W8 m ρ c (Proc.devRef .tc main_arg3) = W7 m ρ c (Proc.devRef .tc main_arg3)).trans (at7_main_arg3 m ρ c)

theorem at8_main_arg4 : W8 m ρ c (Proc.devRef .tc main_arg4) = (m ((c : Thread nD τ).loc main_arg4)) :=
  ((W8_of_ne m ρ c main_arg4 (by decide)) : W8 m ρ c (Proc.devRef .tc main_arg4) = W7 m ρ c (Proc.devRef .tc main_arg4)).trans (at7_main_arg4 m ρ c)

theorem at8_main_arg5 : W8 m ρ c (Proc.devRef .tc main_arg5) = (m ((c : Thread nD τ).loc main_arg5)) :=
  ((W8_of_ne m ρ c main_arg5 (by decide)) : W8 m ρ c (Proc.devRef .tc main_arg5) = W7 m ρ c (Proc.devRef .tc main_arg5)).trans (at7_main_arg5 m ρ c)

theorem at8_main_arg6 : W8 m ρ c (Proc.devRef .tc main_arg6) = (m ((c : Thread nD τ).loc main_arg6)) :=
  ((W8_of_ne m ρ c main_arg6 (by decide)) : W8 m ρ c (Proc.devRef .tc main_arg6) = W7 m ρ c (Proc.devRef .tc main_arg6)).trans (at7_main_arg6 m ρ c)

theorem at8_main_v11 : W8 m ρ c (Proc.devRef .tc main_v11) = (asCol (degFactor (m ((c : Thread nD τ).loc main_arg1)))) :=
  (((W8_arr m ρ c 5).trans (((dat0 (V7 m ρ) c).arrAt_in 5 rfl _).trans (A_eq0 (V7 m ρ) c 5))) : W8 m ρ c (Proc.devRef .tc main_v11) = W7 m ρ c (Proc.devRef .tc main_v11)).trans (at7_main_v11 m ρ c)

theorem at8_main_v14 : W8 m ρ c (Proc.devRef .tc main_v14) = (asCol (degFactor (m ((c : Thread nD τ).loc main_arg2)))) :=
  ((W8_of_ne m ρ c main_v14 (by decide)) : W8 m ρ c (Proc.devRef .tc main_v14) = W7 m ρ c (Proc.devRef .tc main_v14)).trans (at7_main_v14 m ρ c)

theorem at9_main_arg1 : W9 m ρ c (Proc.devRef .tc main_arg1) = (m ((c : Thread nD τ).loc main_arg1)) :=
  ((by host_keeps) : W9 m ρ c (Proc.devRef .tc main_arg1) = W8 m ρ c (Proc.devRef .tc main_arg1)).trans (at8_main_arg1 m ρ c)

theorem at9_main_arg2 : W9 m ρ c (Proc.devRef .tc main_arg2) = (m ((c : Thread nD τ).loc main_arg2)) :=
  ((by host_keeps) : W9 m ρ c (Proc.devRef .tc main_arg2) = W8 m ρ c (Proc.devRef .tc main_arg2)).trans (at8_main_arg2 m ρ c)

theorem at9_main_arg3 : W9 m ρ c (Proc.devRef .tc main_arg3) = (m ((c : Thread nD τ).loc main_arg3)) :=
  ((by host_keeps) : W9 m ρ c (Proc.devRef .tc main_arg3) = W8 m ρ c (Proc.devRef .tc main_arg3)).trans (at8_main_arg3 m ρ c)

theorem at9_main_arg4 : W9 m ρ c (Proc.devRef .tc main_arg4) = (m ((c : Thread nD τ).loc main_arg4)) :=
  ((by host_keeps) : W9 m ρ c (Proc.devRef .tc main_arg4) = W8 m ρ c (Proc.devRef .tc main_arg4)).trans (at8_main_arg4 m ρ c)

theorem at9_main_arg5 : W9 m ρ c (Proc.devRef .tc main_arg5) = (m ((c : Thread nD τ).loc main_arg5)) :=
  ((by host_keeps) : W9 m ρ c (Proc.devRef .tc main_arg5) = W8 m ρ c (Proc.devRef .tc main_arg5)).trans (at8_main_arg5 m ρ c)

theorem at9_main_arg6 : W9 m ρ c (Proc.devRef .tc main_arg6) = (m ((c : Thread nD τ).loc main_arg6)) :=
  ((by host_keeps) : W9 m ρ c (Proc.devRef .tc main_arg6) = W8 m ρ c (Proc.devRef .tc main_arg6)).trans (at8_main_arg6 m ρ c)

theorem at9_main_v11 : W9 m ρ c (Proc.devRef .tc main_v11) = (asCol (degFactor (m ((c : Thread nD τ).loc main_arg1)))) :=
  ((by host_keeps) : W9 m ρ c (Proc.devRef .tc main_v11) = W8 m ρ c (Proc.devRef .tc main_v11)).trans (at8_main_v11 m ρ c)

theorem at9_main_v14 : W9 m ρ c (Proc.devRef .tc main_v14) = (asCol (degFactor (m ((c : Thread nD τ).loc main_arg2)))) :=
  ((by host_keeps) : W9 m ρ c (Proc.devRef .tc main_v14) = W8 m ρ c (Proc.devRef .tc main_v14)).trans (at8_main_v14 m ρ c)

theorem at10_main_arg1 : W10 m ρ c (Proc.devRef .tc main_arg1) = (m ((c : Thread nD τ).loc main_arg1)) :=
  ((W10_of_ne m ρ c main_arg1 (by decide)) : W10 m ρ c (Proc.devRef .tc main_arg1) = W9 m ρ c (Proc.devRef .tc main_arg1)).trans (at9_main_arg1 m ρ c)

theorem at10_main_arg2 : W10 m ρ c (Proc.devRef .tc main_arg2) = (m ((c : Thread nD τ).loc main_arg2)) :=
  ((W10_of_ne m ρ c main_arg2 (by decide)) : W10 m ρ c (Proc.devRef .tc main_arg2) = W9 m ρ c (Proc.devRef .tc main_arg2)).trans (at9_main_arg2 m ρ c)

theorem at10_main_arg3 : W10 m ρ c (Proc.devRef .tc main_arg3) = (m ((c : Thread nD τ).loc main_arg3)) :=
  ((W10_of_ne m ρ c main_arg3 (by decide)) : W10 m ρ c (Proc.devRef .tc main_arg3) = W9 m ρ c (Proc.devRef .tc main_arg3)).trans (at9_main_arg3 m ρ c)

theorem at10_main_arg4 : W10 m ρ c (Proc.devRef .tc main_arg4) = (m ((c : Thread nD τ).loc main_arg4)) :=
  ((W10_of_ne m ρ c main_arg4 (by decide)) : W10 m ρ c (Proc.devRef .tc main_arg4) = W9 m ρ c (Proc.devRef .tc main_arg4)).trans (at9_main_arg4 m ρ c)

theorem at10_main_arg5 : W10 m ρ c (Proc.devRef .tc main_arg5) = (m ((c : Thread nD τ).loc main_arg5)) :=
  ((W10_of_ne m ρ c main_arg5 (by decide)) : W10 m ρ c (Proc.devRef .tc main_arg5) = W9 m ρ c (Proc.devRef .tc main_arg5)).trans (at9_main_arg5 m ρ c)

theorem at10_main_arg6 : W10 m ρ c (Proc.devRef .tc main_arg6) = (m ((c : Thread nD τ).loc main_arg6)) :=
  ((W10_of_ne m ρ c main_arg6 (by decide)) : W10 m ρ c (Proc.devRef .tc main_arg6) = W9 m ρ c (Proc.devRef .tc main_arg6)).trans (at9_main_arg6 m ρ c)

theorem at10_main_v11 : W10 m ρ c (Proc.devRef .tc main_v11) = (asCol (degFactor (m ((c : Thread nD τ).loc main_arg1)))) :=
  ((W10_of_ne m ρ c main_v11 (by decide)) : W10 m ρ c (Proc.devRef .tc main_v11) = W9 m ρ c (Proc.devRef .tc main_v11)).trans (at9_main_v11 m ρ c)

theorem at10_main_v14 : W10 m ρ c (Proc.devRef .tc main_v14) = (asCol (degFactor (m ((c : Thread nD τ).loc main_arg2)))) :=
  (((W10_arr m ρ c 1).trans (((dat1 (V9 m ρ) c).arrAt_in 1 rfl _).trans (A_eq1 (V9 m ρ) c 1))) : W10 m ρ c (Proc.devRef .tc main_v14) = W9 m ρ c (Proc.devRef .tc main_v14)).trans (at9_main_v14 m ρ c)

theorem at11_main_arg1 : W11 m ρ c (Proc.devRef .tc main_arg1) = (m ((c : Thread nD τ).loc main_arg1)) :=
  ((by host_keeps) : W11 m ρ c (Proc.devRef .tc main_arg1) = W10 m ρ c (Proc.devRef .tc main_arg1)).trans (at10_main_arg1 m ρ c)

theorem at11_main_arg2 : W11 m ρ c (Proc.devRef .tc main_arg2) = (m ((c : Thread nD τ).loc main_arg2)) :=
  ((by host_keeps) : W11 m ρ c (Proc.devRef .tc main_arg2) = W10 m ρ c (Proc.devRef .tc main_arg2)).trans (at10_main_arg2 m ρ c)

theorem at11_main_arg3 : W11 m ρ c (Proc.devRef .tc main_arg3) = (m ((c : Thread nD τ).loc main_arg3)) :=
  ((by host_keeps) : W11 m ρ c (Proc.devRef .tc main_arg3) = W10 m ρ c (Proc.devRef .tc main_arg3)).trans (at10_main_arg3 m ρ c)

theorem at11_main_arg4 : W11 m ρ c (Proc.devRef .tc main_arg4) = (m ((c : Thread nD τ).loc main_arg4)) :=
  ((by host_keeps) : W11 m ρ c (Proc.devRef .tc main_arg4) = W10 m ρ c (Proc.devRef .tc main_arg4)).trans (at10_main_arg4 m ρ c)

theorem at11_main_arg5 : W11 m ρ c (Proc.devRef .tc main_arg5) = (m ((c : Thread nD τ).loc main_arg5)) :=
  ((by host_keeps) : W11 m ρ c (Proc.devRef .tc main_arg5) = W10 m ρ c (Proc.devRef .tc main_arg5)).trans (at10_main_arg5 m ρ c)

theorem at11_main_arg6 : W11 m ρ c (Proc.devRef .tc main_arg6) = (m ((c : Thread nD τ).loc main_arg6)) :=
  ((by host_keeps) : W11 m ρ c (Proc.devRef .tc main_arg6) = W10 m ρ c (Proc.devRef .tc main_arg6)).trans (at10_main_arg6 m ρ c)

theorem at11_main_v11 : W11 m ρ c (Proc.devRef .tc main_v11) = (asCol (degFactor (m ((c : Thread nD τ).loc main_arg1)))) :=
  ((by host_keeps) : W11 m ρ c (Proc.devRef .tc main_v11) = W10 m ρ c (Proc.devRef .tc main_v11)).trans (at10_main_v11 m ρ c)

theorem at11_main_v14 : W11 m ρ c (Proc.devRef .tc main_v14) = (asCol (degFactor (m ((c : Thread nD τ).loc main_arg2)))) :=
  ((by host_keeps) : W11 m ρ c (Proc.devRef .tc main_v14) = W10 m ρ c (Proc.devRef .tc main_v14)).trans (at10_main_v14 m ρ c)

theorem at12_main_arg1 : W12 m ρ c (Proc.devRef .tc main_arg1) = (m ((c : Thread nD τ).loc main_arg1)) :=
  ((by host_keeps) : W12 m ρ c (Proc.devRef .tc main_arg1) = W11 m ρ c (Proc.devRef .tc main_arg1)).trans (at11_main_arg1 m ρ c)

theorem at12_main_arg2 : W12 m ρ c (Proc.devRef .tc main_arg2) = (m ((c : Thread nD τ).loc main_arg2)) :=
  ((by host_keeps) : W12 m ρ c (Proc.devRef .tc main_arg2) = W11 m ρ c (Proc.devRef .tc main_arg2)).trans (at11_main_arg2 m ρ c)

theorem at12_main_arg3 : W12 m ρ c (Proc.devRef .tc main_arg3) = (m ((c : Thread nD τ).loc main_arg3)) :=
  ((by host_keeps) : W12 m ρ c (Proc.devRef .tc main_arg3) = W11 m ρ c (Proc.devRef .tc main_arg3)).trans (at11_main_arg3 m ρ c)

theorem at12_main_arg4 : W12 m ρ c (Proc.devRef .tc main_arg4) = (m ((c : Thread nD τ).loc main_arg4)) :=
  ((by host_keeps) : W12 m ρ c (Proc.devRef .tc main_arg4) = W11 m ρ c (Proc.devRef .tc main_arg4)).trans (at11_main_arg4 m ρ c)

theorem at12_main_arg5 : W12 m ρ c (Proc.devRef .tc main_arg5) = (m ((c : Thread nD τ).loc main_arg5)) :=
  ((by host_keeps) : W12 m ρ c (Proc.devRef .tc main_arg5) = W11 m ρ c (Proc.devRef .tc main_arg5)).trans (at11_main_arg5 m ρ c)

theorem at12_main_arg6 : W12 m ρ c (Proc.devRef .tc main_arg6) = (m ((c : Thread nD τ).loc main_arg6)) :=
  ((by host_keeps) : W12 m ρ c (Proc.devRef .tc main_arg6) = W11 m ρ c (Proc.devRef .tc main_arg6)).trans (at11_main_arg6 m ρ c)

theorem at12_main_v11 : W12 m ρ c (Proc.devRef .tc main_v11) = (asCol (degFactor (m ((c : Thread nD τ).loc main_arg1)))) :=
  ((by host_keeps) : W12 m ρ c (Proc.devRef .tc main_v11) = W11 m ρ c (Proc.devRef .tc main_v11)).trans (at11_main_v11 m ρ c)

theorem at12_main_v14 : W12 m ρ c (Proc.devRef .tc main_v14) = (asCol (degFactor (m ((c : Thread nD τ).loc main_arg2)))) :=
  ((by host_keeps) : W12 m ρ c (Proc.devRef .tc main_v14) = W11 m ρ c (Proc.devRef .tc main_v14)).trans (at11_main_v14 m ρ c)

theorem at13_main_arg1 : W13 m ρ c (Proc.devRef .tc main_arg1) = (m ((c : Thread nD τ).loc main_arg1)) :=
  ((by host_keeps) : W13 m ρ c (Proc.devRef .tc main_arg1) = W12 m ρ c (Proc.devRef .tc main_arg1)).trans (at12_main_arg1 m ρ c)

theorem at13_main_arg2 : W13 m ρ c (Proc.devRef .tc main_arg2) = (m ((c : Thread nD τ).loc main_arg2)) :=
  ((by host_keeps) : W13 m ρ c (Proc.devRef .tc main_arg2) = W12 m ρ c (Proc.devRef .tc main_arg2)).trans (at12_main_arg2 m ρ c)

theorem at13_main_arg3 : W13 m ρ c (Proc.devRef .tc main_arg3) = (m ((c : Thread nD τ).loc main_arg3)) :=
  ((by host_keeps) : W13 m ρ c (Proc.devRef .tc main_arg3) = W12 m ρ c (Proc.devRef .tc main_arg3)).trans (at12_main_arg3 m ρ c)

theorem at13_main_arg4 : W13 m ρ c (Proc.devRef .tc main_arg4) = (m ((c : Thread nD τ).loc main_arg4)) :=
  ((by host_keeps) : W13 m ρ c (Proc.devRef .tc main_arg4) = W12 m ρ c (Proc.devRef .tc main_arg4)).trans (at12_main_arg4 m ρ c)

theorem at13_main_arg5 : W13 m ρ c (Proc.devRef .tc main_arg5) = (m ((c : Thread nD τ).loc main_arg5)) :=
  ((by host_keeps) : W13 m ρ c (Proc.devRef .tc main_arg5) = W12 m ρ c (Proc.devRef .tc main_arg5)).trans (at12_main_arg5 m ρ c)

theorem at13_main_arg6 : W13 m ρ c (Proc.devRef .tc main_arg6) = (m ((c : Thread nD τ).loc main_arg6)) :=
  ((by host_keeps) : W13 m ρ c (Proc.devRef .tc main_arg6) = W12 m ρ c (Proc.devRef .tc main_arg6)).trans (at12_main_arg6 m ρ c)

theorem at13_main_v11 : W13 m ρ c (Proc.devRef .tc main_v11) = (asCol (degFactor (m ((c : Thread nD τ).loc main_arg1)))) :=
  ((by host_keeps) : W13 m ρ c (Proc.devRef .tc main_v11) = W12 m ρ c (Proc.devRef .tc main_v11)).trans (at12_main_v11 m ρ c)

theorem at13_main_v14 : W13 m ρ c (Proc.devRef .tc main_v14) = (asCol (degFactor (m ((c : Thread nD τ).loc main_arg2)))) :=
  ((by host_keeps) : W13 m ρ c (Proc.devRef .tc main_v14) = W12 m ρ c (Proc.devRef .tc main_v14)).trans (at12_main_v14 m ρ c)

theorem at14_main_arg1 : W14 m ρ c (Proc.devRef .tc main_arg1) = (m ((c : Thread nD τ).loc main_arg1)) :=
  ((W14_of_ne m ρ c main_arg1 (by decide)) : W14 m ρ c (Proc.devRef .tc main_arg1) = W13 m ρ c (Proc.devRef .tc main_arg1)).trans (at13_main_arg1 m ρ c)

theorem at14_main_arg2 : W14 m ρ c (Proc.devRef .tc main_arg2) = (m ((c : Thread nD τ).loc main_arg2)) :=
  ((W14_of_ne m ρ c main_arg2 (by decide)) : W14 m ρ c (Proc.devRef .tc main_arg2) = W13 m ρ c (Proc.devRef .tc main_arg2)).trans (at13_main_arg2 m ρ c)

theorem at14_main_arg3 : W14 m ρ c (Proc.devRef .tc main_arg3) = (m ((c : Thread nD τ).loc main_arg3)) :=
  ((W14_of_ne m ρ c main_arg3 (by decide)) : W14 m ρ c (Proc.devRef .tc main_arg3) = W13 m ρ c (Proc.devRef .tc main_arg3)).trans (at13_main_arg3 m ρ c)

theorem at14_main_arg4 : W14 m ρ c (Proc.devRef .tc main_arg4) = (m ((c : Thread nD τ).loc main_arg4)) :=
  ((W14_of_ne m ρ c main_arg4 (by decide)) : W14 m ρ c (Proc.devRef .tc main_arg4) = W13 m ρ c (Proc.devRef .tc main_arg4)).trans (at13_main_arg4 m ρ c)

theorem at14_main_arg5 : W14 m ρ c (Proc.devRef .tc main_arg5) = (m ((c : Thread nD τ).loc main_arg5)) :=
  ((W14_of_ne m ρ c main_arg5 (by decide)) : W14 m ρ c (Proc.devRef .tc main_arg5) = W13 m ρ c (Proc.devRef .tc main_arg5)).trans (at13_main_arg5 m ρ c)

theorem at14_main_arg6 : W14 m ρ c (Proc.devRef .tc main_arg6) = (m ((c : Thread nD τ).loc main_arg6)) :=
  ((W14_of_ne m ρ c main_arg6 (by decide)) : W14 m ρ c (Proc.devRef .tc main_arg6) = W13 m ρ c (Proc.devRef .tc main_arg6)).trans (at13_main_arg6 m ρ c)

theorem at14_main_v11 : W14 m ρ c (Proc.devRef .tc main_v11) = (asCol (degFactor (m ((c : Thread nD τ).loc main_arg1)))) :=
  (((W14_arr m ρ c 5).trans (((dat2 (V13 m ρ) c).arrAt_in 5 rfl _).trans (A_eq2 (V13 m ρ) c 5))) : W14 m ρ c (Proc.devRef .tc main_v11) = W13 m ρ c (Proc.devRef .tc main_v11)).trans (at13_main_v11 m ρ c)

theorem at14_main_v14 : W14 m ρ c (Proc.devRef .tc main_v14) = (asCol (degFactor (m ((c : Thread nD τ).loc main_arg2)))) :=
  ((W14_of_ne m ρ c main_v14 (by decide)) : W14 m ρ c (Proc.devRef .tc main_v14) = W13 m ρ c (Proc.devRef .tc main_v14)).trans (at13_main_v14 m ρ c)

theorem at15_main_arg1 : W15 m ρ c (Proc.devRef .tc main_arg1) = (m ((c : Thread nD τ).loc main_arg1)) :=
  ((by host_keeps) : W15 m ρ c (Proc.devRef .tc main_arg1) = W14 m ρ c (Proc.devRef .tc main_arg1)).trans (at14_main_arg1 m ρ c)

theorem at15_main_arg2 : W15 m ρ c (Proc.devRef .tc main_arg2) = (m ((c : Thread nD τ).loc main_arg2)) :=
  ((by host_keeps) : W15 m ρ c (Proc.devRef .tc main_arg2) = W14 m ρ c (Proc.devRef .tc main_arg2)).trans (at14_main_arg2 m ρ c)

theorem at15_main_arg3 : W15 m ρ c (Proc.devRef .tc main_arg3) = (m ((c : Thread nD τ).loc main_arg3)) :=
  ((by host_keeps) : W15 m ρ c (Proc.devRef .tc main_arg3) = W14 m ρ c (Proc.devRef .tc main_arg3)).trans (at14_main_arg3 m ρ c)

theorem at15_main_arg4 : W15 m ρ c (Proc.devRef .tc main_arg4) = (m ((c : Thread nD τ).loc main_arg4)) :=
  ((by host_keeps) : W15 m ρ c (Proc.devRef .tc main_arg4) = W14 m ρ c (Proc.devRef .tc main_arg4)).trans (at14_main_arg4 m ρ c)

theorem at15_main_arg5 : W15 m ρ c (Proc.devRef .tc main_arg5) = (m ((c : Thread nD τ).loc main_arg5)) :=
  ((by host_keeps) : W15 m ρ c (Proc.devRef .tc main_arg5) = W14 m ρ c (Proc.devRef .tc main_arg5)).trans (at14_main_arg5 m ρ c)

theorem at15_main_arg6 : W15 m ρ c (Proc.devRef .tc main_arg6) = (m ((c : Thread nD τ).loc main_arg6)) :=
  ((by host_keeps) : W15 m ρ c (Proc.devRef .tc main_arg6) = W14 m ρ c (Proc.devRef .tc main_arg6)).trans (at14_main_arg6 m ρ c)

theorem at15_main_v11 : W15 m ρ c (Proc.devRef .tc main_v11) = (asCol (degFactor (m ((c : Thread nD τ).loc main_arg1)))) :=
  ((by host_keeps) : W15 m ρ c (Proc.devRef .tc main_v11) = W14 m ρ c (Proc.devRef .tc main_v11)).trans (at14_main_v11 m ρ c)

theorem at15_main_v14 : W15 m ρ c (Proc.devRef .tc main_v14) = (asCol (degFactor (m ((c : Thread nD τ).loc main_arg2)))) :=
  ((by host_keeps) : W15 m ρ c (Proc.devRef .tc main_v14) = W14 m ρ c (Proc.devRef .tc main_v14)).trans (at14_main_v14 m ρ c)

theorem at16_main_arg1 : W16 m ρ c (Proc.devRef .tc main_arg1) = (m ((c : Thread nD τ).loc main_arg1)) :=
  ((W16_of_ne m ρ c main_arg1 (by decide)) : W16 m ρ c (Proc.devRef .tc main_arg1) = W15 m ρ c (Proc.devRef .tc main_arg1)).trans (at15_main_arg1 m ρ c)

theorem at16_main_arg2 : W16 m ρ c (Proc.devRef .tc main_arg2) = (m ((c : Thread nD τ).loc main_arg2)) :=
  ((W16_of_ne m ρ c main_arg2 (by decide)) : W16 m ρ c (Proc.devRef .tc main_arg2) = W15 m ρ c (Proc.devRef .tc main_arg2)).trans (at15_main_arg2 m ρ c)

theorem at16_main_arg3 : W16 m ρ c (Proc.devRef .tc main_arg3) = (m ((c : Thread nD τ).loc main_arg3)) :=
  ((W16_of_ne m ρ c main_arg3 (by decide)) : W16 m ρ c (Proc.devRef .tc main_arg3) = W15 m ρ c (Proc.devRef .tc main_arg3)).trans (at15_main_arg3 m ρ c)

theorem at16_main_arg4 : W16 m ρ c (Proc.devRef .tc main_arg4) = (m ((c : Thread nD τ).loc main_arg4)) :=
  ((W16_of_ne m ρ c main_arg4 (by decide)) : W16 m ρ c (Proc.devRef .tc main_arg4) = W15 m ρ c (Proc.devRef .tc main_arg4)).trans (at15_main_arg4 m ρ c)

theorem at16_main_arg5 : W16 m ρ c (Proc.devRef .tc main_arg5) = (m ((c : Thread nD τ).loc main_arg5)) :=
  ((W16_of_ne m ρ c main_arg5 (by decide)) : W16 m ρ c (Proc.devRef .tc main_arg5) = W15 m ρ c (Proc.devRef .tc main_arg5)).trans (at15_main_arg5 m ρ c)

theorem at16_main_arg6 : W16 m ρ c (Proc.devRef .tc main_arg6) = (m ((c : Thread nD τ).loc main_arg6)) :=
  ((W16_of_ne m ρ c main_arg6 (by decide)) : W16 m ρ c (Proc.devRef .tc main_arg6) = W15 m ρ c (Proc.devRef .tc main_arg6)).trans (at15_main_arg6 m ρ c)

theorem at16_main_v11 : W16 m ρ c (Proc.devRef .tc main_v11) = (asCol (degFactor (m ((c : Thread nD τ).loc main_arg1)))) :=
  ((W16_of_ne m ρ c main_v11 (by decide)) : W16 m ρ c (Proc.devRef .tc main_v11) = W15 m ρ c (Proc.devRef .tc main_v11)).trans (at15_main_v11 m ρ c)

theorem at16_main_v14 : W16 m ρ c (Proc.devRef .tc main_v14) = (asCol (degFactor (m ((c : Thread nD τ).loc main_arg2)))) :=
  (((W16_arr m ρ c 1).trans (((dat3 (V15 m ρ) c).arrAt_in 1 rfl _).trans (A_eq3 (V15 m ρ) c 1))) : W16 m ρ c (Proc.devRef .tc main_v14) = W15 m ρ c (Proc.devRef .tc main_v14)).trans (at15_main_v14 m ρ c)

theorem at17_main_arg1 : W17 m ρ c (Proc.devRef .tc main_arg1) = (m ((c : Thread nD τ).loc main_arg1)) :=
  ((by host_keeps) : W17 m ρ c (Proc.devRef .tc main_arg1) = W16 m ρ c (Proc.devRef .tc main_arg1)).trans (at16_main_arg1 m ρ c)

theorem at17_main_arg2 : W17 m ρ c (Proc.devRef .tc main_arg2) = (m ((c : Thread nD τ).loc main_arg2)) :=
  ((by host_keeps) : W17 m ρ c (Proc.devRef .tc main_arg2) = W16 m ρ c (Proc.devRef .tc main_arg2)).trans (at16_main_arg2 m ρ c)

theorem at17_main_arg3 : W17 m ρ c (Proc.devRef .tc main_arg3) = (m ((c : Thread nD τ).loc main_arg3)) :=
  ((by host_keeps) : W17 m ρ c (Proc.devRef .tc main_arg3) = W16 m ρ c (Proc.devRef .tc main_arg3)).trans (at16_main_arg3 m ρ c)

theorem at17_main_arg4 : W17 m ρ c (Proc.devRef .tc main_arg4) = (m ((c : Thread nD τ).loc main_arg4)) :=
  ((by host_keeps) : W17 m ρ c (Proc.devRef .tc main_arg4) = W16 m ρ c (Proc.devRef .tc main_arg4)).trans (at16_main_arg4 m ρ c)

theorem at17_main_arg5 : W17 m ρ c (Proc.devRef .tc main_arg5) = (m ((c : Thread nD τ).loc main_arg5)) :=
  ((by host_keeps) : W17 m ρ c (Proc.devRef .tc main_arg5) = W16 m ρ c (Proc.devRef .tc main_arg5)).trans (at16_main_arg5 m ρ c)

theorem at17_main_arg6 : W17 m ρ c (Proc.devRef .tc main_arg6) = (m ((c : Thread nD τ).loc main_arg6)) :=
  ((by host_keeps) : W17 m ρ c (Proc.devRef .tc main_arg6) = W16 m ρ c (Proc.devRef .tc main_arg6)).trans (at16_main_arg6 m ρ c)

theorem at17_main_v11 : W17 m ρ c (Proc.devRef .tc main_v11) = (asCol (degFactor (m ((c : Thread nD τ).loc main_arg1)))) :=
  ((by host_keeps) : W17 m ρ c (Proc.devRef .tc main_v11) = W16 m ρ c (Proc.devRef .tc main_v11)).trans (at16_main_v11 m ρ c)

theorem at17_main_v14 : W17 m ρ c (Proc.devRef .tc main_v14) = (asCol (degFactor (m ((c : Thread nD τ).loc main_arg2)))) :=
  ((by host_keeps) : W17 m ρ c (Proc.devRef .tc main_v14) = W16 m ρ c (Proc.devRef .tc main_v14)).trans (at16_main_v14 m ρ c)

theorem at18_main_arg1 : W18 m ρ c (Proc.devRef .tc main_arg1) = (m ((c : Thread nD τ).loc main_arg1)) :=
  ((by host_keeps) : W18 m ρ c (Proc.devRef .tc main_arg1) = W17 m ρ c (Proc.devRef .tc main_arg1)).trans (at17_main_arg1 m ρ c)

theorem at18_main_arg2 : W18 m ρ c (Proc.devRef .tc main_arg2) = (m ((c : Thread nD τ).loc main_arg2)) :=
  ((by host_keeps) : W18 m ρ c (Proc.devRef .tc main_arg2) = W17 m ρ c (Proc.devRef .tc main_arg2)).trans (at17_main_arg2 m ρ c)

theorem at18_main_arg3 : W18 m ρ c (Proc.devRef .tc main_arg3) = (m ((c : Thread nD τ).loc main_arg3)) :=
  ((by host_keeps) : W18 m ρ c (Proc.devRef .tc main_arg3) = W17 m ρ c (Proc.devRef .tc main_arg3)).trans (at17_main_arg3 m ρ c)

theorem at18_main_arg4 : W18 m ρ c (Proc.devRef .tc main_arg4) = (m ((c : Thread nD τ).loc main_arg4)) :=
  ((by host_keeps) : W18 m ρ c (Proc.devRef .tc main_arg4) = W17 m ρ c (Proc.devRef .tc main_arg4)).trans (at17_main_arg4 m ρ c)

theorem at18_main_arg5 : W18 m ρ c (Proc.devRef .tc main_arg5) = (m ((c : Thread nD τ).loc main_arg5)) :=
  ((by host_keeps) : W18 m ρ c (Proc.devRef .tc main_arg5) = W17 m ρ c (Proc.devRef .tc main_arg5)).trans (at17_main_arg5 m ρ c)

theorem at18_main_arg6 : W18 m ρ c (Proc.devRef .tc main_arg6) = (m ((c : Thread nD τ).loc main_arg6)) :=
  ((by host_keeps) : W18 m ρ c (Proc.devRef .tc main_arg6) = W17 m ρ c (Proc.devRef .tc main_arg6)).trans (at17_main_arg6 m ρ c)

theorem at18_main_v11 : W18 m ρ c (Proc.devRef .tc main_v11) = (asCol (degFactor (m ((c : Thread nD τ).loc main_arg1)))) :=
  ((by host_keeps) : W18 m ρ c (Proc.devRef .tc main_v11) = W17 m ρ c (Proc.devRef .tc main_v11)).trans (at17_main_v11 m ρ c)

theorem at18_main_v14 : W18 m ρ c (Proc.devRef .tc main_v14) = (asCol (degFactor (m ((c : Thread nD τ).loc main_arg2)))) :=
  ((by host_keeps) : W18 m ρ c (Proc.devRef .tc main_v14) = W17 m ρ c (Proc.devRef .tc main_v14)).trans (at17_main_v14 m ρ c)

theorem at19_main_arg1 : W19 m ρ c (Proc.devRef .tc main_arg1) = (m ((c : Thread nD τ).loc main_arg1)) :=
  ((by host_keeps) : W19 m ρ c (Proc.devRef .tc main_arg1) = W18 m ρ c (Proc.devRef .tc main_arg1)).trans (at18_main_arg1 m ρ c)

theorem at19_main_arg2 : W19 m ρ c (Proc.devRef .tc main_arg2) = (m ((c : Thread nD τ).loc main_arg2)) :=
  ((by host_keeps) : W19 m ρ c (Proc.devRef .tc main_arg2) = W18 m ρ c (Proc.devRef .tc main_arg2)).trans (at18_main_arg2 m ρ c)

theorem at19_main_arg3 : W19 m ρ c (Proc.devRef .tc main_arg3) = (m ((c : Thread nD τ).loc main_arg3)) :=
  ((by host_keeps) : W19 m ρ c (Proc.devRef .tc main_arg3) = W18 m ρ c (Proc.devRef .tc main_arg3)).trans (at18_main_arg3 m ρ c)

theorem at19_main_arg4 : W19 m ρ c (Proc.devRef .tc main_arg4) = (m ((c : Thread nD τ).loc main_arg4)) :=
  ((by host_keeps) : W19 m ρ c (Proc.devRef .tc main_arg4) = W18 m ρ c (Proc.devRef .tc main_arg4)).trans (at18_main_arg4 m ρ c)

theorem at19_main_arg5 : W19 m ρ c (Proc.devRef .tc main_arg5) = (m ((c : Thread nD τ).loc main_arg5)) :=
  ((by host_keeps) : W19 m ρ c (Proc.devRef .tc main_arg5) = W18 m ρ c (Proc.devRef .tc main_arg5)).trans (at18_main_arg5 m ρ c)

theorem at19_main_arg6 : W19 m ρ c (Proc.devRef .tc main_arg6) = (m ((c : Thread nD τ).loc main_arg6)) :=
  ((by host_keeps) : W19 m ρ c (Proc.devRef .tc main_arg6) = W18 m ρ c (Proc.devRef .tc main_arg6)).trans (at18_main_arg6 m ρ c)

theorem at19_main_v11 : W19 m ρ c (Proc.devRef .tc main_v11) = (asCol (degFactor (m ((c : Thread nD τ).loc main_arg1)))) :=
  ((by host_keeps) : W19 m ρ c (Proc.devRef .tc main_v11) = W18 m ρ c (Proc.devRef .tc main_v11)).trans (at18_main_v11 m ρ c)

theorem at19_main_v14 : W19 m ρ c (Proc.devRef .tc main_v14) = (asCol (degFactor (m ((c : Thread nD τ).loc main_arg2)))) :=
  ((by host_keeps) : W19 m ρ c (Proc.devRef .tc main_v14) = W18 m ρ c (Proc.devRef .tc main_v14)).trans (at18_main_v14 m ρ c)

theorem at20_main_arg1 : W20 m ρ c (Proc.devRef .tc main_arg1) = (m ((c : Thread nD τ).loc main_arg1)) :=
  ((W20_of_ne m ρ c main_arg1 (by decide)) : W20 m ρ c (Proc.devRef .tc main_arg1) = W19 m ρ c (Proc.devRef .tc main_arg1)).trans (at19_main_arg1 m ρ c)

theorem at20_main_arg2 : W20 m ρ c (Proc.devRef .tc main_arg2) = (m ((c : Thread nD τ).loc main_arg2)) :=
  ((W20_of_ne m ρ c main_arg2 (by decide)) : W20 m ρ c (Proc.devRef .tc main_arg2) = W19 m ρ c (Proc.devRef .tc main_arg2)).trans (at19_main_arg2 m ρ c)

theorem at20_main_arg3 : W20 m ρ c (Proc.devRef .tc main_arg3) = (m ((c : Thread nD τ).loc main_arg3)) :=
  ((W20_of_ne m ρ c main_arg3 (by decide)) : W20 m ρ c (Proc.devRef .tc main_arg3) = W19 m ρ c (Proc.devRef .tc main_arg3)).trans (at19_main_arg3 m ρ c)

theorem at20_main_arg4 : W20 m ρ c (Proc.devRef .tc main_arg4) = (m ((c : Thread nD τ).loc main_arg4)) :=
  ((W20_of_ne m ρ c main_arg4 (by decide)) : W20 m ρ c (Proc.devRef .tc main_arg4) = W19 m ρ c (Proc.devRef .tc main_arg4)).trans (at19_main_arg4 m ρ c)

theorem at20_main_arg5 : W20 m ρ c (Proc.devRef .tc main_arg5) = (m ((c : Thread nD τ).loc main_arg5)) :=
  ((W20_of_ne m ρ c main_arg5 (by decide)) : W20 m ρ c (Proc.devRef .tc main_arg5) = W19 m ρ c (Proc.devRef .tc main_arg5)).trans (at19_main_arg5 m ρ c)

theorem at20_main_arg6 : W20 m ρ c (Proc.devRef .tc main_arg6) = (m ((c : Thread nD τ).loc main_arg6)) :=
  ((W20_of_ne m ρ c main_arg6 (by decide)) : W20 m ρ c (Proc.devRef .tc main_arg6) = W19 m ρ c (Proc.devRef .tc main_arg6)).trans (at19_main_arg6 m ρ c)

theorem at20_main_v11 : W20 m ρ c (Proc.devRef .tc main_v11) = (asCol (degFactor (m ((c : Thread nD τ).loc main_arg1)))) :=
  (((W20_arr m ρ c 5).trans (((dat4 (V19 m ρ) c).arrAt_in 5 rfl _).trans (A_eq4 (V19 m ρ) c 5))) : W20 m ρ c (Proc.devRef .tc main_v11) = W19 m ρ c (Proc.devRef .tc main_v11)).trans (at19_main_v11 m ρ c)

theorem at20_main_v14 : W20 m ρ c (Proc.devRef .tc main_v14) = (asCol (degFactor (m ((c : Thread nD τ).loc main_arg2)))) :=
  ((W20_of_ne m ρ c main_v14 (by decide)) : W20 m ρ c (Proc.devRef .tc main_v14) = W19 m ρ c (Proc.devRef .tc main_v14)).trans (at19_main_v14 m ρ c)

theorem at21_main_arg1 : W21 m ρ c (Proc.devRef .tc main_arg1) = (m ((c : Thread nD τ).loc main_arg1)) :=
  ((by host_keeps) : W21 m ρ c (Proc.devRef .tc main_arg1) = W20 m ρ c (Proc.devRef .tc main_arg1)).trans (at20_main_arg1 m ρ c)

theorem at21_main_arg2 : W21 m ρ c (Proc.devRef .tc main_arg2) = (m ((c : Thread nD τ).loc main_arg2)) :=
  ((by host_keeps) : W21 m ρ c (Proc.devRef .tc main_arg2) = W20 m ρ c (Proc.devRef .tc main_arg2)).trans (at20_main_arg2 m ρ c)

theorem at21_main_arg3 : W21 m ρ c (Proc.devRef .tc main_arg3) = (m ((c : Thread nD τ).loc main_arg3)) :=
  ((by host_keeps) : W21 m ρ c (Proc.devRef .tc main_arg3) = W20 m ρ c (Proc.devRef .tc main_arg3)).trans (at20_main_arg3 m ρ c)

theorem at21_main_arg4 : W21 m ρ c (Proc.devRef .tc main_arg4) = (m ((c : Thread nD τ).loc main_arg4)) :=
  ((by host_keeps) : W21 m ρ c (Proc.devRef .tc main_arg4) = W20 m ρ c (Proc.devRef .tc main_arg4)).trans (at20_main_arg4 m ρ c)

theorem at21_main_arg5 : W21 m ρ c (Proc.devRef .tc main_arg5) = (m ((c : Thread nD τ).loc main_arg5)) :=
  ((by host_keeps) : W21 m ρ c (Proc.devRef .tc main_arg5) = W20 m ρ c (Proc.devRef .tc main_arg5)).trans (at20_main_arg5 m ρ c)

theorem at21_main_arg6 : W21 m ρ c (Proc.devRef .tc main_arg6) = (m ((c : Thread nD τ).loc main_arg6)) :=
  ((by host_keeps) : W21 m ρ c (Proc.devRef .tc main_arg6) = W20 m ρ c (Proc.devRef .tc main_arg6)).trans (at20_main_arg6 m ρ c)

theorem at21_main_v11 : W21 m ρ c (Proc.devRef .tc main_v11) = (asCol (degFactor (m ((c : Thread nD τ).loc main_arg1)))) :=
  ((by host_keeps) : W21 m ρ c (Proc.devRef .tc main_v11) = W20 m ρ c (Proc.devRef .tc main_v11)).trans (at20_main_v11 m ρ c)

theorem at21_main_v14 : W21 m ρ c (Proc.devRef .tc main_v14) = (asCol (degFactor (m ((c : Thread nD τ).loc main_arg2)))) :=
  ((by host_keeps) : W21 m ρ c (Proc.devRef .tc main_v14) = W20 m ρ c (Proc.devRef .tc main_v14)).trans (at20_main_v14 m ρ c)

/-! ## The feature matrix after each layer -/

/-- The feature matrix after layer 0. -/
def x1 : (⟨S10000x512, .f32⟩ : BufTy).Contents (Elt Ideal) :=
  KerVal.layer (m ((c : Thread nD τ).loc main_arg0)) (asCol (degFactor (m ((c : Thread nD τ).loc main_arg1)))) (asCol (degFactor (m ((c : Thread nD τ).loc main_arg2)))) (m ((c : Thread nD τ).loc main_arg1)) (m ((c : Thread nD τ).loc main_arg2))
    (extractStridedSlice S1x512 ![0, 0] (m ((c : Thread nD τ).loc main_arg3)) slices_S3x512_S1x512_0_0) (extractStridedSlice S1x512 ![0, 0] (m ((c : Thread nD τ).loc main_arg4)) slices_S3x512_S1x512_0_0)
    (extractStridedSlice S1x512x512 ![0, 0, 0] (m ((c : Thread nD τ).loc main_arg5)) slices_S3x512x512_S1x512x512_0_0_0) (extractStridedSlice S1x512 ![0, 0] (m ((c : Thread nD τ).loc main_arg6)) slices_S3x512_S1x512_0_0)

/-- The feature matrix after layer 1. -/
def x2 : (⟨S10000x512, .f32⟩ : BufTy).Contents (Elt Ideal) :=
  KerVal.layer (x1 m c) (asCol (degFactor (m ((c : Thread nD τ).loc main_arg1)))) (asCol (degFactor (m ((c : Thread nD τ).loc main_arg2)))) (m ((c : Thread nD τ).loc main_arg1)) (m ((c : Thread nD τ).loc main_arg2))
    (extractStridedSlice S1x512 ![1, 0] (m ((c : Thread nD τ).loc main_arg3)) slices_S3x512_S1x512_1_0) (extractStridedSlice S1x512 ![1, 0] (m ((c : Thread nD τ).loc main_arg4)) slices_S3x512_S1x512_1_0)
    (extractStridedSlice S1x512x512 ![1, 0, 0] (m ((c : Thread nD τ).loc main_arg5)) slices_S3x512x512_S1x512x512_1_0_0) (extractStridedSlice S1x512 ![1, 0] (m ((c : Thread nD τ).loc main_arg6)) slices_S3x512_S1x512_1_0)

/-- The feature matrix after layer 2. -/
def x3 : (⟨S10000x512, .f32⟩ : BufTy).Contents (Elt Ideal) :=
  KerVal.layer (x2 m c) (asCol (degFactor (m ((c : Thread nD τ).loc main_arg1)))) (asCol (degFactor (m ((c : Thread nD τ).loc main_arg2)))) (m ((c : Thread nD τ).loc main_arg1)) (m ((c : Thread nD τ).loc main_arg2))
    (extractStridedSlice S1x512 ![2, 0] (m ((c : Thread nD τ).loc main_arg3)) slices_S3x512_S1x512_2_0) (extractStridedSlice S1x512 ![2, 0] (m ((c : Thread nD τ).loc main_arg4)) slices_S3x512_S1x512_2_0)
    (extractStridedSlice S1x512x512 ![2, 0, 0] (m ((c : Thread nD τ).loc main_arg5)) slices_S3x512x512_S1x512x512_2_0_0) (extractStridedSlice S1x512 ![2, 0] (m ((c : Thread nD τ).loc main_arg6)) slices_S3x512_S1x512_2_0)

/-! ## Layer 0 -/

/-- What the layer's first launch leaves: the normalised and row-scaled matrix. -/
theorem norm0_out : W8 m ρ c (Proc.devRef .tc main_v26) = GraphConv.normScale (M := 10000) (N := 512) (m ((c : Thread nD τ).loc main_arg0)) (asRow (extractStridedSlice S1x512 ![0, 0] (m ((c : Thread nD τ).loc main_arg3)) slices_S3x512_S1x512_0_0)) (asRow (extractStridedSlice S1x512 ![0, 0] (m ((c : Thread nD τ).loc main_arg4)) slices_S3x512_S1x512_0_0))
      (colMean (m ((c : Thread nD τ).loc main_arg0))) (colVar (m ((c : Thread nD τ).loc main_arg0))) (asCol (degFactor (m ((c : Thread nD τ).loc main_arg1)))) := by
  refine (W8_arr m ρ c 6).trans ((Norm0.final (V7 m ρ) c).trans ?_)
  show GraphConv.normScale (M := 10000) (N := 512) (W7 m ρ c (Proc.devRef .tc main_arg0)) (W7 m ρ c (Proc.devRef .tc main_v22)) (W7 m ρ c (Proc.devRef .tc main_v25)) (W7 m ρ c (Proc.devRef .tc main_v18)) (W7 m ρ c (Proc.devRef .tc main_v19)) (W7 m ρ c (Proc.devRef .tc main_v11)) = _
  rw [at7_main_arg0 m ρ c, at7_main_v22 m ρ c, at7_main_v25 m ρ c, at7_main_v18 m ρ c, at7_main_v19 m ρ c, at7_main_v11 m ρ c]

set_option maxRecDepth 16384 in
set_option maxHeartbeats 8000000 in
theorem host0_agg : W9 m ρ c (Proc.devRef .tc main_v36) = aggregate (W8 m ρ c (Proc.devRef .tc main_v26)) (W8 m ρ c (Proc.devRef .tc main_arg1)) (W8 m ρ c (Proc.devRef .tc main_arg2)) := by
  show StableHlo.after hostOps1 (W8 m ρ c) (Proc.devRef .tc main_v36) = _
  after_results_simp
  rfl

set_option maxRecDepth 16384 in
set_option maxHeartbeats 8000000 in
theorem host0_w : W9 m ρ c (Proc.devRef .tc main_v39) = narrow (extractStridedSlice S1x512x512 ![0, 0, 0] (W8 m ρ c (Proc.devRef .tc main_arg5)) slices_S3x512x512_S1x512x512_0_0_0) := by
  show StableHlo.after hostOps1 (W8 m ρ c) (Proc.devRef .tc main_v39) = _
  after_results_simp
  rfl

set_option maxRecDepth 16384 in
set_option maxHeartbeats 8000000 in
theorem host0_b : W9 m ρ c (Proc.devRef .tc main_v42) = asRow (extractStridedSlice S1x512 ![0, 0] (W8 m ρ c (Proc.devRef .tc main_arg6)) slices_S3x512_S1x512_0_0) := by
  show StableHlo.after hostOps1 (W8 m ρ c) (Proc.devRef .tc main_v42) = _
  after_results_simp
  rfl

/-- What the layer's second launch leaves: the layer's result. -/
theorem layer0_out : W10 m ρ c (Proc.devRef .tc main_v43) = x1 m c := by
  refine (W10_arr m ρ c 4).trans ((Prod1.final (V9 m ρ) c).trans ?_)
  show GraphConv.scaleAffineRelu (M := 10000) (K := 512) (N := 512) (W9 m ρ c (Proc.devRef .tc main_v36)) (W9 m ρ c (Proc.devRef .tc main_v14)) (W9 m ρ c (Proc.devRef .tc main_v39)) (W9 m ρ c (Proc.devRef .tc main_v42)) = _
  rw [host0_agg m ρ c, host0_w m ρ c, host0_b m ρ c, at9_main_v14 m ρ c, norm0_out m ρ c, at8_main_arg1 m ρ c, at8_main_arg2 m ρ c, at8_main_arg5 m ρ c, at8_main_arg6 m ρ c]
  rfl

/-! ## Layer 1 -/

theorem pre1_x : W13 m ρ c (Proc.devRef .tc main_v43) = W10 m ρ c (Proc.devRef .tc main_v43) :=
  calc W13 m ρ c (Proc.devRef .tc main_v43)
    _ = W12 m ρ c (Proc.devRef .tc main_v43) := by host_keeps
    _ = W11 m ρ c (Proc.devRef .tc main_v43) := by host_keeps
    _ = W10 m ρ c (Proc.devRef .tc main_v43) := by host_keeps

set_option maxRecDepth 16384 in
set_option maxHeartbeats 8000000 in
theorem pre1_mu : W13 m ρ c (Proc.devRef .tc main_v47) = colMean (W10 m ρ c (Proc.devRef .tc main_v43)) := by
  show StableHlo.after hostOps2_2 (StableHlo.after hostOps2_1 (StableHlo.after hostOps2 (W10 m ρ c))) (Proc.devRef .tc main_v47) = _
  after_results_simp
  rfl

set_option maxRecDepth 16384 in
set_option maxHeartbeats 8000000 in
theorem pre1_var : W13 m ρ c (Proc.devRef .tc main_v48) = colVar (W10 m ρ c (Proc.devRef .tc main_v43)) := by
  show StableHlo.after hostOps2_2 (StableHlo.after hostOps2_1 (StableHlo.after hostOps2 (W10 m ρ c))) (Proc.devRef .tc main_v48) = _
  after_results_simp
  rfl

set_option maxRecDepth 16384 in
set_option maxHeartbeats 8000000 in
theorem pre1_g : W13 m ρ c (Proc.devRef .tc main_v51) = asRow (extractStridedSlice S1x512 ![1, 0] (W10 m ρ c (Proc.devRef .tc main_arg3)) slices_S3x512_S1x512_1_0) := by
  show StableHlo.after hostOps2_2 (StableHlo.after hostOps2_1 (StableHlo.after hostOps2 (W10 m ρ c))) (Proc.devRef .tc main_v51) = _
  after_results_simp
  rfl

set_option maxRecDepth 16384 in
set_option maxHeartbeats 8000000 in
theorem pre1_be : W13 m ρ c (Proc.devRef .tc main_v54) = asRow (extractStridedSlice S1x512 ![1, 0] (W10 m ρ c (Proc.devRef .tc main_arg4)) slices_S3x512_S1x512_1_0) := by
  show StableHlo.after hostOps2_2 (StableHlo.after hostOps2_1 (StableHlo.after hostOps2 (W10 m ρ c))) (Proc.devRef .tc main_v54) = _
  after_results_simp
  rfl

/-- What the layer's first launch leaves: the normalised and row-scaled matrix. -/
theorem norm1_out : W14 m ρ c (Proc.devRef .tc main_v55) = GraphConv.normScale (M := 10000) (N := 512) (x1 m c) (asRow (extractStridedSlice S1x512 ![1, 0] (m ((c : Thread nD τ).loc main_arg3)) slices_S3x512_S1x512_1_0)) (asRow (extractStridedSlice S1x512 ![1, 0] (m ((c : Thread nD τ).loc main_arg4)) slices_S3x512_S1x512_1_0))
      (colMean (x1 m c)) (colVar (x1 m c)) (asCol (degFactor (m ((c : Thread nD τ).loc main_arg1)))) := by
  refine (W14_arr m ρ c 6).trans ((Norm2.final (V13 m ρ) c).trans ?_)
  show GraphConv.normScale (M := 10000) (N := 512) (W13 m ρ c (Proc.devRef .tc main_v43)) (W13 m ρ c (Proc.devRef .tc main_v51)) (W13 m ρ c (Proc.devRef .tc main_v54)) (W13 m ρ c (Proc.devRef .tc main_v47)) (W13 m ρ c (Proc.devRef .tc main_v48)) (W13 m ρ c (Proc.devRef .tc main_v11)) = _
  rw [pre1_x m ρ c, pre1_g m ρ c, pre1_be m ρ c, pre1_mu m ρ c, pre1_var m ρ c, at13_main_v11 m ρ c, layer0_out m ρ c, at10_main_arg3 m ρ c, at10_main_arg4 m ρ c]

set_option maxRecDepth 16384 in
set_option maxHeartbeats 8000000 in
theorem host1_agg : W15 m ρ c (Proc.devRef .tc main_v65) = aggregate (W14 m ρ c (Proc.devRef .tc main_v55)) (W14 m ρ c (Proc.devRef .tc main_arg1)) (W14 m ρ c (Proc.devRef .tc main_arg2)) := by
  show StableHlo.after hostOps3 (W14 m ρ c) (Proc.devRef .tc main_v65) = _
  after_results_simp
  rfl

set_option maxRecDepth 16384 in
set_option maxHeartbeats 8000000 in
theorem host1_w : W15 m ρ c (Proc.devRef .tc main_v68) = narrow (extractStridedSlice S1x512x512 ![1, 0, 0] (W14 m ρ c (Proc.devRef .tc main_arg5)) slices_S3x512x512_S1x512x512_1_0_0) := by
  show StableHlo.after hostOps3 (W14 m ρ c) (Proc.devRef .tc main_v68) = _
  after_results_simp
  rfl

set_option maxRecDepth 16384 in
set_option maxHeartbeats 8000000 in
theorem host1_b : W15 m ρ c (Proc.devRef .tc main_v71) = asRow (extractStridedSlice S1x512 ![1, 0] (W14 m ρ c (Proc.devRef .tc main_arg6)) slices_S3x512_S1x512_1_0) := by
  show StableHlo.after hostOps3 (W14 m ρ c) (Proc.devRef .tc main_v71) = _
  after_results_simp
  rfl

/-- What the layer's second launch leaves: the layer's result. -/
theorem layer1_out : W16 m ρ c (Proc.devRef .tc main_v72) = x2 m c := by
  refine (W16_arr m ρ c 4).trans ((Prod3.final (V15 m ρ) c).trans ?_)
  show GraphConv.scaleAffineRelu (M := 10000) (K := 512) (N := 512) (W15 m ρ c (Proc.devRef .tc main_v65)) (W15 m ρ c (Proc.devRef .tc main_v14)) (W15 m ρ c (Proc.devRef .tc main_v68)) (W15 m ρ c (Proc.devRef .tc main_v71)) = _
  rw [host1_agg m ρ c, host1_w m ρ c, host1_b m ρ c, at15_main_v14 m ρ c, norm1_out m ρ c, at14_main_arg1 m ρ c, at14_main_arg2 m ρ c, at14_main_arg5 m ρ c, at14_main_arg6 m ρ c]
  rfl

/-! ## Layer 2 -/

theorem pre2_x : W19 m ρ c (Proc.devRef .tc main_v72) = W16 m ρ c (Proc.devRef .tc main_v72) :=
  calc W19 m ρ c (Proc.devRef .tc main_v72)
    _ = W18 m ρ c (Proc.devRef .tc main_v72) := by host_keeps
    _ = W17 m ρ c (Proc.devRef .tc main_v72) := by host_keeps
    _ = W16 m ρ c (Proc.devRef .tc main_v72) := by host_keeps

set_option maxRecDepth 16384 in
set_option maxHeartbeats 8000000 in
theorem pre2_mu : W19 m ρ c (Proc.devRef .tc main_v76) = colMean (W16 m ρ c (Proc.devRef .tc main_v72)) := by
  show StableHlo.after hostOps4_2 (StableHlo.after hostOps4_1 (StableHlo.after hostOps4 (W16 m ρ c))) (Proc.devRef .tc main_v76) = _
  after_results_simp
  rfl

set_option maxRecDepth 16384 in
set_option maxHeartbeats 8000000 in
theorem pre2_var : W19 m ρ c (Proc.devRef .tc main_v77) = colVar (W16 m ρ c (Proc.devRef .tc main_v72)) := by
  show StableHlo.after hostOps4_2 (StableHlo.after hostOps4_1 (StableHlo.after hostOps4 (W16 m ρ c))) (Proc.devRef .tc main_v77) = _
  after_results_simp
  rfl

set_option maxRecDepth 16384 in
set_option maxHeartbeats 8000000 in
theorem pre2_g : W19 m ρ c (Proc.devRef .tc main_v80) = asRow (extractStridedSlice S1x512 ![2, 0] (W16 m ρ c (Proc.devRef .tc main_arg3)) slices_S3x512_S1x512_2_0) := by
  show StableHlo.after hostOps4_2 (StableHlo.after hostOps4_1 (StableHlo.after hostOps4 (W16 m ρ c))) (Proc.devRef .tc main_v80) = _
  after_results_simp
  rfl

set_option maxRecDepth 16384 in
set_option maxHeartbeats 8000000 in
theorem pre2_be : W19 m ρ c (Proc.devRef .tc main_v83) = asRow (extractStridedSlice S1x512 ![2, 0] (W16 m ρ c (Proc.devRef .tc main_arg4)) slices_S3x512_S1x512_2_0) := by
  show StableHlo.after hostOps4_2 (StableHlo.after hostOps4_1 (StableHlo.after hostOps4 (W16 m ρ c))) (Proc.devRef .tc main_v83) = _
  after_results_simp
  rfl

/-- What the layer's first launch leaves: the normalised and row-scaled matrix. -/
theorem norm2_out : W20 m ρ c (Proc.devRef .tc main_v84) = GraphConv.normScale (M := 10000) (N := 512) (x2 m c) (asRow (extractStridedSlice S1x512 ![2, 0] (m ((c : Thread nD τ).loc main_arg3)) slices_S3x512_S1x512_2_0)) (asRow (extractStridedSlice S1x512 ![2, 0] (m ((c : Thread nD τ).loc main_arg4)) slices_S3x512_S1x512_2_0))
      (colMean (x2 m c)) (colVar (x2 m c)) (asCol (degFactor (m ((c : Thread nD τ).loc main_arg1)))) := by
  refine (W20_arr m ρ c 6).trans ((Norm4.final (V19 m ρ) c).trans ?_)
  show GraphConv.normScale (M := 10000) (N := 512) (W19 m ρ c (Proc.devRef .tc main_v72)) (W19 m ρ c (Proc.devRef .tc main_v80)) (W19 m ρ c (Proc.devRef .tc main_v83)) (W19 m ρ c (Proc.devRef .tc main_v76)) (W19 m ρ c (Proc.devRef .tc main_v77)) (W19 m ρ c (Proc.devRef .tc main_v11)) = _
  rw [pre2_x m ρ c, pre2_g m ρ c, pre2_be m ρ c, pre2_mu m ρ c, pre2_var m ρ c, at19_main_v11 m ρ c, layer1_out m ρ c, at16_main_arg3 m ρ c, at16_main_arg4 m ρ c]

set_option maxRecDepth 16384 in
set_option maxHeartbeats 8000000 in
theorem host2_agg : W21 m ρ c (Proc.devRef .tc main_v94) = aggregate (W20 m ρ c (Proc.devRef .tc main_v84)) (W20 m ρ c (Proc.devRef .tc main_arg1)) (W20 m ρ c (Proc.devRef .tc main_arg2)) := by
  show StableHlo.after hostOps5 (W20 m ρ c) (Proc.devRef .tc main_v94) = _
  after_results_simp
  rfl

set_option maxRecDepth 16384 in
set_option maxHeartbeats 8000000 in
theorem host2_w : W21 m ρ c (Proc.devRef .tc main_v97) = narrow (extractStridedSlice S1x512x512 ![2, 0, 0] (W20 m ρ c (Proc.devRef .tc main_arg5)) slices_S3x512x512_S1x512x512_2_0_0) := by
  show StableHlo.after hostOps5 (W20 m ρ c) (Proc.devRef .tc main_v97) = _
  after_results_simp
  rfl

set_option maxRecDepth 16384 in
set_option maxHeartbeats 8000000 in
theorem host2_b : W21 m ρ c (Proc.devRef .tc main_v100) = asRow (extractStridedSlice S1x512 ![2, 0] (W20 m ρ c (Proc.devRef .tc main_arg6)) slices_S3x512_S1x512_2_0) := by
  show StableHlo.after hostOps5 (W20 m ρ c) (Proc.devRef .tc main_v100) = _
  after_results_simp
  rfl

/-- What the layer's second launch leaves: the layer's result. -/
theorem layer2_out : W22 m ρ c (Proc.devRef .tc main_v101) = x3 m c := by
  refine (W22_arr m ρ c 4).trans ((Prod5.final (V21 m ρ) c).trans ?_)
  show GraphConv.scaleAffineRelu (M := 10000) (K := 512) (N := 512) (W21 m ρ c (Proc.devRef .tc main_v94)) (W21 m ρ c (Proc.devRef .tc main_v14)) (W21 m ρ c (Proc.devRef .tc main_v97)) (W21 m ρ c (Proc.devRef .tc main_v100)) = _
  rw [host2_agg m ρ c, host2_w m ρ c, host2_b m ρ c, at21_main_v14 m ρ c, norm2_out m ρ c, at20_main_arg1 m ρ c, at20_main_arg2 m ρ c, at20_main_arg5 m ρ c, at20_main_arg6 m ρ c]
  rfl

/-- The result buffer after the last launch. -/
theorem result_value : W22 m ρ c (Proc.devRef .tc main_v101) = x3 m c := layer2_out m ρ c

end Cert.KernelIdeal.Fold

end
-- ==== Proof.RefVal.lean ====
/-
  The reference's layer as pure functions of arrays, one per stage, spelt with the reference's own operations.

  `degFactor` counts, for every node, the edges whose index names it, clamps the count at one from below and raises it to
  the power −1/2.  A layer takes the feature matrix `x`: `colMean` and `colVar` are its columns' mean and biased
  variance, `normRows` the batch-normalised matrix with every row multiplied by the row's factor, `aggregate` the
  gather of the rows the source indices name added into the rows the destination indices name, `rowsTimes` the rows'
  second factor, the product with the layer's weights, the bias and the clamp at zero.
-/
import proofs.«108859_j74131135529465_1_alg».proof.ReferenceIdeal

noncomputable section

namespace Cert.ReferenceIdeal.RefVal

open Cert.ReferenceIdeal Cert.ReferenceIdeal.Facts₀ Idealize.ShloMosaic

variable {F : FTy → Type} [FloatOps F] [Cert.ReferenceIdeal.Facts₀]

/-- The degree factor of every node: the number of edges that name it (at least one) to the power −1/2. -/
def degFactor (a : (⟨S160000, .i32⟩ : BufTy).Contents (Elt F)) :
    (⟨S10000, .f32⟩ : BufTy).Contents (Elt F) :=
  let t_main_cst := (constant (F := F) S_ .f32 0x3F800000#32)
  let t_main_v0 := (broadcastInDim S160000 ![] bcast_S_S160000 : (⟨S_, .f32⟩ : BufTy).Contents (Elt F) → (⟨S160000, .f32⟩ : BufTy).Contents (Elt F)) t_main_cst
  let t_main_cst_0 := (constant (F := F) S_ .f32 0x00000000#32)
  let t_main_v1 := (broadcastInDim S10000 ![] bcast_S_S10000 : (⟨S_, .f32⟩ : BufTy).Contents (Elt F) → (⟨S10000, .f32⟩ : BufTy).Contents (Elt F)) t_main_cst_0
  let t_main_v2 := (broadcastInDim S160000x1 ![0] bcast_S160000_S160000x1_0 : (⟨S160000, .i32⟩ : BufTy).Contents (Elt F) → (⟨S160000x1, .i32⟩ : BufTy).Contents (Elt F)) a
  let t_main_v3 := ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)) t_main_v1 t_main_v2 t_main_v0
  let t_main_cst_1 := (constant (F := F) S_ .f32 0x3F800000#32)
  let t_main_call0_v0 := id t_main_cst_1
  let t_main_call0_v1 := (broadcastInDim S10000 ![] bcast_S_S10000) t_main_call0_v0
  let t_main_v4 := maximumf t_main_call0_v1 t_main_v3
  let t_main_cst_4 := (constant (F := F) S_ .f32 0xBF000000#32)
  let t_main_v9 := (broadcastInDim S10000 ![] bcast_S_S10000 : (⟨S_, .f32⟩ : BufTy).Contents (Elt F) → (⟨S10000, .f32⟩ : BufTy).Contents (Elt F)) t_main_cst_4
  let t_main_v10 := (Host.powf : (⟨S10000, .f32⟩ : BufTy).Contents (Elt F) → (⟨S10000, .f32⟩ : BufTy).Contents (Elt F) → (⟨S10000, .f32⟩ : BufTy).Contents (Elt F)) t_main_v4 t_main_v9
  t_main_v10

/-- A vector as a one-column matrix. -/
def asCol (n : (⟨S10000, .f32⟩ : BufTy).Contents (Elt F)) :
    (⟨S10000x1, .f32⟩ : BufTy).Contents (Elt F) :=
  let t_main_v11 := (broadcastInDim S10000x1 ![0] bcast_S10000_S10000x1_0 : (⟨S10000, .f32⟩ : BufTy).Contents (Elt F) → (⟨S10000x1, .f32⟩ : BufTy).Contents (Elt F)) n
  t_main_v11

/-- The mean of every column. -/
def colMean (x : (⟨S10000x512, .f32⟩ : BufTy).Contents (Elt F)) :
    (⟨S512, .f32⟩ : BufTy).Contents (Elt F) :=
  let t_main_cst_6 := (constant (F := F) S_ .f32 0x00000000#32)
  let t_main_v15 := ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) x t_main_cst_6
  let t_main_cst_7 := (constant (F := F) S_ .f32 0x461C4000#32)
  let t_main_v16 := (broadcastInDim S512 ![] bcast_S_S512 : (⟨S_, .f32⟩ : BufTy).Contents (Elt F) → (⟨S512, .f32⟩ : BufTy).Contents (Elt F)) t_main_cst_7
  let t_main_v17 := (Host.divf : (⟨S512, .f32⟩ : BufTy).Contents (Elt F) → (⟨S512, .f32⟩ : BufTy).Contents (Elt F) → (⟨S512, .f32⟩ : BufTy).Contents (Elt F)) t_main_v15 t_main_v16
  t_main_v17

/-- The (biased) variance of every column. -/
def colVar (x : (⟨S10000x512, .f32⟩ : BufTy).Contents (Elt F)) :
    (⟨S512, .f32⟩ : BufTy).Contents (Elt F) :=
  let t_main_c := (constantI S_ 32 0#32)
  let t_main_call2_cst := (constant (F := F) S_ .f32 0x00000000#32)
  let t_main_call2_v0 := (fun x v => Host.reduceAdd x v reducesTo_S10000x512_S512_d0 h_S_) x t_main_call2_cst
  let t_main_call2_v1 := (broadcastInDim S1x512 ![1] bcast_S512_S1x512_1) t_main_call2_v0
  let t_main_call2_cst_0 := (constant (F := F) S_ .f32 0x461C4000#32)
  let t_main_call2_v2 := (broadcastInDim S1x512 ![] bcast_S_S1x512) t_main_call2_cst_0
  let t_main_call2_v3 := Host.divf t_main_call2_v1 t_main_call2_v2
  let t_main_call2_v4 := (broadcastInDim S10000x512 ![0, 1] bcast_S1x512_S10000x512_0_1) t_main_call2_v3
  let t_main_call2_v5 := subf x t_main_call2_v4
  let t_main_call2_v6 := mulf t_main_call2_v5 t_main_call2_v5
  let t_main_call2_v7 := (sitofp (F := F) .f32) t_main_c
  let t_main_call2_cst_1 := (constant (F := F) S_ .f32 0x461C4000#32)
  let t_main_call2_v8 := subf t_main_call2_cst_1 t_main_call2_v7
  let t_main_call2_cst_2 := (constant (F := F) S_ .f32 0x00000000#32)
  let t_main_call2_v9 := (fun x v => Host.reduceAdd x v reducesTo_S10000x512_S512_d0 h_S_) t_main_call2_v6 t_main_call2_cst_2
  let t_main_call2_v10 := (broadcastInDim S512 ![] bcast_S_S512) t_main_call2_v8
  let t_main_call2_v11 := Host.divf t_main_call2_v9 t_main_call2_v10
  let t_main_call2_cst_3 := (constant (F := F) S_ .f32 0x00000000#32)
  let t_main_call2_v12 := (cmpf .ogt) t_main_call2_v8 t_main_call2_cst_3
  let t_main_call2_cst_4 := (constant (F := F) S_ .f32 0x7FC00000#32)
  let t_main_call2_call0_v0 := id t_main_call2_cst_4
  let t_main_call2_call0_v1 := (broadcastInDim S512 ![] bcast_S_S512) t_main_call2_call0_v0
  let t_main_v18 := (fun p a b => select (broadcastInDim S512 ![] bcast_S_S512 p) a b) t_main_call2_v12 t_main_call2_v11 t_main_call2_call0_v1
  t_main_v18

/-- Every entry centred, normalised, gained, offset, and its row multiplied by the row's factor. -/
def normRows (x : (⟨S10000x512, .f32⟩ : BufTy).Contents (Elt F)) (g : (⟨S1x512, .f32⟩ : BufTy).Contents (Elt F)) (be : (⟨S1x512, .f32⟩ : BufTy).Contents (Elt F)) (s : (⟨S10000x1, .f32⟩ : BufTy).Contents (Elt F)) :
    (⟨S10000x512, .f32⟩ : BufTy).Contents (Elt F) :=
  let t_main_v19 := (broadcastInDim S1x512 ![1] bcast_S512_S1x512_1 : (⟨S512, .f32⟩ : BufTy).Contents (Elt F) → (⟨S1x512, .f32⟩ : BufTy).Contents (Elt F)) (colMean x)
  let t_main_v20 := (broadcastInDim S10000x512 ![0, 1] bcast_S1x512_S10000x512_0_1 : (⟨S1x512, .f32⟩ : BufTy).Contents (Elt F) → (⟨S10000x512, .f32⟩ : BufTy).Contents (Elt F)) t_main_v19
  let t_main_v21 := (subf : (⟨S10000x512, .f32⟩ : BufTy).Contents (Elt F) → (⟨S10000x512, .f32⟩ : BufTy).Contents (Elt F) → (⟨S10000x512, .f32⟩ : BufTy).Contents (Elt F)) x t_main_v20
  let t_main_cst_8 := (constant (F := F) S_ .f32 0x3727C5AC#32)
  let t_main_v22 := (broadcastInDim S512 ![] bcast_S_S512 : (⟨S_, .f32⟩ : BufTy).Contents (Elt F) → (⟨S512, .f32⟩ : BufTy).Contents (Elt F)) t_main_cst_8
  let t_main_v23 := (addf : (⟨S512, .f32⟩ : BufTy).Contents (Elt F) → (⟨S512, .f32⟩ : BufTy).Contents (Elt F) → (⟨S512, .f32⟩ : BufTy).Contents (Elt F)) (colVar x) t_main_v22
  let t_main_v24 := (Host.rsqrt : (⟨S512, .f32⟩ : BufTy).Contents (Elt F) → (⟨S512, .f32⟩ : BufTy).Contents (Elt F)) t_main_v23
  let t_main_v25 := (broadcastInDim S1x512 ![1] bcast_S512_S1x512_1 : (⟨S512, .f32⟩ : BufTy).Contents (Elt F) → (⟨S1x512, .f32⟩ : BufTy).Contents (Elt F)) t_main_v24
  let t_main_v26 := (broadcastInDim S10000x512 ![0, 1] bcast_S1x512_S10000x512_0_1 : (⟨S1x512, .f32⟩ : BufTy).Contents (Elt F) → (⟨S10000x512, .f32⟩ : BufTy).Contents (Elt F)) t_main_v25
  let t_main_v27 := (mulf : (⟨S10000x512, .f32⟩ : BufTy).Contents (Elt F) → (⟨S10000x512, .f32⟩ : BufTy).Contents (Elt F) → (⟨S10000x512, .f32⟩ : BufTy).Contents (Elt F)) t_main_v21 t_main_v26
  let t_main_v29 := shapeCast S512 g shapeCasts_S1x512_S512
  let t_main_v30 := (broadcastInDim S1x512 ![1] bcast_S512_S1x512_1 : (⟨S512, .f32⟩ : BufTy).Contents (Elt F) → (⟨S1x512, .f32⟩ : BufTy).Contents (Elt F)) t_main_v29
  let t_main_v31 := (broadcastInDim S10000x512 ![0, 1] bcast_S1x512_S10000x512_0_1 : (⟨S1x512, .f32⟩ : BufTy).Contents (Elt F) → (⟨S10000x512, .f32⟩ : BufTy).Contents (Elt F)) t_main_v30
  let t_main_v32 := (mulf : (⟨S10000x512, .f32⟩ : BufTy).Contents (Elt F) → (⟨S10000x512, .f32⟩ : BufTy).Contents (Elt F) → (⟨S10000x512, .f32⟩ : BufTy).Contents (Elt F)) t_main_v27 t_main_v31
  let t_main_v34 := shapeCast S512 be shapeCasts_S1x512_S512
  let t_main_v35 := (broadcastInDim S1x512 ![1] bcast_S512_S1x512_1 : (⟨S512, .f32⟩ : BufTy).Contents (Elt F) → (⟨S1x512, .f32⟩ : BufTy).Contents (Elt F)) t_main_v34
  let t_main_v36 := (broadcastInDim S10000x512 ![0, 1] bcast_S1x512_S10000x512_0_1 : (⟨S1x512, .f32⟩ : BufTy).Contents (Elt F) → (⟨S10000x512, .f32⟩ : BufTy).Contents (Elt F)) t_main_v35
  let t_main_v37 := (addf : (⟨S10000x512, .f32⟩ : BufTy).Contents (Elt F) → (⟨S10000x512, .f32⟩ : BufTy).Contents (Elt F) → (⟨S10000x512, .f32⟩ : BufTy).Contents (Elt F)) t_main_v32 t_main_v36
  let t_main_v38 := (broadcastInDim S10000x512 ![0, 1] bcast_S10000x1_S10000x512_0_1 : (⟨S10000x1, .f32⟩ : BufTy).Contents (Elt F) → (⟨S10000x512, .f32⟩ : BufTy).Contents (Elt F)) s
  let t_main_v39 := (mulf : (⟨S10000x512, .f32⟩ : BufTy).Contents (Elt F) → (⟨S10000x512, .f32⟩ : BufTy).Contents (Elt F) → (⟨S10000x512, .f32⟩ : BufTy).Contents (Elt F)) t_main_v37 t_main_v38
  t_main_v39

/-- The rows named by the source indices (negative ones counted from the end), added into the rows named by the destination indices. -/
def aggregate (h : (⟨S10000x512, .f32⟩ : BufTy).Contents (Elt F)) (a1 : (⟨S160000, .i32⟩ : BufTy).Contents (Elt F)) (a2 : (⟨S160000, .i32⟩ : BufTy).Contents (Elt F)) :
    (⟨S10000x512, .f32⟩ : BufTy).Contents (Elt F) :=
  let t_main_c_9 := (constantI S_ 32 0#32)
  let t_main_v40 := (broadcastInDim S160000 ![] bcast_S_S160000 : (⟨S_, .i32⟩ : BufTy).Contents (Elt F) → (⟨S160000, .i32⟩ : BufTy).Contents (Elt F)) t_main_c_9
  let t_main_v41 := (cmpi .slt : (⟨S160000, .i32⟩ : BufTy).Contents (Elt F) → (⟨S160000, .i32⟩ : BufTy).Contents (Elt F) → (⟨S160000, .i1⟩ : BufTy).Contents (Elt F)) a1 t_main_v40
  let t_main_c_10 := (constantI S_ 32 10000#32)
  let t_main_v42 := (broadcastInDim S160000 ![] bcast_S_S160000 : (⟨S_, .i32⟩ : BufTy).Contents (Elt F) → (⟨S160000, .i32⟩ : BufTy).Contents (Elt F)) t_main_c_10
  let t_main_v43 := (addi : (⟨S160000, .i32⟩ : BufTy).Contents (Elt F) → (⟨S160000, .i32⟩ : BufTy).Contents (Elt F) → (⟨S160000, .i32⟩ : BufTy).Contents (Elt F)) a1 t_main_v42
  let t_main_v44 := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) t_main_v41 t_main_v43 a1
  let t_main_v45 := (broadcastInDim S160000x1 ![0] bcast_S160000_S160000x1_0 : (⟨S160000, .i32⟩ : BufTy).Contents (Elt F) → (⟨S160000x1, .i32⟩ : BufTy).Contents (Elt F)) t_main_v44
  let t_main_v46 := ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)) h t_main_v45
  let t_main_cst_11 := (constant (F := F) S_ .f32 0x00000000#32)
  let t_main_v47 := (broadcastInDim S10000x512 ![] bcast_S_S10000x512 : (⟨S_, .f32⟩ : BufTy).Contents (Elt F) → (⟨S10000x512, .f32⟩ : BufTy).Contents (Elt F)) t_main_cst_11
  let t_main_v48 := (broadcastInDim S160000x1 ![0] bcast_S160000_S160000x1_0 : (⟨S160000, .i32⟩ : BufTy).Contents (Elt F) → (⟨S160000x1, .i32⟩ : BufTy).Contents (Elt F)) a2
  let t_main_v49 := ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)) t_main_v47 t_main_v48 t_main_v46
  t_main_v49

/-- Every row multiplied by its factor, the matrix product with the weights, the bias added to every row, the clamp at zero. -/
def rowsTimes (agg : (⟨S10000x512, .f32⟩ : BufTy).Contents (Elt F)) (d : (⟨S10000x1, .f32⟩ : BufTy).Contents (Elt F)) (w : (⟨S1x512x512, .f32⟩ : BufTy).Contents (Elt F)) (b : (⟨S1x512, .f32⟩ : BufTy).Contents (Elt F)) :
    (⟨S10000x512, .f32⟩ : BufTy).Contents (Elt F) :=
  let t_main_v50 := (broadcastInDim S10000x512 ![0, 1] bcast_S10000x1_S10000x512_0_1 : (⟨S10000x1, .f32⟩ : BufTy).Contents (Elt F) → (⟨S10000x512, .f32⟩ : BufTy).Contents (Elt F)) d
  let t_main_v51 := (mulf : (⟨S10000x512, .f32⟩ : BufTy).Contents (Elt F) → (⟨S10000x512, .f32⟩ : BufTy).Contents (Elt F) → (⟨S10000x512, .f32⟩ : BufTy).Contents (Elt F)) agg t_main_v50
  let t_main_v53 := shapeCast S512x512 w shapeCasts_S1x512x512_S512x512
  let t_main_v54 := ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) t_main_v51 t_main_v53
  let t_main_v56 := shapeCast S512 b shapeCasts_S1x512_S512
  let t_main_v57 := (broadcastInDim S1x512 ![1] bcast_S512_S1x512_1 : (⟨S512, .f32⟩ : BufTy).Contents (Elt F) → (⟨S1x512, .f32⟩ : BufTy).Contents (Elt F)) t_main_v56
  let t_main_v58 := (broadcastInDim S10000x512 ![0, 1] bcast_S1x512_S10000x512_0_1 : (⟨S1x512, .f32⟩ : BufTy).Contents (Elt F) → (⟨S10000x512, .f32⟩ : BufTy).Contents (Elt F)) t_main_v57
  let t_main_v59 := (addf : (⟨S10000x512, .f32⟩ : BufTy).Contents (Elt F) → (⟨S10000x512, .f32⟩ : BufTy).Contents (Elt F) → (⟨S10000x512, .f32⟩ : BufTy).Contents (Elt F)) t_main_v54 t_main_v58
  let t_main_call3_cst := (constant (F := F) S_ .f32 0x00000000#32)
  let t_main_call3_v0 := (broadcastInDim S10000x512 ![] bcast_S_S10000x512) t_main_call3_cst
  let t_main_v60 := maximumf t_main_v59 t_main_call3_v0
  t_main_v60

/-- One layer. -/
def layer (x : (⟨S10000x512, .f32⟩ : BufTy).Contents (Elt F)) (s d : (⟨S10000x1, .f32⟩ : BufTy).Contents (Elt F)) (a1 a2 : (⟨S160000, .i32⟩ : BufTy).Contents (Elt F))
    (g be : (⟨S1x512, .f32⟩ : BufTy).Contents (Elt F)) (w : (⟨S1x512x512, .f32⟩ : BufTy).Contents (Elt F)) (b : (⟨S1x512, .f32⟩ : BufTy).Contents (Elt F)) :
    (⟨S10000x512, .f32⟩ : BufTy).Contents (Elt F) :=
  rowsTimes (aggregate (normRows x g be s) a1 a2) d w b

end Cert.ReferenceIdeal.RefVal

end
-- ==== Proof.RefRun.lean ====
/-
  The reference program's run, by hand: its operations as one straight line, and what the line leaves in the buffers.

  @main is four printed windows of statements; each call of a module-local function is the callee's operations at the
  call site, over the call's own buffers.  The line is also cut by meaning: the degree factors (`stage0`), then the three
  layers (`stage1` … `stage3`), each the same seventy-six operations on its own buffers.  Every weakly fair execution
  terminates with every buffer at the fold of the operations' results over the launch contents; the fold over a
  concatenation is the folds one after the other, a layer's fold at its result buffer is `RefVal.layer` of what the layer
  finds in its input buffers, and a layer writes neither the arguments nor the two columns of degree factors.
-/
import proofs.«108859_j74131135529465_1_alg».proof.Proof.Gen.ReferenceIdeal
import proofs.«108859_j74131135529465_1_alg».proof.Proof.RefVal
import Idealize.ShloMosaic.Lib.StableHlo.Run

noncomputable section

namespace Cert.ReferenceIdeal.RefRun

open Cert.ReferenceIdeal Cert.ReferenceIdeal.Facts₀ Cert.ReferenceIdeal.RefVal Idealize.ShloMosaic Idealize.ShloMosaic.StableHlo Idealize.SL.Sem

variable {F : FTy → Type} [FloatOps F]

/-! ## The printed windows as lists of operations -/

/-- Window 0 of @main's statements. -/
abbrev part0 : List (HloOp τ sig (Elt F)) :=
  [ StableHlo.nullary main_cst (constant S_ .f32 0x3F800000#32),
    StableHlo.unary main_cst main_v0 (broadcastInDim S160000 ![] bcast_S_S160000 : (⟨S_, .f32⟩ : BufTy).Contents (Elt F) → (⟨S160000, .f32⟩ : BufTy).Contents (Elt F)),
    StableHlo.nullary main_cst_0 (constant S_ .f32 0x00000000#32),
    StableHlo.unary main_cst_0 main_v1 (broadcastInDim S10000 ![] bcast_S_S10000 : (⟨S_, .f32⟩ : BufTy).Contents (Elt F) → (⟨S10000, .f32⟩ : BufTy).Contents (Elt F)),
    StableHlo.unary main_arg1 main_v2 (broadcastInDim S160000x1 ![0] bcast_S160000_S160000x1_0 : (⟨S160000, .i32⟩ : BufTy).Contents (Elt F) → (⟨S160000x1, .i32⟩ : BufTy).Contents (Elt F)),
    StableHlo.ternary main_v1 main_v2 main_v0 main_v3 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    StableHlo.nullary main_cst_1 (constant S_ .f32 0x3F800000#32),
    StableHlo.TRef.unary (.of main_cst_1) main_call0.v0 id,
    StableHlo.TRef.unary main_call0.v0 main_call0.v1 (broadcastInDim S10000 ![] bcast_S_S10000),
    StableHlo.TRef.binary main_call0.v1 (.of main_v3) main_call0.v2 maximumf,
    StableHlo.nullary main_cst_2 (constant S_ .f32 0x00000000#32),
    StableHlo.unary main_cst_2 main_v5 (broadcastInDim S10000 ![] bcast_S_S10000 : (⟨S_, .f32⟩ : BufTy).Contents (Elt F) → (⟨S10000, .f32⟩ : BufTy).Contents (Elt F)),
    StableHlo.unary main_arg2 main_v6 (broadcastInDim S160000x1 ![0] bcast_S160000_S160000x1_0 : (⟨S160000, .i32⟩ : BufTy).Contents (Elt F) → (⟨S160000x1, .i32⟩ : BufTy).Contents (Elt F)),
    StableHlo.ternary main_v5 main_v6 main_v0 main_v7 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    StableHlo.nullary main_cst_3 (constant S_ .f32 0x3F800000#32),
    StableHlo.TRef.unary (.of main_cst_3) main_call1.v0 id,
    StableHlo.TRef.unary main_call1.v0 main_call1.v1 (broadcastInDim S10000 ![] bcast_S_S10000),
    StableHlo.TRef.binary main_call1.v1 (.of main_v7) main_call1.v2 maximumf,
    StableHlo.nullary main_cst_4 (constant S_ .f32 0xBF000000#32),
    StableHlo.unary main_cst_4 main_v9 (broadcastInDim S10000 ![] bcast_S_S10000 : (⟨S_, .f32⟩ : BufTy).Contents (Elt F) → (⟨S10000, .f32⟩ : BufTy).Contents (Elt F)),
    StableHlo.binary main_v4 main_v9 main_v10 (Host.powf : (⟨S10000, .f32⟩ : BufTy).Contents (Elt F) → (⟨S10000, .f32⟩ : BufTy).Contents (Elt F) → (⟨S10000, .f32⟩ : BufTy).Contents (Elt F)),
    StableHlo.unary main_v10 main_v11 (broadcastInDim S10000x1 ![0] bcast_S10000_S10000x1_0 : (⟨S10000, .f32⟩ : BufTy).Contents (Elt F) → (⟨S10000x1, .f32⟩ : BufTy).Contents (Elt F)),
    StableHlo.nullary main_cst_5 (constant S_ .f32 0xBF000000#32),
    StableHlo.unary main_cst_5 main_v12 (broadcastInDim S10000 ![] bcast_S_S10000 : (⟨S_, .f32⟩ : BufTy).Contents (Elt F) → (⟨S10000, .f32⟩ : BufTy).Contents (Elt F)),
    StableHlo.binary main_v8 main_v12 main_v13 (Host.powf : (⟨S10000, .f32⟩ : BufTy).Contents (Elt F) → (⟨S10000, .f32⟩ : BufTy).Contents (Elt F) → (⟨S10000, .f32⟩ : BufTy).Contents (Elt F)),
    StableHlo.unary main_v13 main_v14 (broadcastInDim S10000x1 ![0] bcast_S10000_S10000x1_0 : (⟨S10000, .f32⟩ : BufTy).Contents (Elt F) → (⟨S10000x1, .f32⟩ : BufTy).Contents (Elt F)),
    StableHlo.nullary main_cst_6 (constant S_ .f32 0x00000000#32),
    StableHlo.binary main_arg0 main_cst_6 main_v15 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_7 (constant S_ .f32 0x461C4000#32),
    StableHlo.unary main_cst_7 main_v16 (broadcastInDim S512 ![] bcast_S_S512 : (⟨S_, .f32⟩ : BufTy).Contents (Elt F) → (⟨S512, .f32⟩ : BufTy).Contents (Elt F)),
    StableHlo.binary main_v15 main_v16 main_v17 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call2.cst (constant S_ .f32 0x00000000#32),
    StableHlo.TRef.binary (.of main_arg0) main_call2.cst main_call2.v0 (fun x v => Host.reduceAdd x v reducesTo_S10000x512_S512_d0 h_S_),
    StableHlo.TRef.unary main_call2.v0 main_call2.v1 (broadcastInDim S1x512 ![1] bcast_S512_S1x512_1),
    StableHlo.TRef.nullary main_call2.cst_0 (constant S_ .f32 0x461C4000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S10000x512 ![0, 1] bcast_S1x512_S10000x512_0_1),
    StableHlo.TRef.binary (.of main_arg0) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v17 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S10000x512 ![0, 1] bcast_S1x512_S10000x512_0_1 : (⟨S1x512, .f32⟩ : BufTy).Contents (Elt F) → (⟨S10000x512, .f32⟩ : BufTy).Contents (Elt F)),
    StableHlo.binary main_arg0 main_v20 main_v21 (subf : (⟨S10000x512, .f32⟩ : BufTy).Contents (Elt F) → (⟨S10000x512, .f32⟩ : BufTy).Contents (Elt F) → (⟨S10000x512, .f32⟩ : BufTy).Contents (Elt F)),
    StableHlo.nullary main_cst_8 (constant S_ .f32 0x3727C5AC#32),
    StableHlo.unary main_cst_8 main_v22 (broadcastInDim S512 ![] bcast_S_S512 : (⟨S_, .f32⟩ : BufTy).Contents (Elt F) → (⟨S512, .f32⟩ : BufTy).Contents (Elt F)),
    StableHlo.binary main_v18 main_v22 main_v23 (addf : (⟨S512, .f32⟩ : BufTy).Contents (Elt F) → (⟨S512, .f32⟩ : BufTy).Contents (Elt F) → (⟨S512, .f32⟩ : BufTy).Contents (Elt F)),
    StableHlo.unary main_v23 main_v24 (Host.rsqrt : (⟨S512, .f32⟩ : BufTy).Contents (Elt F) → (⟨S512, .f32⟩ : BufTy).Contents (Elt F)),
    StableHlo.unary main_v24 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S10000x512 ![0, 1] bcast_S1x512_S10000x512_0_1 : (⟨S1x512, .f32⟩ : BufTy).Contents (Elt F) → (⟨S10000x512, .f32⟩ : BufTy).Contents (Elt F)),
    StableHlo.binary main_v21 main_v26 main_v27 (mulf : (⟨S10000x512, .f32⟩ : BufTy).Contents (Elt F) → (⟨S10000x512, .f32⟩ : BufTy).Contents (Elt F) → (⟨S10000x512, .f32⟩ : BufTy).Contents (Elt F)),
    StableHlo.unary main_arg3 main_v28 ((extractStridedSlice S1x512 ![0, 0] · slices_S3x512_S1x512_0_0) : (⟨S3x512, .f32⟩ : BufTy).Contents (Elt F) → (⟨S1x512, .f32⟩ : BufTy).Contents (Elt F)),
    StableHlo.reshape main_v28 main_v29 rfl shapeCasts_S1x512_S512,
    StableHlo.unary main_v29 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S10000x512 ![0, 1] bcast_S1x512_S10000x512_0_1 : (⟨S1x512, .f32⟩ : BufTy).Contents (Elt F) → (⟨S10000x512, .f32⟩ : BufTy).Contents (Elt F)),
    StableHlo.binary main_v27 main_v31 main_v32 (mulf : (⟨S10000x512, .f32⟩ : BufTy).Contents (Elt F) → (⟨S10000x512, .f32⟩ : BufTy).Contents (Elt F) → (⟨S10000x512, .f32⟩ : BufTy).Contents (Elt F)),
    StableHlo.unary main_arg4 main_v33 ((extractStridedSlice S1x512 ![0, 0] · slices_S3x512_S1x512_0_0) : (⟨S3x512, .f32⟩ : BufTy).Contents (Elt F) → (⟨S1x512, .f32⟩ : BufTy).Contents (Elt F)),
    StableHlo.reshape main_v33 main_v34 rfl shapeCasts_S1x512_S512,
    StableHlo.unary main_v34 main_v35 (broadcastInDim S1x512 ![1] bcast_S512_S1x512_1 : (⟨S512, .f32⟩ : BufTy).Contents (Elt F) → (⟨S1x512, .f32⟩ : BufTy).Contents (Elt F)),
    StableHlo.unary main_v35 main_v36 (broadcastInDim S10000x512 ![0, 1] bcast_S1x512_S10000x512_0_1 : (⟨S1x512, .f32⟩ : BufTy).Contents (Elt F) → (⟨S10000x512, .f32⟩ : BufTy).Contents (Elt F)),
    StableHlo.binary main_v32 main_v36 main_v37 (addf : (⟨S10000x512, .f32⟩ : BufTy).Contents (Elt F) → (⟨S10000x512, .f32⟩ : BufTy).Contents (Elt F) → (⟨S10000x512, .f32⟩ : BufTy).Contents (Elt F)),
    StableHlo.unary main_v11 main_v38 (broadcastInDim S10000x512 ![0, 1] bcast_S10000x1_S10000x512_0_1 : (⟨S10000x1, .f32⟩ : BufTy).Contents (Elt F) → (⟨S10000x512, .f32⟩ : BufTy).Contents (Elt F)),
    StableHlo.binary main_v37 main_v38 main_v39 (mulf : (⟨S10000x512, .f32⟩ : BufTy).Contents (Elt F) → (⟨S10000x512, .f32⟩ : BufTy).Contents (Elt F) → (⟨S10000x512, .f32⟩ : BufTy).Contents (Elt F)),
    StableHlo.nullary main_c_9 (constantI S_ 32 0#32),
    StableHlo.unary main_c_9 main_v40 (broadcastInDim S160000 ![] bcast_S_S160000 : (⟨S_, .i32⟩ : BufTy).Contents (Elt F) → (⟨S160000, .i32⟩ : BufTy).Contents (Elt F)),
    StableHlo.binary main_arg1 main_v40 main_v41 (cmpi .slt : (⟨S160000, .i32⟩ : BufTy).Contents (Elt F) → (⟨S160000, .i32⟩ : BufTy).Contents (Elt F) → (⟨S160000, .i1⟩ : BufTy).Contents (Elt F)),
    StableHlo.nullary main_c_10 (constantI S_ 32 10000#32),
    StableHlo.unary main_c_10 main_v42 (broadcastInDim S160000 ![] bcast_S_S160000 : (⟨S_, .i32⟩ : BufTy).Contents (Elt F) → (⟨S160000, .i32⟩ : BufTy).Contents (Elt F)),
    StableHlo.binary main_arg1 main_v42 main_v43 (addi : (⟨S160000, .i32⟩ : BufTy).Contents (Elt F) → (⟨S160000, .i32⟩ : BufTy).Contents (Elt F) → (⟨S160000, .i32⟩ : BufTy).Contents (Elt F)),
    StableHlo.ternary main_v41 main_v43 main_arg1 main_v44 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v44 main_v45 (broadcastInDim S160000x1 ![0] bcast_S160000_S160000x1_0 : (⟨S160000, .i32⟩ : BufTy).Contents (Elt F) → (⟨S160000x1, .i32⟩ : BufTy).Contents (Elt F)),
    StableHlo.binary main_v39 main_v45 main_v46 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)) ]

/-- Window 1 of @main's statements. -/
abbrev part1 : List (HloOp τ sig (Elt F)) :=
  [ StableHlo.nullary main_cst_11 (constant S_ .f32 0x00000000#32),
    StableHlo.unary main_cst_11 main_v47 (broadcastInDim S10000x512 ![] bcast_S_S10000x512 : (⟨S_, .f32⟩ : BufTy).Contents (Elt F) → (⟨S10000x512, .f32⟩ : BufTy).Contents (Elt F)),
    StableHlo.unary main_arg2 main_v48 (broadcastInDim S160000x1 ![0] bcast_S160000_S160000x1_0 : (⟨S160000, .i32⟩ : BufTy).Contents (Elt F) → (⟨S160000x1, .i32⟩ : BufTy).Contents (Elt F)),
    StableHlo.ternary main_v47 main_v48 main_v46 main_v49 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.unary main_v14 main_v50 (broadcastInDim S10000x512 ![0, 1] bcast_S10000x1_S10000x512_0_1 : (⟨S10000x1, .f32⟩ : BufTy).Contents (Elt F) → (⟨S10000x512, .f32⟩ : BufTy).Contents (Elt F)),
    StableHlo.binary main_v49 main_v50 main_v51 (mulf : (⟨S10000x512, .f32⟩ : BufTy).Contents (Elt F) → (⟨S10000x512, .f32⟩ : BufTy).Contents (Elt F) → (⟨S10000x512, .f32⟩ : BufTy).Contents (Elt F)),
    StableHlo.unary main_arg5 main_v52 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v52 main_v53 rfl shapeCasts_S1x512x512_S512x512,
    StableHlo.binary main_v51 main_v53 main_v54 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg6 main_v55 ((extractStridedSlice S1x512 ![0, 0] · slices_S3x512_S1x512_0_0) : (⟨S3x512, .f32⟩ : BufTy).Contents (Elt F) → (⟨S1x512, .f32⟩ : BufTy).Contents (Elt F)),
    StableHlo.reshape main_v55 main_v56 rfl shapeCasts_S1x512_S512,
    StableHlo.unary main_v56 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S10000x512 ![0, 1] bcast_S1x512_S10000x512_0_1 : (⟨S1x512, .f32⟩ : BufTy).Contents (Elt F) → (⟨S10000x512, .f32⟩ : BufTy).Contents (Elt F)),
    StableHlo.binary main_v54 main_v58 main_v59 (addf : (⟨S10000x512, .f32⟩ : BufTy).Contents (Elt F) → (⟨S10000x512, .f32⟩ : BufTy).Contents (Elt F) → (⟨S10000x512, .f32⟩ : BufTy).Contents (Elt F)),
    StableHlo.TRef.nullary main_call3.cst (constant S_ .f32 0x00000000#32),
    StableHlo.TRef.unary main_call3.cst main_call3.v0 (broadcastInDim S10000x512 ![] bcast_S_S10000x512),
    StableHlo.TRef.binary (.of main_v59) main_call3.v0 main_call3.v1 maximumf,
    StableHlo.nullary main_cst_12 (constant S_ .f32 0x00000000#32),
    StableHlo.binary main_v60 main_cst_12 main_v61 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_13 (constant S_ .f32 0x461C4000#32),
    StableHlo.unary main_cst_13 main_v62 (broadcastInDim S512 ![] bcast_S_S512 : (⟨S_, .f32⟩ : BufTy).Contents (Elt F) → (⟨S512, .f32⟩ : BufTy).Contents (Elt F)),
    StableHlo.binary main_v61 main_v62 main_v63 (Host.divf : (⟨S512, .f32⟩ : BufTy).Contents (Elt F) → (⟨S512, .f32⟩ : BufTy).Contents (Elt F) → (⟨S512, .f32⟩ : BufTy).Contents (Elt F)),
    StableHlo.nullary main_c_14 (constantI S_ 32 0#32),
    StableHlo.TRef.nullary main_call4.cst (constant S_ .f32 0x00000000#32),
    StableHlo.TRef.binary (.of main_v60) main_call4.cst main_call4.v0 (fun x v => Host.reduceAdd x v reducesTo_S10000x512_S512_d0 h_S_),
    StableHlo.TRef.unary main_call4.v0 main_call4.v1 (broadcastInDim S1x512 ![1] bcast_S512_S1x512_1),
    StableHlo.TRef.nullary main_call4.cst_0 (constant S_ .f32 0x461C4000#32),
    StableHlo.TRef.unary main_call4.cst_0 main_call4.v2 (broadcastInDim S1x512 ![] bcast_S_S1x512),
    StableHlo.TRef.binary main_call4.v1 main_call4.v2 main_call4.v3 Host.divf,
    StableHlo.TRef.unary main_call4.v3 main_call4.v4 (broadcastInDim S10000x512 ![0, 1] bcast_S1x512_S10000x512_0_1),
    StableHlo.TRef.binary (.of main_v60) main_call4.v4 main_call4.v5 subf,
    StableHlo.TRef.binary main_call4.v5 main_call4.v5 main_call4.v6 mulf,
    StableHlo.TRef.unary (.of main_c_14) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x512_S512_d0 h_S_),
    StableHlo.TRef.unary main_call4.v8 main_call4.v10 (broadcastInDim S512 ![] bcast_S_S512),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512 ![] bcast_S_S512),
    StableHlo.TRef.ternary main_call4.v12 main_call4.v11 main_call4.call0.v1 main_call4.call0.v2 (fun p a b => select (broadcastInDim S512 ![] bcast_S_S512 p) a b),
    StableHlo.unary main_v63 main_v65 (broadcastInDim S1x512 ![1] bcast_S512_S1x512_1 : (⟨S512, .f32⟩ : BufTy).Contents (Elt F) → (⟨S1x512, .f32⟩ : BufTy).Contents (Elt F)),
    StableHlo.unary main_v65 main_v66 (broadcastInDim S10000x512 ![0, 1] bcast_S1x512_S10000x512_0_1 : (⟨S1x512, .f32⟩ : BufTy).Contents (Elt F) → (⟨S10000x512, .f32⟩ : BufTy).Contents (Elt F)),
    StableHlo.binary main_v60 main_v66 main_v67 (subf : (⟨S10000x512, .f32⟩ : BufTy).Contents (Elt F) → (⟨S10000x512, .f32⟩ : BufTy).Contents (Elt F) → (⟨S10000x512, .f32⟩ : BufTy).Contents (Elt F)),
    StableHlo.nullary main_cst_15 (constant S_ .f32 0x3727C5AC#32),
    StableHlo.unary main_cst_15 main_v68 (broadcastInDim S512 ![] bcast_S_S512 : (⟨S_, .f32⟩ : BufTy).Contents (Elt F) → (⟨S512, .f32⟩ : BufTy).Contents (Elt F)),
    StableHlo.binary main_v64 main_v68 main_v69 (addf : (⟨S512, .f32⟩ : BufTy).Contents (Elt F) → (⟨S512, .f32⟩ : BufTy).Contents (Elt F) → (⟨S512, .f32⟩ : BufTy).Contents (Elt F)),
    StableHlo.unary main_v69 main_v70 (Host.rsqrt : (⟨S512, .f32⟩ : BufTy).Contents (Elt F) → (⟨S512, .f32⟩ : BufTy).Contents (Elt F)),
    StableHlo.unary main_v70 main_v71 (broadcastInDim S1x512 ![1] bcast_S512_S1x512_1 : (⟨S512, .f32⟩ : BufTy).Contents (Elt F) → (⟨S1x512, .f32⟩ : BufTy).Contents (Elt F)),
    StableHlo.unary main_v71 main_v72 (broadcastInDim S10000x512 ![0, 1] bcast_S1x512_S10000x512_0_1 : (⟨S1x512, .f32⟩ : BufTy).Contents (Elt F) → (⟨S10000x512, .f32⟩ : BufTy).Contents (Elt F)),
    StableHlo.binary main_v67 main_v72 main_v73 (mulf : (⟨S10000x512, .f32⟩ : BufTy).Contents (Elt F) → (⟨S10000x512, .f32⟩ : BufTy).Contents (Elt F) → (⟨S10000x512, .f32⟩ : BufTy).Contents (Elt F)),
    StableHlo.unary main_arg3 main_v74 ((extractStridedSlice S1x512 ![1, 0] · slices_S3x512_S1x512_1_0) : (⟨S3x512, .f32⟩ : BufTy).Contents (Elt F) → (⟨S1x512, .f32⟩ : BufTy).Contents (Elt F)),
    StableHlo.reshape main_v74 main_v75 rfl shapeCasts_S1x512_S512,
    StableHlo.unary main_v75 main_v76 (broadcastInDim S1x512 ![1] bcast_S512_S1x512_1 : (⟨S512, .f32⟩ : BufTy).Contents (Elt F) → (⟨S1x512, .f32⟩ : BufTy).Contents (Elt F)),
    StableHlo.unary main_v76 main_v77 (broadcastInDim S10000x512 ![0, 1] bcast_S1x512_S10000x512_0_1 : (⟨S1x512, .f32⟩ : BufTy).Contents (Elt F) → (⟨S10000x512, .f32⟩ : BufTy).Contents (Elt F)),
    StableHlo.binary main_v73 main_v77 main_v78 (mulf : (⟨S10000x512, .f32⟩ : BufTy).Contents (Elt F) → (⟨S10000x512, .f32⟩ : BufTy).Contents (Elt F) → (⟨S10000x512, .f32⟩ : BufTy).Contents (Elt F)),
    StableHlo.unary main_arg4 main_v79 ((extractStridedSlice S1x512 ![1, 0] · slices_S3x512_S1x512_1_0) : (⟨S3x512, .f32⟩ : BufTy).Contents (Elt F) → (⟨S1x512, .f32⟩ : BufTy).Contents (Elt F)),
    StableHlo.reshape main_v79 main_v80 rfl shapeCasts_S1x512_S512,
    StableHlo.unary main_v80 main_v81 (broadcastInDim S1x512 ![1] bcast_S512_S1x512_1 : (⟨S512, .f32⟩ : BufTy).Contents (Elt F) → (⟨S1x512, .f32⟩ : BufTy).Contents (Elt F)),
    StableHlo.unary main_v81 main_v82 (broadcastInDim S10000x512 ![0, 1] bcast_S1x512_S10000x512_0_1 : (⟨S1x512, .f32⟩ : BufTy).Contents (Elt F) → (⟨S10000x512, .f32⟩ : BufTy).Contents (Elt F)),
    StableHlo.binary main_v78 main_v82 main_v83 (addf : (⟨S10000x512, .f32⟩ : BufTy).Contents (Elt F) → (⟨S10000x512, .f32⟩ : BufTy).Contents (Elt F) → (⟨S10000x512, .f32⟩ : BufTy).Contents (Elt F)),
    StableHlo.unary main_v11 main_v84 (broadcastInDim S10000x512 ![0, 1] bcast_S10000x1_S10000x512_0_1 : (⟨S10000x1, .f32⟩ : BufTy).Contents (Elt F) → (⟨S10000x512, .f32⟩ : BufTy).Contents (Elt F)),
    StableHlo.binary main_v83 main_v84 main_v85 (mulf : (⟨S10000x512, .f32⟩ : BufTy).Contents (Elt F) → (⟨S10000x512, .f32⟩ : BufTy).Contents (Elt F) → (⟨S10000x512, .f32⟩ : BufTy).Contents (Elt F)),
    StableHlo.nullary main_c_16 (constantI S_ 32 0#32),
    StableHlo.unary main_c_16 main_v86 (broadcastInDim S160000 ![] bcast_S_S160000 : (⟨S_, .i32⟩ : BufTy).Contents (Elt F) → (⟨S160000, .i32⟩ : BufTy).Contents (Elt F)),
    StableHlo.binary main_arg1 main_v86 main_v87 (cmpi .slt : (⟨S160000, .i32⟩ : BufTy).Contents (Elt F) → (⟨S160000, .i32⟩ : BufTy).Contents (Elt F) → (⟨S160000, .i1⟩ : BufTy).Contents (Elt F)),
    StableHlo.nullary main_c_17 (constantI S_ 32 10000#32),
    StableHlo.unary main_c_17 main_v88 (broadcastInDim S160000 ![] bcast_S_S160000 : (⟨S_, .i32⟩ : BufTy).Contents (Elt F) → (⟨S160000, .i32⟩ : BufTy).Contents (Elt F)),
    StableHlo.binary main_arg1 main_v88 main_v89 (addi : (⟨S160000, .i32⟩ : BufTy).Contents (Elt F) → (⟨S160000, .i32⟩ : BufTy).Contents (Elt F) → (⟨S160000, .i32⟩ : BufTy).Contents (Elt F)),
    StableHlo.ternary main_v87 main_v89 main_arg1 main_v90 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v90 main_v91 (broadcastInDim S160000x1 ![0] bcast_S160000_S160000x1_0 : (⟨S160000, .i32⟩ : BufTy).Contents (Elt F) → (⟨S160000x1, .i32⟩ : BufTy).Contents (Elt F)),
    StableHlo.binary main_v85 main_v91 main_v92 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_18 (constant S_ .f32 0x00000000#32),
    StableHlo.unary main_cst_18 main_v93 (broadcastInDim S10000x512 ![] bcast_S_S10000x512 : (⟨S_, .f32⟩ : BufTy).Contents (Elt F) → (⟨S10000x512, .f32⟩ : BufTy).Contents (Elt F)),
    StableHlo.unary main_arg2 main_v94 (broadcastInDim S160000x1 ![0] bcast_S160000_S160000x1_0 : (⟨S160000, .i32⟩ : BufTy).Contents (Elt F) → (⟨S160000x1, .i32⟩ : BufTy).Contents (Elt F)),
    StableHlo.ternary main_v93 main_v94 main_v92 main_v95 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.unary main_v14 main_v96 (broadcastInDim S10000x512 ![0, 1] bcast_S10000x1_S10000x512_0_1 : (⟨S10000x1, .f32⟩ : BufTy).Contents (Elt F) → (⟨S10000x512, .f32⟩ : BufTy).Contents (Elt F)),
    StableHlo.binary main_v95 main_v96 main_v97 (mulf : (⟨S10000x512, .f32⟩ : BufTy).Contents (Elt F) → (⟨S10000x512, .f32⟩ : BufTy).Contents (Elt F) → (⟨S10000x512, .f32⟩ : BufTy).Contents (Elt F)),
    StableHlo.unary main_arg5 main_v98 ((extractStridedSlice S1x512x512 ![1, 0, 0] · slices_S3x512x512_S1x512x512_1_0_0) : (⟨S3x512x512, .f32⟩ : BufTy).Contents (Elt F) → (⟨S1x512x512, .f32⟩ : BufTy).Contents (Elt F)) ]

/-- Window 2 of @main's statements. -/
abbrev part2 : List (HloOp τ sig (Elt F)) :=
  [ StableHlo.reshape main_v98 main_v99 rfl shapeCasts_S1x512x512_S512x512,
    StableHlo.binary main_v97 main_v99 main_v100 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg6 main_v101 ((extractStridedSlice S1x512 ![1, 0] · slices_S3x512_S1x512_1_0) : (⟨S3x512, .f32⟩ : BufTy).Contents (Elt F) → (⟨S1x512, .f32⟩ : BufTy).Contents (Elt F)),
    StableHlo.reshape main_v101 main_v102 rfl shapeCasts_S1x512_S512,
    StableHlo.unary main_v102 main_v103 (broadcastInDim S1x512 ![1] bcast_S512_S1x512_1 : (⟨S512, .f32⟩ : BufTy).Contents (Elt F) → (⟨S1x512, .f32⟩ : BufTy).Contents (Elt F)),
    StableHlo.unary main_v103 main_v104 (broadcastInDim S10000x512 ![0, 1] bcast_S1x512_S10000x512_0_1 : (⟨S1x512, .f32⟩ : BufTy).Contents (Elt F) → (⟨S10000x512, .f32⟩ : BufTy).Contents (Elt F)),
    StableHlo.binary main_v100 main_v104 main_v105 (addf : (⟨S10000x512, .f32⟩ : BufTy).Contents (Elt F) → (⟨S10000x512, .f32⟩ : BufTy).Contents (Elt F) → (⟨S10000x512, .f32⟩ : BufTy).Contents (Elt F)),
    StableHlo.TRef.nullary main_call5.cst (constant S_ .f32 0x00000000#32),
    StableHlo.TRef.unary main_call5.cst main_call5.v0 (broadcastInDim S10000x512 ![] bcast_S_S10000x512),
    StableHlo.TRef.binary (.of main_v105) main_call5.v0 main_call5.v1 maximumf,
    StableHlo.nullary main_cst_19 (constant S_ .f32 0x00000000#32),
    StableHlo.binary main_v106 main_cst_19 main_v107 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_20 (constant S_ .f32 0x461C4000#32),
    StableHlo.unary main_cst_20 main_v108 (broadcastInDim S512 ![] bcast_S_S512 : (⟨S_, .f32⟩ : BufTy).Contents (Elt F) → (⟨S512, .f32⟩ : BufTy).Contents (Elt F)),
    StableHlo.binary main_v107 main_v108 main_v109 (Host.divf : (⟨S512, .f32⟩ : BufTy).Contents (Elt F) → (⟨S512, .f32⟩ : BufTy).Contents (Elt F) → (⟨S512, .f32⟩ : BufTy).Contents (Elt F)),
    StableHlo.nullary main_c_21 (constantI S_ 32 0#32),
    StableHlo.TRef.nullary main_call6.cst (constant S_ .f32 0x00000000#32),
    StableHlo.TRef.binary (.of main_v106) main_call6.cst main_call6.v0 (fun x v => Host.reduceAdd x v reducesTo_S10000x512_S512_d0 h_S_),
    StableHlo.TRef.unary main_call6.v0 main_call6.v1 (broadcastInDim S1x512 ![1] bcast_S512_S1x512_1),
    StableHlo.TRef.nullary main_call6.cst_0 (constant S_ .f32 0x461C4000#32),
    StableHlo.TRef.unary main_call6.cst_0 main_call6.v2 (broadcastInDim S1x512 ![] bcast_S_S1x512),
    StableHlo.TRef.binary main_call6.v1 main_call6.v2 main_call6.v3 Host.divf,
    StableHlo.TRef.unary main_call6.v3 main_call6.v4 (broadcastInDim S10000x512 ![0, 1] bcast_S1x512_S10000x512_0_1),
    StableHlo.TRef.binary (.of main_v106) main_call6.v4 main_call6.v5 subf,
    StableHlo.TRef.binary main_call6.v5 main_call6.v5 main_call6.v6 mulf,
    StableHlo.TRef.unary (.of main_c_21) main_call6.v7 (sitofp .f32),
    StableHlo.TRef.nullary main_call6.cst_1 (constant S_ .f32 0x461C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S10000x512_S512_d0 h_S_),
    StableHlo.TRef.unary main_call6.v8 main_call6.v10 (broadcastInDim S512 ![] bcast_S_S512),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S512 ![] bcast_S_S512),
    StableHlo.TRef.ternary main_call6.v12 main_call6.v11 main_call6.call0.v1 main_call6.call0.v2 (fun p a b => select (broadcastInDim S512 ![] bcast_S_S512 p) a b),
    StableHlo.unary main_v109 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S10000x512 ![0, 1] bcast_S1x512_S10000x512_0_1 : (⟨S1x512, .f32⟩ : BufTy).Contents (Elt F) → (⟨S10000x512, .f32⟩ : BufTy).Contents (Elt F)),
    StableHlo.binary main_v106 main_v112 main_v113 (subf : (⟨S10000x512, .f32⟩ : BufTy).Contents (Elt F) → (⟨S10000x512, .f32⟩ : BufTy).Contents (Elt F) → (⟨S10000x512, .f32⟩ : BufTy).Contents (Elt F)),
    StableHlo.nullary main_cst_22 (constant S_ .f32 0x3727C5AC#32),
    StableHlo.unary main_cst_22 main_v114 (broadcastInDim S512 ![] bcast_S_S512 : (⟨S_, .f32⟩ : BufTy).Contents (Elt F) → (⟨S512, .f32⟩ : BufTy).Contents (Elt F)),
    StableHlo.binary main_v110 main_v114 main_v115 (addf : (⟨S512, .f32⟩ : BufTy).Contents (Elt F) → (⟨S512, .f32⟩ : BufTy).Contents (Elt F) → (⟨S512, .f32⟩ : BufTy).Contents (Elt F)),
    StableHlo.unary main_v115 main_v116 (Host.rsqrt : (⟨S512, .f32⟩ : BufTy).Contents (Elt F) → (⟨S512, .f32⟩ : BufTy).Contents (Elt F)),
    StableHlo.unary main_v116 main_v117 (broadcastInDim S1x512 ![1] bcast_S512_S1x512_1 : (⟨S512, .f32⟩ : BufTy).Contents (Elt F) → (⟨S1x512, .f32⟩ : BufTy).Contents (Elt F)),
    StableHlo.unary main_v117 main_v118 (broadcastInDim S10000x512 ![0, 1] bcast_S1x512_S10000x512_0_1 : (⟨S1x512, .f32⟩ : BufTy).Contents (Elt F) → (⟨S10000x512, .f32⟩ : BufTy).Contents (Elt F)),
    StableHlo.binary main_v113 main_v118 main_v119 (mulf : (⟨S10000x512, .f32⟩ : BufTy).Contents (Elt F) → (⟨S10000x512, .f32⟩ : BufTy).Contents (Elt F) → (⟨S10000x512, .f32⟩ : BufTy).Contents (Elt F)),
    StableHlo.unary main_arg3 main_v120 ((extractStridedSlice S1x512 ![2, 0] · slices_S3x512_S1x512_2_0) : (⟨S3x512, .f32⟩ : BufTy).Contents (Elt F) → (⟨S1x512, .f32⟩ : BufTy).Contents (Elt F)),
    StableHlo.reshape main_v120 main_v121 rfl shapeCasts_S1x512_S512,
    StableHlo.unary main_v121 main_v122 (broadcastInDim S1x512 ![1] bcast_S512_S1x512_1 : (⟨S512, .f32⟩ : BufTy).Contents (Elt F) → (⟨S1x512, .f32⟩ : BufTy).Contents (Elt F)),
    StableHlo.unary main_v122 main_v123 (broadcastInDim S10000x512 ![0, 1] bcast_S1x512_S10000x512_0_1 : (⟨S1x512, .f32⟩ : BufTy).Contents (Elt F) → (⟨S10000x512, .f32⟩ : BufTy).Contents (Elt F)),
    StableHlo.binary main_v119 main_v123 main_v124 (mulf : (⟨S10000x512, .f32⟩ : BufTy).Contents (Elt F) → (⟨S10000x512, .f32⟩ : BufTy).Contents (Elt F) → (⟨S10000x512, .f32⟩ : BufTy).Contents (Elt F)),
    StableHlo.unary main_arg4 main_v125 ((extractStridedSlice S1x512 ![2, 0] · slices_S3x512_S1x512_2_0) : (⟨S3x512, .f32⟩ : BufTy).Contents (Elt F) → (⟨S1x512, .f32⟩ : BufTy).Contents (Elt F)),
    StableHlo.reshape main_v125 main_v126 rfl shapeCasts_S1x512_S512,
    StableHlo.unary main_v126 main_v127 (broadcastInDim S1x512 ![1] bcast_S512_S1x512_1 : (⟨S512, .f32⟩ : BufTy).Contents (Elt F) → (⟨S1x512, .f32⟩ : BufTy).Contents (Elt F)),
    StableHlo.unary main_v127 main_v128 (broadcastInDim S10000x512 ![0, 1] bcast_S1x512_S10000x512_0_1 : (⟨S1x512, .f32⟩ : BufTy).Contents (Elt F) → (⟨S10000x512, .f32⟩ : BufTy).Contents (Elt F)),
    StableHlo.binary main_v124 main_v128 main_v129 (addf : (⟨S10000x512, .f32⟩ : BufTy).Contents (Elt F) → (⟨S10000x512, .f32⟩ : BufTy).Contents (Elt F) → (⟨S10000x512, .f32⟩ : BufTy).Contents (Elt F)),
    StableHlo.unary main_v11 main_v130 (broadcastInDim S10000x512 ![0, 1] bcast_S10000x1_S10000x512_0_1 : (⟨S10000x1, .f32⟩ : BufTy).Contents (Elt F) → (⟨S10000x512, .f32⟩ : BufTy).Contents (Elt F)),
    StableHlo.binary main_v129 main_v130 main_v131 (mulf : (⟨S10000x512, .f32⟩ : BufTy).Contents (Elt F) → (⟨S10000x512, .f32⟩ : BufTy).Contents (Elt F) → (⟨S10000x512, .f32⟩ : BufTy).Contents (Elt F)),
    StableHlo.nullary main_c_23 (constantI S_ 32 0#32),
    StableHlo.unary main_c_23 main_v132 (broadcastInDim S160000 ![] bcast_S_S160000 : (⟨S_, .i32⟩ : BufTy).Contents (Elt F) → (⟨S160000, .i32⟩ : BufTy).Contents (Elt F)),
    StableHlo.binary main_arg1 main_v132 main_v133 (cmpi .slt : (⟨S160000, .i32⟩ : BufTy).Contents (Elt F) → (⟨S160000, .i32⟩ : BufTy).Contents (Elt F) → (⟨S160000, .i1⟩ : BufTy).Contents (Elt F)),
    StableHlo.nullary main_c_24 (constantI S_ 32 10000#32),
    StableHlo.unary main_c_24 main_v134 (broadcastInDim S160000 ![] bcast_S_S160000 : (⟨S_, .i32⟩ : BufTy).Contents (Elt F) → (⟨S160000, .i32⟩ : BufTy).Contents (Elt F)),
    StableHlo.binary main_arg1 main_v134 main_v135 (addi : (⟨S160000, .i32⟩ : BufTy).Contents (Elt F) → (⟨S160000, .i32⟩ : BufTy).Contents (Elt F) → (⟨S160000, .i32⟩ : BufTy).Contents (Elt F)),
    StableHlo.ternary main_v133 main_v135 main_arg1 main_v136 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v136 main_v137 (broadcastInDim S160000x1 ![0] bcast_S160000_S160000x1_0 : (⟨S160000, .i32⟩ : BufTy).Contents (Elt F) → (⟨S160000x1, .i32⟩ : BufTy).Contents (Elt F)),
    StableHlo.binary main_v131 main_v137 main_v138 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_25 (constant S_ .f32 0x00000000#32),
    StableHlo.unary main_cst_25 main_v139 (broadcastInDim S10000x512 ![] bcast_S_S10000x512 : (⟨S_, .f32⟩ : BufTy).Contents (Elt F) → (⟨S10000x512, .f32⟩ : BufTy).Contents (Elt F)),
    StableHlo.unary main_arg2 main_v140 (broadcastInDim S160000x1 ![0] bcast_S160000_S160000x1_0 : (⟨S160000, .i32⟩ : BufTy).Contents (Elt F) → (⟨S160000x1, .i32⟩ : BufTy).Contents (Elt F)),
    StableHlo.ternary main_v139 main_v140 main_v138 main_v141 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.unary main_v14 main_v142 (broadcastInDim S10000x512 ![0, 1] bcast_S10000x1_S10000x512_0_1 : (⟨S10000x1, .f32⟩ : BufTy).Contents (Elt F) → (⟨S10000x512, .f32⟩ : BufTy).Contents (Elt F)),
    StableHlo.binary main_v141 main_v142 main_v143 (mulf : (⟨S10000x512, .f32⟩ : BufTy).Contents (Elt F) → (⟨S10000x512, .f32⟩ : BufTy).Contents (Elt F) → (⟨S10000x512, .f32⟩ : BufTy).Contents (Elt F)),
    StableHlo.unary main_arg5 main_v144 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v144 main_v145 rfl shapeCasts_S1x512x512_S512x512,
    StableHlo.binary main_v143 main_v145 main_v146 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg6 main_v147 ((extractStridedSlice S1x512 ![2, 0] · slices_S3x512_S1x512_2_0) : (⟨S3x512, .f32⟩ : BufTy).Contents (Elt F) → (⟨S1x512, .f32⟩ : BufTy).Contents (Elt F)),
    StableHlo.reshape main_v147 main_v148 rfl shapeCasts_S1x512_S512,
    StableHlo.unary main_v148 main_v149 (broadcastInDim S1x512 ![1] bcast_S512_S1x512_1 : (⟨S512, .f32⟩ : BufTy).Contents (Elt F) → (⟨S1x512, .f32⟩ : BufTy).Contents (Elt F)),
    StableHlo.unary main_v149 main_v150 (broadcastInDim S10000x512 ![0, 1] bcast_S1x512_S10000x512_0_1 : (⟨S1x512, .f32⟩ : BufTy).Contents (Elt F) → (⟨S10000x512, .f32⟩ : BufTy).Contents (Elt F)),
    StableHlo.binary main_v146 main_v150 main_v151 (addf : (⟨S10000x512, .f32⟩ : BufTy).Contents (Elt F) → (⟨S10000x512, .f32⟩ : BufTy).Contents (Elt F) → (⟨S10000x512, .f32⟩ : BufTy).Contents (Elt F)) ]

/-- Window 3 of @main's statements. -/
abbrev part3 : List (HloOp τ sig (Elt F)) :=
  [ StableHlo.TRef.nullary main_call7.cst (constant S_ .f32 0x00000000#32),
    StableHlo.TRef.unary main_call7.cst main_call7.v0 (broadcastInDim S10000x512 ![] bcast_S_S10000x512),
    StableHlo.TRef.binary (.of main_v151) main_call7.v0 main_call7.v1 maximumf ]

set_option maxRecDepth 8192 in
set_option maxHeartbeats 4000000 in
theorem part0_eq (c : Dev nD) : main_part0 (F := F) c = seq (part0 (F := F)) := by
  simp only [main_part0, fn_clip.body, fn_where.body, fn_var.body, fn_var_0.body, fn_relu.body, seq, bind_assoc, pure_bind, bind_pure]
  all_goals rfl

set_option maxRecDepth 8192 in
set_option maxHeartbeats 4000000 in
theorem part1_eq (c : Dev nD) : main_part1 (F := F) c = seq (part1 (F := F)) := by
  simp only [main_part1, fn_clip.body, fn_where.body, fn_var.body, fn_var_0.body, fn_relu.body, seq, bind_assoc, pure_bind, bind_pure]
  all_goals rfl

set_option maxRecDepth 8192 in
set_option maxHeartbeats 4000000 in
theorem part2_eq (c : Dev nD) : main_part2 (F := F) c = seq (part2 (F := F)) := by
  simp only [main_part2, fn_clip.body, fn_where.body, fn_var.body, fn_var_0.body, fn_relu.body, seq, bind_assoc, pure_bind, bind_pure]
  all_goals rfl

set_option maxRecDepth 8192 in
set_option maxHeartbeats 4000000 in
theorem part3_eq (c : Dev nD) : main_part3 (F := F) c = seq (part3 (F := F)) := by
  simp only [main_part3, fn_clip.body, fn_where.body, fn_var.body, fn_var_0.body, fn_relu.body, seq, bind_assoc, pure_bind, bind_pure]
  all_goals rfl

/-! ## The same line cut by meaning -/

/-- The degree factors and their columns. -/
abbrev stage0 : List (HloOp τ sig (Elt F)) :=
  [ StableHlo.nullary main_cst (constant S_ .f32 0x3F800000#32),
    StableHlo.unary main_cst main_v0 (broadcastInDim S160000 ![] bcast_S_S160000 : (⟨S_, .f32⟩ : BufTy).Contents (Elt F) → (⟨S160000, .f32⟩ : BufTy).Contents (Elt F)),
    StableHlo.nullary main_cst_0 (constant S_ .f32 0x00000000#32),
    StableHlo.unary main_cst_0 main_v1 (broadcastInDim S10000 ![] bcast_S_S10000 : (⟨S_, .f32⟩ : BufTy).Contents (Elt F) → (⟨S10000, .f32⟩ : BufTy).Contents (Elt F)),
    StableHlo.unary main_arg1 main_v2 (broadcastInDim S160000x1 ![0] bcast_S160000_S160000x1_0 : (⟨S160000, .i32⟩ : BufTy).Contents (Elt F) → (⟨S160000x1, .i32⟩ : BufTy).Contents (Elt F)),
    StableHlo.ternary main_v1 main_v2 main_v0 main_v3 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    StableHlo.nullary main_cst_1 (constant S_ .f32 0x3F800000#32),
    StableHlo.TRef.unary (.of main_cst_1) main_call0.v0 id,
    StableHlo.TRef.unary main_call0.v0 main_call0.v1 (broadcastInDim S10000 ![] bcast_S_S10000),
    StableHlo.TRef.binary main_call0.v1 (.of main_v3) main_call0.v2 maximumf,
    StableHlo.nullary main_cst_2 (constant S_ .f32 0x00000000#32),
    StableHlo.unary main_cst_2 main_v5 (broadcastInDim S10000 ![] bcast_S_S10000 : (⟨S_, .f32⟩ : BufTy).Contents (Elt F) → (⟨S10000, .f32⟩ : BufTy).Contents (Elt F)),
    StableHlo.unary main_arg2 main_v6 (broadcastInDim S160000x1 ![0] bcast_S160000_S160000x1_0 : (⟨S160000, .i32⟩ : BufTy).Contents (Elt F) → (⟨S160000x1, .i32⟩ : BufTy).Contents (Elt F)),
    StableHlo.ternary main_v5 main_v6 main_v0 main_v7 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    StableHlo.nullary main_cst_3 (constant S_ .f32 0x3F800000#32),
    StableHlo.TRef.unary (.of main_cst_3) main_call1.v0 id,
    StableHlo.TRef.unary main_call1.v0 main_call1.v1 (broadcastInDim S10000 ![] bcast_S_S10000),
    StableHlo.TRef.binary main_call1.v1 (.of main_v7) main_call1.v2 maximumf,
    StableHlo.nullary main_cst_4 (constant S_ .f32 0xBF000000#32),
    StableHlo.unary main_cst_4 main_v9 (broadcastInDim S10000 ![] bcast_S_S10000 : (⟨S_, .f32⟩ : BufTy).Contents (Elt F) → (⟨S10000, .f32⟩ : BufTy).Contents (Elt F)),
    StableHlo.binary main_v4 main_v9 main_v10 (Host.powf : (⟨S10000, .f32⟩ : BufTy).Contents (Elt F) → (⟨S10000, .f32⟩ : BufTy).Contents (Elt F) → (⟨S10000, .f32⟩ : BufTy).Contents (Elt F)),
    StableHlo.unary main_v10 main_v11 (broadcastInDim S10000x1 ![0] bcast_S10000_S10000x1_0 : (⟨S10000, .f32⟩ : BufTy).Contents (Elt F) → (⟨S10000x1, .f32⟩ : BufTy).Contents (Elt F)),
    StableHlo.nullary main_cst_5 (constant S_ .f32 0xBF000000#32),
    StableHlo.unary main_cst_5 main_v12 (broadcastInDim S10000 ![] bcast_S_S10000 : (⟨S_, .f32⟩ : BufTy).Contents (Elt F) → (⟨S10000, .f32⟩ : BufTy).Contents (Elt F)),
    StableHlo.binary main_v8 main_v12 main_v13 (Host.powf : (⟨S10000, .f32⟩ : BufTy).Contents (Elt F) → (⟨S10000, .f32⟩ : BufTy).Contents (Elt F) → (⟨S10000, .f32⟩ : BufTy).Contents (Elt F)),
    StableHlo.unary main_v13 main_v14 (broadcastInDim S10000x1 ![0] bcast_S10000_S10000x1_0 : (⟨S10000, .f32⟩ : BufTy).Contents (Elt F) → (⟨S10000x1, .f32⟩ : BufTy).Contents (Elt F)) ]

/-- Layer 0. -/
abbrev stage1 : List (HloOp τ sig (Elt F)) :=
  [ StableHlo.nullary main_cst_6 (constant S_ .f32 0x00000000#32),
    StableHlo.binary main_arg0 main_cst_6 main_v15 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_7 (constant S_ .f32 0x461C4000#32),
    StableHlo.unary main_cst_7 main_v16 (broadcastInDim S512 ![] bcast_S_S512 : (⟨S_, .f32⟩ : BufTy).Contents (Elt F) → (⟨S512, .f32⟩ : BufTy).Contents (Elt F)),
    StableHlo.binary main_v15 main_v16 main_v17 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call2.cst (constant S_ .f32 0x00000000#32),
    StableHlo.TRef.binary (.of main_arg0) main_call2.cst main_call2.v0 (fun x v => Host.reduceAdd x v reducesTo_S10000x512_S512_d0 h_S_),
    StableHlo.TRef.unary main_call2.v0 main_call2.v1 (broadcastInDim S1x512 ![1] bcast_S512_S1x512_1),
    StableHlo.TRef.nullary main_call2.cst_0 (constant S_ .f32 0x461C4000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S10000x512 ![0, 1] bcast_S1x512_S10000x512_0_1),
    StableHlo.TRef.binary (.of main_arg0) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v17 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S10000x512 ![0, 1] bcast_S1x512_S10000x512_0_1 : (⟨S1x512, .f32⟩ : BufTy).Contents (Elt F) → (⟨S10000x512, .f32⟩ : BufTy).Contents (Elt F)),
    StableHlo.binary main_arg0 main_v20 main_v21 (subf : (⟨S10000x512, .f32⟩ : BufTy).Contents (Elt F) → (⟨S10000x512, .f32⟩ : BufTy).Contents (Elt F) → (⟨S10000x512, .f32⟩ : BufTy).Contents (Elt F)),
    StableHlo.nullary main_cst_8 (constant S_ .f32 0x3727C5AC#32),
    StableHlo.unary main_cst_8 main_v22 (broadcastInDim S512 ![] bcast_S_S512 : (⟨S_, .f32⟩ : BufTy).Contents (Elt F) → (⟨S512, .f32⟩ : BufTy).Contents (Elt F)),
    StableHlo.binary main_v18 main_v22 main_v23 (addf : (⟨S512, .f32⟩ : BufTy).Contents (Elt F) → (⟨S512, .f32⟩ : BufTy).Contents (Elt F) → (⟨S512, .f32⟩ : BufTy).Contents (Elt F)),
    StableHlo.unary main_v23 main_v24 (Host.rsqrt : (⟨S512, .f32⟩ : BufTy).Contents (Elt F) → (⟨S512, .f32⟩ : BufTy).Contents (Elt F)),
    StableHlo.unary main_v24 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S10000x512 ![0, 1] bcast_S1x512_S10000x512_0_1 : (⟨S1x512, .f32⟩ : BufTy).Contents (Elt F) → (⟨S10000x512, .f32⟩ : BufTy).Contents (Elt F)),
    StableHlo.binary main_v21 main_v26 main_v27 (mulf : (⟨S10000x512, .f32⟩ : BufTy).Contents (Elt F) → (⟨S10000x512, .f32⟩ : BufTy).Contents (Elt F) → (⟨S10000x512, .f32⟩ : BufTy).Contents (Elt F)),
    StableHlo.unary main_arg3 main_v28 ((extractStridedSlice S1x512 ![0, 0] · slices_S3x512_S1x512_0_0) : (⟨S3x512, .f32⟩ : BufTy).Contents (Elt F) → (⟨S1x512, .f32⟩ : BufTy).Contents (Elt F)),
    StableHlo.reshape main_v28 main_v29 rfl shapeCasts_S1x512_S512,
    StableHlo.unary main_v29 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S10000x512 ![0, 1] bcast_S1x512_S10000x512_0_1 : (⟨S1x512, .f32⟩ : BufTy).Contents (Elt F) → (⟨S10000x512, .f32⟩ : BufTy).Contents (Elt F)),
    StableHlo.binary main_v27 main_v31 main_v32 (mulf : (⟨S10000x512, .f32⟩ : BufTy).Contents (Elt F) → (⟨S10000x512, .f32⟩ : BufTy).Contents (Elt F) → (⟨S10000x512, .f32⟩ : BufTy).Contents (Elt F)),
    StableHlo.unary main_arg4 main_v33 ((extractStridedSlice S1x512 ![0, 0] · slices_S3x512_S1x512_0_0) : (⟨S3x512, .f32⟩ : BufTy).Contents (Elt F) → (⟨S1x512, .f32⟩ : BufTy).Contents (Elt F)),
    StableHlo.reshape main_v33 main_v34 rfl shapeCasts_S1x512_S512,
    StableHlo.unary main_v34 main_v35 (broadcastInDim S1x512 ![1] bcast_S512_S1x512_1 : (⟨S512, .f32⟩ : BufTy).Contents (Elt F) → (⟨S1x512, .f32⟩ : BufTy).Contents (Elt F)),
    StableHlo.unary main_v35 main_v36 (broadcastInDim S10000x512 ![0, 1] bcast_S1x512_S10000x512_0_1 : (⟨S1x512, .f32⟩ : BufTy).Contents (Elt F) → (⟨S10000x512, .f32⟩ : BufTy).Contents (Elt F)),
    StableHlo.binary main_v32 main_v36 main_v37 (addf : (⟨S10000x512, .f32⟩ : BufTy).Contents (Elt F) → (⟨S10000x512, .f32⟩ : BufTy).Contents (Elt F) → (⟨S10000x512, .f32⟩ : BufTy).Contents (Elt F)),
    StableHlo.unary main_v11 main_v38 (broadcastInDim S10000x512 ![0, 1] bcast_S10000x1_S10000x512_0_1 : (⟨S10000x1, .f32⟩ : BufTy).Contents (Elt F) → (⟨S10000x512, .f32⟩ : BufTy).Contents (Elt F)),
    StableHlo.binary main_v37 main_v38 main_v39 (mulf : (⟨S10000x512, .f32⟩ : BufTy).Contents (Elt F) → (⟨S10000x512, .f32⟩ : BufTy).Contents (Elt F) → (⟨S10000x512, .f32⟩ : BufTy).Contents (Elt F)),
    StableHlo.nullary main_c_9 (constantI S_ 32 0#32),
    StableHlo.unary main_c_9 main_v40 (broadcastInDim S160000 ![] bcast_S_S160000 : (⟨S_, .i32⟩ : BufTy).Contents (Elt F) → (⟨S160000, .i32⟩ : BufTy).Contents (Elt F)),
    StableHlo.binary main_arg1 main_v40 main_v41 (cmpi .slt : (⟨S160000, .i32⟩ : BufTy).Contents (Elt F) → (⟨S160000, .i32⟩ : BufTy).Contents (Elt F) → (⟨S160000, .i1⟩ : BufTy).Contents (Elt F)),
    StableHlo.nullary main_c_10 (constantI S_ 32 10000#32),
    StableHlo.unary main_c_10 main_v42 (broadcastInDim S160000 ![] bcast_S_S160000 : (⟨S_, .i32⟩ : BufTy).Contents (Elt F) → (⟨S160000, .i32⟩ : BufTy).Contents (Elt F)),
    StableHlo.binary main_arg1 main_v42 main_v43 (addi : (⟨S160000, .i32⟩ : BufTy).Contents (Elt F) → (⟨S160000, .i32⟩ : BufTy).Contents (Elt F) → (⟨S160000, .i32⟩ : BufTy).Contents (Elt F)),
    StableHlo.ternary main_v41 main_v43 main_arg1 main_v44 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v44 main_v45 (broadcastInDim S160000x1 ![0] bcast_S160000_S160000x1_0 : (⟨S160000, .i32⟩ : BufTy).Contents (Elt F) → (⟨S160000x1, .i32⟩ : BufTy).Contents (Elt F)),
    StableHlo.binary main_v39 main_v45 main_v46 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_11 (constant S_ .f32 0x00000000#32),
    StableHlo.unary main_cst_11 main_v47 (broadcastInDim S10000x512 ![] bcast_S_S10000x512 : (⟨S_, .f32⟩ : BufTy).Contents (Elt F) → (⟨S10000x512, .f32⟩ : BufTy).Contents (Elt F)),
    StableHlo.unary main_arg2 main_v48 (broadcastInDim S160000x1 ![0] bcast_S160000_S160000x1_0 : (⟨S160000, .i32⟩ : BufTy).Contents (Elt F) → (⟨S160000x1, .i32⟩ : BufTy).Contents (Elt F)),
    StableHlo.ternary main_v47 main_v48 main_v46 main_v49 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.unary main_v14 main_v50 (broadcastInDim S10000x512 ![0, 1] bcast_S10000x1_S10000x512_0_1 : (⟨S10000x1, .f32⟩ : BufTy).Contents (Elt F) → (⟨S10000x512, .f32⟩ : BufTy).Contents (Elt F)),
    StableHlo.binary main_v49 main_v50 main_v51 (mulf : (⟨S10000x512, .f32⟩ : BufTy).Contents (Elt F) → (⟨S10000x512, .f32⟩ : BufTy).Contents (Elt F) → (⟨S10000x512, .f32⟩ : BufTy).Contents (Elt F)),
    StableHlo.unary main_arg5 main_v52 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v52 main_v53 rfl shapeCasts_S1x512x512_S512x512,
    StableHlo.binary main_v51 main_v53 main_v54 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg6 main_v55 ((extractStridedSlice S1x512 ![0, 0] · slices_S3x512_S1x512_0_0) : (⟨S3x512, .f32⟩ : BufTy).Contents (Elt F) → (⟨S1x512, .f32⟩ : BufTy).Contents (Elt F)),
    StableHlo.reshape main_v55 main_v56 rfl shapeCasts_S1x512_S512,
    StableHlo.unary main_v56 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S10000x512 ![0, 1] bcast_S1x512_S10000x512_0_1 : (⟨S1x512, .f32⟩ : BufTy).Contents (Elt F) → (⟨S10000x512, .f32⟩ : BufTy).Contents (Elt F)),
    StableHlo.binary main_v54 main_v58 main_v59 (addf : (⟨S10000x512, .f32⟩ : BufTy).Contents (Elt F) → (⟨S10000x512, .f32⟩ : BufTy).Contents (Elt F) → (⟨S10000x512, .f32⟩ : BufTy).Contents (Elt F)),
    StableHlo.TRef.nullary main_call3.cst (constant S_ .f32 0x00000000#32),
    StableHlo.TRef.unary main_call3.cst main_call3.v0 (broadcastInDim S10000x512 ![] bcast_S_S10000x512),
    StableHlo.TRef.binary (.of main_v59) main_call3.v0 main_call3.v1 maximumf ]

/-- Layer 1. -/
abbrev stage2 : List (HloOp τ sig (Elt F)) :=
  [ StableHlo.nullary main_cst_12 (constant S_ .f32 0x00000000#32),
    StableHlo.binary main_v60 main_cst_12 main_v61 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_13 (constant S_ .f32 0x461C4000#32),
    StableHlo.unary main_cst_13 main_v62 (broadcastInDim S512 ![] bcast_S_S512 : (⟨S_, .f32⟩ : BufTy).Contents (Elt F) → (⟨S512, .f32⟩ : BufTy).Contents (Elt F)),
    StableHlo.binary main_v61 main_v62 main_v63 (Host.divf : (⟨S512, .f32⟩ : BufTy).Contents (Elt F) → (⟨S512, .f32⟩ : BufTy).Contents (Elt F) → (⟨S512, .f32⟩ : BufTy).Contents (Elt F)),
    StableHlo.nullary main_c_14 (constantI S_ 32 0#32),
    StableHlo.TRef.nullary main_call4.cst (constant S_ .f32 0x00000000#32),
    StableHlo.TRef.binary (.of main_v60) main_call4.cst main_call4.v0 (fun x v => Host.reduceAdd x v reducesTo_S10000x512_S512_d0 h_S_),
    StableHlo.TRef.unary main_call4.v0 main_call4.v1 (broadcastInDim S1x512 ![1] bcast_S512_S1x512_1),
    StableHlo.TRef.nullary main_call4.cst_0 (constant S_ .f32 0x461C4000#32),
    StableHlo.TRef.unary main_call4.cst_0 main_call4.v2 (broadcastInDim S1x512 ![] bcast_S_S1x512),
    StableHlo.TRef.binary main_call4.v1 main_call4.v2 main_call4.v3 Host.divf,
    StableHlo.TRef.unary main_call4.v3 main_call4.v4 (broadcastInDim S10000x512 ![0, 1] bcast_S1x512_S10000x512_0_1),
    StableHlo.TRef.binary (.of main_v60) main_call4.v4 main_call4.v5 subf,
    StableHlo.TRef.binary main_call4.v5 main_call4.v5 main_call4.v6 mulf,
    StableHlo.TRef.unary (.of main_c_14) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x512_S512_d0 h_S_),
    StableHlo.TRef.unary main_call4.v8 main_call4.v10 (broadcastInDim S512 ![] bcast_S_S512),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512 ![] bcast_S_S512),
    StableHlo.TRef.ternary main_call4.v12 main_call4.v11 main_call4.call0.v1 main_call4.call0.v2 (fun p a b => select (broadcastInDim S512 ![] bcast_S_S512 p) a b),
    StableHlo.unary main_v63 main_v65 (broadcastInDim S1x512 ![1] bcast_S512_S1x512_1 : (⟨S512, .f32⟩ : BufTy).Contents (Elt F) → (⟨S1x512, .f32⟩ : BufTy).Contents (Elt F)),
    StableHlo.unary main_v65 main_v66 (broadcastInDim S10000x512 ![0, 1] bcast_S1x512_S10000x512_0_1 : (⟨S1x512, .f32⟩ : BufTy).Contents (Elt F) → (⟨S10000x512, .f32⟩ : BufTy).Contents (Elt F)),
    StableHlo.binary main_v60 main_v66 main_v67 (subf : (⟨S10000x512, .f32⟩ : BufTy).Contents (Elt F) → (⟨S10000x512, .f32⟩ : BufTy).Contents (Elt F) → (⟨S10000x512, .f32⟩ : BufTy).Contents (Elt F)),
    StableHlo.nullary main_cst_15 (constant S_ .f32 0x3727C5AC#32),
    StableHlo.unary main_cst_15 main_v68 (broadcastInDim S512 ![] bcast_S_S512 : (⟨S_, .f32⟩ : BufTy).Contents (Elt F) → (⟨S512, .f32⟩ : BufTy).Contents (Elt F)),
    StableHlo.binary main_v64 main_v68 main_v69 (addf : (⟨S512, .f32⟩ : BufTy).Contents (Elt F) → (⟨S512, .f32⟩ : BufTy).Contents (Elt F) → (⟨S512, .f32⟩ : BufTy).Contents (Elt F)),
    StableHlo.unary main_v69 main_v70 (Host.rsqrt : (⟨S512, .f32⟩ : BufTy).Contents (Elt F) → (⟨S512, .f32⟩ : BufTy).Contents (Elt F)),
    StableHlo.unary main_v70 main_v71 (broadcastInDim S1x512 ![1] bcast_S512_S1x512_1 : (⟨S512, .f32⟩ : BufTy).Contents (Elt F) → (⟨S1x512, .f32⟩ : BufTy).Contents (Elt F)),
    StableHlo.unary main_v71 main_v72 (broadcastInDim S10000x512 ![0, 1] bcast_S1x512_S10000x512_0_1 : (⟨S1x512, .f32⟩ : BufTy).Contents (Elt F) → (⟨S10000x512, .f32⟩ : BufTy).Contents (Elt F)),
    StableHlo.binary main_v67 main_v72 main_v73 (mulf : (⟨S10000x512, .f32⟩ : BufTy).Contents (Elt F) → (⟨S10000x512, .f32⟩ : BufTy).Contents (Elt F) → (⟨S10000x512, .f32⟩ : BufTy).Contents (Elt F)),
    StableHlo.unary main_arg3 main_v74 ((extractStridedSlice S1x512 ![1, 0] · slices_S3x512_S1x512_1_0) : (⟨S3x512, .f32⟩ : BufTy).Contents (Elt F) → (⟨S1x512, .f32⟩ : BufTy).Contents (Elt F)),
    StableHlo.reshape main_v74 main_v75 rfl shapeCasts_S1x512_S512,
    StableHlo.unary main_v75 main_v76 (broadcastInDim S1x512 ![1] bcast_S512_S1x512_1 : (⟨S512, .f32⟩ : BufTy).Contents (Elt F) → (⟨S1x512, .f32⟩ : BufTy).Contents (Elt F)),
    StableHlo.unary main_v76 main_v77 (broadcastInDim S10000x512 ![0, 1] bcast_S1x512_S10000x512_0_1 : (⟨S1x512, .f32⟩ : BufTy).Contents (Elt F) → (⟨S10000x512, .f32⟩ : BufTy).Contents (Elt F)),
    StableHlo.binary main_v73 main_v77 main_v78 (mulf : (⟨S10000x512, .f32⟩ : BufTy).Contents (Elt F) → (⟨S10000x512, .f32⟩ : BufTy).Contents (Elt F) → (⟨S10000x512, .f32⟩ : BufTy).Contents (Elt F)),
    StableHlo.unary main_arg4 main_v79 ((extractStridedSlice S1x512 ![1, 0] · slices_S3x512_S1x512_1_0) : (⟨S3x512, .f32⟩ : BufTy).Contents (Elt F) → (⟨S1x512, .f32⟩ : BufTy).Contents (Elt F)),
    StableHlo.reshape main_v79 main_v80 rfl shapeCasts_S1x512_S512,
    StableHlo.unary main_v80 main_v81 (broadcastInDim S1x512 ![1] bcast_S512_S1x512_1 : (⟨S512, .f32⟩ : BufTy).Contents (Elt F) → (⟨S1x512, .f32⟩ : BufTy).Contents (Elt F)),
    StableHlo.unary main_v81 main_v82 (broadcastInDim S10000x512 ![0, 1] bcast_S1x512_S10000x512_0_1 : (⟨S1x512, .f32⟩ : BufTy).Contents (Elt F) → (⟨S10000x512, .f32⟩ : BufTy).Contents (Elt F)),
    StableHlo.binary main_v78 main_v82 main_v83 (addf : (⟨S10000x512, .f32⟩ : BufTy).Contents (Elt F) → (⟨S10000x512, .f32⟩ : BufTy).Contents (Elt F) → (⟨S10000x512, .f32⟩ : BufTy).Contents (Elt F)),
    StableHlo.unary main_v11 main_v84 (broadcastInDim S10000x512 ![0, 1] bcast_S10000x1_S10000x512_0_1 : (⟨S10000x1, .f32⟩ : BufTy).Contents (Elt F) → (⟨S10000x512, .f32⟩ : BufTy).Contents (Elt F)),
    StableHlo.binary main_v83 main_v84 main_v85 (mulf : (⟨S10000x512, .f32⟩ : BufTy).Contents (Elt F) → (⟨S10000x512, .f32⟩ : BufTy).Contents (Elt F) → (⟨S10000x512, .f32⟩ : BufTy).Contents (Elt F)),
    StableHlo.nullary main_c_16 (constantI S_ 32 0#32),
    StableHlo.unary main_c_16 main_v86 (broadcastInDim S160000 ![] bcast_S_S160000 : (⟨S_, .i32⟩ : BufTy).Contents (Elt F) → (⟨S160000, .i32⟩ : BufTy).Contents (Elt F)),
    StableHlo.binary main_arg1 main_v86 main_v87 (cmpi .slt : (⟨S160000, .i32⟩ : BufTy).Contents (Elt F) → (⟨S160000, .i32⟩ : BufTy).Contents (Elt F) → (⟨S160000, .i1⟩ : BufTy).Contents (Elt F)),
    StableHlo.nullary main_c_17 (constantI S_ 32 10000#32),
    StableHlo.unary main_c_17 main_v88 (broadcastInDim S160000 ![] bcast_S_S160000 : (⟨S_, .i32⟩ : BufTy).Contents (Elt F) → (⟨S160000, .i32⟩ : BufTy).Contents (Elt F)),
    StableHlo.binary main_arg1 main_v88 main_v89 (addi : (⟨S160000, .i32⟩ : BufTy).Contents (Elt F) → (⟨S160000, .i32⟩ : BufTy).Contents (Elt F) → (⟨S160000, .i32⟩ : BufTy).Contents (Elt F)),
    StableHlo.ternary main_v87 main_v89 main_arg1 main_v90 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v90 main_v91 (broadcastInDim S160000x1 ![0] bcast_S160000_S160000x1_0 : (⟨S160000, .i32⟩ : BufTy).Contents (Elt F) → (⟨S160000x1, .i32⟩ : BufTy).Contents (Elt F)),
    StableHlo.binary main_v85 main_v91 main_v92 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_18 (constant S_ .f32 0x00000000#32),
    StableHlo.unary main_cst_18 main_v93 (broadcastInDim S10000x512 ![] bcast_S_S10000x512 : (⟨S_, .f32⟩ : BufTy).Contents (Elt F) → (⟨S10000x512, .f32⟩ : BufTy).Contents (Elt F)),
    StableHlo.unary main_arg2 main_v94 (broadcastInDim S160000x1 ![0] bcast_S160000_S160000x1_0 : (⟨S160000, .i32⟩ : BufTy).Contents (Elt F) → (⟨S160000x1, .i32⟩ : BufTy).Contents (Elt F)),
    StableHlo.ternary main_v93 main_v94 main_v92 main_v95 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.unary main_v14 main_v96 (broadcastInDim S10000x512 ![0, 1] bcast_S10000x1_S10000x512_0_1 : (⟨S10000x1, .f32⟩ : BufTy).Contents (Elt F) → (⟨S10000x512, .f32⟩ : BufTy).Contents (Elt F)),
    StableHlo.binary main_v95 main_v96 main_v97 (mulf : (⟨S10000x512, .f32⟩ : BufTy).Contents (Elt F) → (⟨S10000x512, .f32⟩ : BufTy).Contents (Elt F) → (⟨S10000x512, .f32⟩ : BufTy).Contents (Elt F)),
    StableHlo.unary main_arg5 main_v98 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v98 main_v99 rfl shapeCasts_S1x512x512_S512x512,
    StableHlo.binary main_v97 main_v99 main_v100 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg6 main_v101 ((extractStridedSlice S1x512 ![1, 0] · slices_S3x512_S1x512_1_0) : (⟨S3x512, .f32⟩ : BufTy).Contents (Elt F) → (⟨S1x512, .f32⟩ : BufTy).Contents (Elt F)),
    StableHlo.reshape main_v101 main_v102 rfl shapeCasts_S1x512_S512,
    StableHlo.unary main_v102 main_v103 (broadcastInDim S1x512 ![1] bcast_S512_S1x512_1 : (⟨S512, .f32⟩ : BufTy).Contents (Elt F) → (⟨S1x512, .f32⟩ : BufTy).Contents (Elt F)),
    StableHlo.unary main_v103 main_v104 (broadcastInDim S10000x512 ![0, 1] bcast_S1x512_S10000x512_0_1 : (⟨S1x512, .f32⟩ : BufTy).Contents (Elt F) → (⟨S10000x512, .f32⟩ : BufTy).Contents (Elt F)),
    StableHlo.binary main_v100 main_v104 main_v105 (addf : (⟨S10000x512, .f32⟩ : BufTy).Contents (Elt F) → (⟨S10000x512, .f32⟩ : BufTy).Contents (Elt F) → (⟨S10000x512, .f32⟩ : BufTy).Contents (Elt F)),
    StableHlo.TRef.nullary main_call5.cst (constant S_ .f32 0x00000000#32),
    StableHlo.TRef.unary main_call5.cst main_call5.v0 (broadcastInDim S10000x512 ![] bcast_S_S10000x512),
    StableHlo.TRef.binary (.of main_v105) main_call5.v0 main_call5.v1 maximumf ]

/-- Layer 2. -/
abbrev stage3 : List (HloOp τ sig (Elt F)) :=
  [ StableHlo.nullary main_cst_19 (constant S_ .f32 0x00000000#32),
    StableHlo.binary main_v106 main_cst_19 main_v107 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_20 (constant S_ .f32 0x461C4000#32),
    StableHlo.unary main_cst_20 main_v108 (broadcastInDim S512 ![] bcast_S_S512 : (⟨S_, .f32⟩ : BufTy).Contents (Elt F) → (⟨S512, .f32⟩ : BufTy).Contents (Elt F)),
    StableHlo.binary main_v107 main_v108 main_v109 (Host.divf : (⟨S512, .f32⟩ : BufTy).Contents (Elt F) → (⟨S512, .f32⟩ : BufTy).Contents (Elt F) → (⟨S512, .f32⟩ : BufTy).Contents (Elt F)),
    StableHlo.nullary main_c_21 (constantI S_ 32 0#32),
    StableHlo.TRef.nullary main_call6.cst (constant S_ .f32 0x00000000#32),
    StableHlo.TRef.binary (.of main_v106) main_call6.cst main_call6.v0 (fun x v => Host.reduceAdd x v reducesTo_S10000x512_S512_d0 h_S_),
    StableHlo.TRef.unary main_call6.v0 main_call6.v1 (broadcastInDim S1x512 ![1] bcast_S512_S1x512_1),
    StableHlo.TRef.nullary main_call6.cst_0 (constant S_ .f32 0x461C4000#32),
    StableHlo.TRef.unary main_call6.cst_0 main_call6.v2 (broadcastInDim S1x512 ![] bcast_S_S1x512),
    StableHlo.TRef.binary main_call6.v1 main_call6.v2 main_call6.v3 Host.divf,
    StableHlo.TRef.unary main_call6.v3 main_call6.v4 (broadcastInDim S10000x512 ![0, 1] bcast_S1x512_S10000x512_0_1),
    StableHlo.TRef.binary (.of main_v106) main_call6.v4 main_call6.v5 subf,
    StableHlo.TRef.binary main_call6.v5 main_call6.v5 main_call6.v6 mulf,
    StableHlo.TRef.unary (.of main_c_21) main_call6.v7 (sitofp .f32),
    StableHlo.TRef.nullary main_call6.cst_1 (constant S_ .f32 0x461C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S10000x512_S512_d0 h_S_),
    StableHlo.TRef.unary main_call6.v8 main_call6.v10 (broadcastInDim S512 ![] bcast_S_S512),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S512 ![] bcast_S_S512),
    StableHlo.TRef.ternary main_call6.v12 main_call6.v11 main_call6.call0.v1 main_call6.call0.v2 (fun p a b => select (broadcastInDim S512 ![] bcast_S_S512 p) a b),
    StableHlo.unary main_v109 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S10000x512 ![0, 1] bcast_S1x512_S10000x512_0_1 : (⟨S1x512, .f32⟩ : BufTy).Contents (Elt F) → (⟨S10000x512, .f32⟩ : BufTy).Contents (Elt F)),
    StableHlo.binary main_v106 main_v112 main_v113 (subf : (⟨S10000x512, .f32⟩ : BufTy).Contents (Elt F) → (⟨S10000x512, .f32⟩ : BufTy).Contents (Elt F) → (⟨S10000x512, .f32⟩ : BufTy).Contents (Elt F)),
    StableHlo.nullary main_cst_22 (constant S_ .f32 0x3727C5AC#32),
    StableHlo.unary main_cst_22 main_v114 (broadcastInDim S512 ![] bcast_S_S512 : (⟨S_, .f32⟩ : BufTy).Contents (Elt F) → (⟨S512, .f32⟩ : BufTy).Contents (Elt F)),
    StableHlo.binary main_v110 main_v114 main_v115 (addf : (⟨S512, .f32⟩ : BufTy).Contents (Elt F) → (⟨S512, .f32⟩ : BufTy).Contents (Elt F) → (⟨S512, .f32⟩ : BufTy).Contents (Elt F)),
    StableHlo.unary main_v115 main_v116 (Host.rsqrt : (⟨S512, .f32⟩ : BufTy).Contents (Elt F) → (⟨S512, .f32⟩ : BufTy).Contents (Elt F)),
    StableHlo.unary main_v116 main_v117 (broadcastInDim S1x512 ![1] bcast_S512_S1x512_1 : (⟨S512, .f32⟩ : BufTy).Contents (Elt F) → (⟨S1x512, .f32⟩ : BufTy).Contents (Elt F)),
    StableHlo.unary main_v117 main_v118 (broadcastInDim S10000x512 ![0, 1] bcast_S1x512_S10000x512_0_1 : (⟨S1x512, .f32⟩ : BufTy).Contents (Elt F) → (⟨S10000x512, .f32⟩ : BufTy).Contents (Elt F)),
    StableHlo.binary main_v113 main_v118 main_v119 (mulf : (⟨S10000x512, .f32⟩ : BufTy).Contents (Elt F) → (⟨S10000x512, .f32⟩ : BufTy).Contents (Elt F) → (⟨S10000x512, .f32⟩ : BufTy).Contents (Elt F)),
    StableHlo.unary main_arg3 main_v120 ((extractStridedSlice S1x512 ![2, 0] · slices_S3x512_S1x512_2_0) : (⟨S3x512, .f32⟩ : BufTy).Contents (Elt F) → (⟨S1x512, .f32⟩ : BufTy).Contents (Elt F)),
    StableHlo.reshape main_v120 main_v121 rfl shapeCasts_S1x512_S512,
    StableHlo.unary main_v121 main_v122 (broadcastInDim S1x512 ![1] bcast_S512_S1x512_1 : (⟨S512, .f32⟩ : BufTy).Contents (Elt F) → (⟨S1x512, .f32⟩ : BufTy).Contents (Elt F)),
    StableHlo.unary main_v122 main_v123 (broadcastInDim S10000x512 ![0, 1] bcast_S1x512_S10000x512_0_1 : (⟨S1x512, .f32⟩ : BufTy).Contents (Elt F) → (⟨S10000x512, .f32⟩ : BufTy).Contents (Elt F)),
    StableHlo.binary main_v119 main_v123 main_v124 (mulf : (⟨S10000x512, .f32⟩ : BufTy).Contents (Elt F) → (⟨S10000x512, .f32⟩ : BufTy).Contents (Elt F) → (⟨S10000x512, .f32⟩ : BufTy).Contents (Elt F)),
    StableHlo.unary main_arg4 main_v125 ((extractStridedSlice S1x512 ![2, 0] · slices_S3x512_S1x512_2_0) : (⟨S3x512, .f32⟩ : BufTy).Contents (Elt F) → (⟨S1x512, .f32⟩ : BufTy).Contents (Elt F)),
    StableHlo.reshape main_v125 main_v126 rfl shapeCasts_S1x512_S512,
    StableHlo.unary main_v126 main_v127 (broadcastInDim S1x512 ![1] bcast_S512_S1x512_1 : (⟨S512, .f32⟩ : BufTy).Contents (Elt F) → (⟨S1x512, .f32⟩ : BufTy).Contents (Elt F)),
    StableHlo.unary main_v127 main_v128 (broadcastInDim S10000x512 ![0, 1] bcast_S1x512_S10000x512_0_1 : (⟨S1x512, .f32⟩ : BufTy).Contents (Elt F) → (⟨S10000x512, .f32⟩ : BufTy).Contents (Elt F)),
    StableHlo.binary main_v124 main_v128 main_v129 (addf : (⟨S10000x512, .f32⟩ : BufTy).Contents (Elt F) → (⟨S10000x512, .f32⟩ : BufTy).Contents (Elt F) → (⟨S10000x512, .f32⟩ : BufTy).Contents (Elt F)),
    StableHlo.unary main_v11 main_v130 (broadcastInDim S10000x512 ![0, 1] bcast_S10000x1_S10000x512_0_1 : (⟨S10000x1, .f32⟩ : BufTy).Contents (Elt F) → (⟨S10000x512, .f32⟩ : BufTy).Contents (Elt F)),
    StableHlo.binary main_v129 main_v130 main_v131 (mulf : (⟨S10000x512, .f32⟩ : BufTy).Contents (Elt F) → (⟨S10000x512, .f32⟩ : BufTy).Contents (Elt F) → (⟨S10000x512, .f32⟩ : BufTy).Contents (Elt F)),
    StableHlo.nullary main_c_23 (constantI S_ 32 0#32),
    StableHlo.unary main_c_23 main_v132 (broadcastInDim S160000 ![] bcast_S_S160000 : (⟨S_, .i32⟩ : BufTy).Contents (Elt F) → (⟨S160000, .i32⟩ : BufTy).Contents (Elt F)),
    StableHlo.binary main_arg1 main_v132 main_v133 (cmpi .slt : (⟨S160000, .i32⟩ : BufTy).Contents (Elt F) → (⟨S160000, .i32⟩ : BufTy).Contents (Elt F) → (⟨S160000, .i1⟩ : BufTy).Contents (Elt F)),
    StableHlo.nullary main_c_24 (constantI S_ 32 10000#32),
    StableHlo.unary main_c_24 main_v134 (broadcastInDim S160000 ![] bcast_S_S160000 : (⟨S_, .i32⟩ : BufTy).Contents (Elt F) → (⟨S160000, .i32⟩ : BufTy).Contents (Elt F)),
    StableHlo.binary main_arg1 main_v134 main_v135 (addi : (⟨S160000, .i32⟩ : BufTy).Contents (Elt F) → (⟨S160000, .i32⟩ : BufTy).Contents (Elt F) → (⟨S160000, .i32⟩ : BufTy).Contents (Elt F)),
    StableHlo.ternary main_v133 main_v135 main_arg1 main_v136 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v136 main_v137 (broadcastInDim S160000x1 ![0] bcast_S160000_S160000x1_0 : (⟨S160000, .i32⟩ : BufTy).Contents (Elt F) → (⟨S160000x1, .i32⟩ : BufTy).Contents (Elt F)),
    StableHlo.binary main_v131 main_v137 main_v138 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_25 (constant S_ .f32 0x00000000#32),
    StableHlo.unary main_cst_25 main_v139 (broadcastInDim S10000x512 ![] bcast_S_S10000x512 : (⟨S_, .f32⟩ : BufTy).Contents (Elt F) → (⟨S10000x512, .f32⟩ : BufTy).Contents (Elt F)),
    StableHlo.unary main_arg2 main_v140 (broadcastInDim S160000x1 ![0] bcast_S160000_S160000x1_0 : (⟨S160000, .i32⟩ : BufTy).Contents (Elt F) → (⟨S160000x1, .i32⟩ : BufTy).Contents (Elt F)),
    StableHlo.ternary main_v139 main_v140 main_v138 main_v141 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.unary main_v14 main_v142 (broadcastInDim S10000x512 ![0, 1] bcast_S10000x1_S10000x512_0_1 : (⟨S10000x1, .f32⟩ : BufTy).Contents (Elt F) → (⟨S10000x512, .f32⟩ : BufTy).Contents (Elt F)),
    StableHlo.binary main_v141 main_v142 main_v143 (mulf : (⟨S10000x512, .f32⟩ : BufTy).Contents (Elt F) → (⟨S10000x512, .f32⟩ : BufTy).Contents (Elt F) → (⟨S10000x512, .f32⟩ : BufTy).Contents (Elt F)),
    StableHlo.unary main_arg5 main_v144 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v144 main_v145 rfl shapeCasts_S1x512x512_S512x512,
    StableHlo.binary main_v143 main_v145 main_v146 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg6 main_v147 ((extractStridedSlice S1x512 ![2, 0] · slices_S3x512_S1x512_2_0) : (⟨S3x512, .f32⟩ : BufTy).Contents (Elt F) → (⟨S1x512, .f32⟩ : BufTy).Contents (Elt F)),
    StableHlo.reshape main_v147 main_v148 rfl shapeCasts_S1x512_S512,
    StableHlo.unary main_v148 main_v149 (broadcastInDim S1x512 ![1] bcast_S512_S1x512_1 : (⟨S512, .f32⟩ : BufTy).Contents (Elt F) → (⟨S1x512, .f32⟩ : BufTy).Contents (Elt F)),
    StableHlo.unary main_v149 main_v150 (broadcastInDim S10000x512 ![0, 1] bcast_S1x512_S10000x512_0_1 : (⟨S1x512, .f32⟩ : BufTy).Contents (Elt F) → (⟨S10000x512, .f32⟩ : BufTy).Contents (Elt F)),
    StableHlo.binary main_v146 main_v150 main_v151 (addf : (⟨S10000x512, .f32⟩ : BufTy).Contents (Elt F) → (⟨S10000x512, .f32⟩ : BufTy).Contents (Elt F) → (⟨S10000x512, .f32⟩ : BufTy).Contents (Elt F)),
    StableHlo.TRef.nullary main_call7.cst (constant S_ .f32 0x00000000#32),
    StableHlo.TRef.unary main_call7.cst main_call7.v0 (broadcastInDim S10000x512 ![] bcast_S_S10000x512),
    StableHlo.TRef.binary (.of main_v151) main_call7.v0 main_call7.v1 maximumf ]

/-- The whole line. -/
abbrev ops : List (HloOp τ sig (Elt F)) := stage0 ++ (stage1 ++ (stage2 ++ stage3))

theorem parts_eq : (part0 ++ (part1 ++ (part2 ++ part3)) : List (HloOp τ sig (Elt F))) = ops := rfl

/-- @main is the line. -/
theorem main_eq (c : Dev nD) : main (F := F) c = seq (ops (F := F)) := by
  rw [← parts_eq, seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem stage0_sub : (stage0 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩

theorem stage1_sub : (stage1 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub ..⟩

theorem stage2_sub : (stage2 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub ..⟩

theorem stage3_sub : (stage3 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp stage0_sub op h
    rcases List.mem_append.mp h with h | h
    · exact List.forall_iff_forall_mem.mp stage1_sub op h
    rcases List.mem_append.mp h with h | h
    · exact List.forall_iff_forall_mem.mp stage2_sub op h
    · exact List.forall_iff_forall_mem.mp stage3_sub op h

theorem stage0_fresh : ∀ op ∈ (stage0 : List (HloOp τ sig (Elt F))), op.fresh = ∅ := by
  intro _ h; (repeat (cases h with | head => rfl | tail _ h => ?_)); exact nomatch h

theorem stage1_fresh : ∀ op ∈ (stage1 : List (HloOp τ sig (Elt F))), op.fresh = ∅ := by
  intro _ h; (repeat (cases h with | head => rfl | tail _ h => ?_)); exact nomatch h

theorem stage2_fresh : ∀ op ∈ (stage2 : List (HloOp τ sig (Elt F))), op.fresh = ∅ := by
  intro _ h; (repeat (cases h with | head => rfl | tail _ h => ?_)); exact nomatch h

theorem stage3_fresh : ∀ op ∈ (stage3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.mp h with h | h
  · exact stage0_fresh op h
  rcases List.mem_append.mp h with h | h
  · exact stage1_fresh op h
  rcases List.mem_append.mp h with h | h
  · exact stage2_fresh op h
  · exact stage3_fresh op h

/-- Every weakly fair execution terminates, nothing faulting, with every buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The fold, stage by stage -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after stage3 (after stage2 (after stage1 (after stage0 V))) := by
  unfold ops
  rw [after_append, after_append, after_append]

attribute [local irreducible] Host.reduceAdd Host.gather Host.scatterAdd Host.powf

set_option maxRecDepth 8192 in
set_option maxHeartbeats 4000000 in
theorem stage0_v11 (V : Valuation τ sig (Elt F)) :
    after stage0 V (Proc.devRef .tc main_v11) = asCol (degFactor (V (Proc.devRef .tc main_arg1))) := by
  after_results_simp
  rfl

set_option maxRecDepth 8192 in
set_option maxHeartbeats 4000000 in
theorem stage0_v14 (V : Valuation τ sig (Elt F)) :
    after stage0 V (Proc.devRef .tc main_v14) = asCol (degFactor (V (Proc.devRef .tc main_arg2))) := by
  after_results_simp
  rfl

set_option maxRecDepth 8192 in
theorem stage0_arg0 (V : Valuation τ sig (Elt F)) : after stage0 V (Proc.devRef .tc main_arg0) = V (Proc.devRef .tc main_arg0) := by
  after_results_simp

set_option maxRecDepth 8192 in
theorem stage0_arg1 (V : Valuation τ sig (Elt F)) : after stage0 V (Proc.devRef .tc main_arg1) = V (Proc.devRef .tc main_arg1) := by
  after_results_simp

set_option maxRecDepth 8192 in
theorem stage0_arg2 (V : Valuation τ sig (Elt F)) : after stage0 V (Proc.devRef .tc main_arg2) = V (Proc.devRef .tc main_arg2) := by
  after_results_simp

set_option maxRecDepth 8192 in
theorem stage0_arg3 (V : Valuation τ sig (Elt F)) : after stage0 V (Proc.devRef .tc main_arg3) = V (Proc.devRef .tc main_arg3) := by
  after_results_simp

set_option maxRecDepth 8192 in
theorem stage0_arg4 (V : Valuation τ sig (Elt F)) : after stage0 V (Proc.devRef .tc main_arg4) = V (Proc.devRef .tc main_arg4) := by
  after_results_simp

set_option maxRecDepth 8192 in
theorem stage0_arg5 (V : Valuation τ sig (Elt F)) : after stage0 V (Proc.devRef .tc main_arg5) = V (Proc.devRef .tc main_arg5) := by
  after_results_simp

set_option maxRecDepth 8192 in
theorem stage0_arg6 (V : Valuation τ sig (Elt F)) : after stage0 V (Proc.devRef .tc main_arg6) = V (Proc.devRef .tc main_arg6) := by
  after_results_simp

set_option maxRecDepth 16384 in
set_option maxHeartbeats 8000000 in
/-- Layer 0's result is `layer` of what it finds. -/
theorem stage1_out (V : Valuation τ sig (Elt F)) :
    after stage1 V (Proc.devRef .tc main_v60) = layer (V (Proc.devRef .tc main_arg0)) (V (Proc.devRef .tc main_v11)) (V (Proc.devRef .tc main_v14))
      (V (Proc.devRef .tc main_arg1)) (V (Proc.devRef .tc main_arg2)) (extractStridedSlice S1x512 ![0, 0] (V (Proc.devRef .tc main_arg3)) slices_S3x512_S1x512_0_0) (extractStridedSlice S1x512 ![0, 0] (V (Proc.devRef .tc main_arg4)) slices_S3x512_S1x512_0_0)
      (extractStridedSlice S1x512x512 ![0, 0, 0] (V (Proc.devRef .tc main_arg5)) slices_S3x512x512_S1x512x512_0_0_0) (extractStridedSlice S1x512 ![0, 0] (V (Proc.devRef .tc main_arg6)) slices_S3x512_S1x512_0_0) := by
  after_results_simp
  rfl

set_option maxRecDepth 16384 in
set_option maxHeartbeats 8000000 in
theorem stage1_main_arg0 (V : Valuation τ sig (Elt F)) : after stage1 V (Proc.devRef .tc main_arg0) = V (Proc.devRef .tc main_arg0) := by
  after_results_simp

set_option maxRecDepth 16384 in
set_option maxHeartbeats 8000000 in
theorem stage1_main_arg1 (V : Valuation τ sig (Elt F)) : after stage1 V (Proc.devRef .tc main_arg1) = V (Proc.devRef .tc main_arg1) := by
  after_results_simp

set_option maxRecDepth 16384 in
set_option maxHeartbeats 8000000 in
theorem stage1_main_arg2 (V : Valuation τ sig (Elt F)) : after stage1 V (Proc.devRef .tc main_arg2) = V (Proc.devRef .tc main_arg2) := by
  after_results_simp

set_option maxRecDepth 16384 in
set_option maxHeartbeats 8000000 in
theorem stage1_main_arg3 (V : Valuation τ sig (Elt F)) : after stage1 V (Proc.devRef .tc main_arg3) = V (Proc.devRef .tc main_arg3) := by
  after_results_simp

set_option maxRecDepth 16384 in
set_option maxHeartbeats 8000000 in
theorem stage1_main_arg4 (V : Valuation τ sig (Elt F)) : after stage1 V (Proc.devRef .tc main_arg4) = V (Proc.devRef .tc main_arg4) := by
  after_results_simp

set_option maxRecDepth 16384 in
set_option maxHeartbeats 8000000 in
theorem stage1_main_arg5 (V : Valuation τ sig (Elt F)) : after stage1 V (Proc.devRef .tc main_arg5) = V (Proc.devRef .tc main_arg5) := by
  after_results_simp

set_option maxRecDepth 16384 in
set_option maxHeartbeats 8000000 in
theorem stage1_main_arg6 (V : Valuation τ sig (Elt F)) : after stage1 V (Proc.devRef .tc main_arg6) = V (Proc.devRef .tc main_arg6) := by
  after_results_simp

set_option maxRecDepth 16384 in
set_option maxHeartbeats 8000000 in
theorem stage1_main_v11 (V : Valuation τ sig (Elt F)) : after stage1 V (Proc.devRef .tc main_v11) = V (Proc.devRef .tc main_v11) := by
  after_results_simp

set_option maxRecDepth 16384 in
set_option maxHeartbeats 8000000 in
theorem stage1_main_v14 (V : Valuation τ sig (Elt F)) : after stage1 V (Proc.devRef .tc main_v14) = V (Proc.devRef .tc main_v14) := by
  after_results_simp

set_option maxRecDepth 16384 in
set_option maxHeartbeats 8000000 in
/-- Layer 1's result is `layer` of what it finds. -/
theorem stage2_out (V : Valuation τ sig (Elt F)) :
    after stage2 V (Proc.devRef .tc main_v106) = layer (V (Proc.devRef .tc main_v60)) (V (Proc.devRef .tc main_v11)) (V (Proc.devRef .tc main_v14))
      (V (Proc.devRef .tc main_arg1)) (V (Proc.devRef .tc main_arg2)) (extractStridedSlice S1x512 ![1, 0] (V (Proc.devRef .tc main_arg3)) slices_S3x512_S1x512_1_0) (extractStridedSlice S1x512 ![1, 0] (V (Proc.devRef .tc main_arg4)) slices_S3x512_S1x512_1_0)
      (extractStridedSlice S1x512x512 ![1, 0, 0] (V (Proc.devRef .tc main_arg5)) slices_S3x512x512_S1x512x512_1_0_0) (extractStridedSlice S1x512 ![1, 0] (V (Proc.devRef .tc main_arg6)) slices_S3x512_S1x512_1_0) := by
  after_results_simp
  rfl

set_option maxRecDepth 16384 in
set_option maxHeartbeats 8000000 in
theorem stage2_main_arg0 (V : Valuation τ sig (Elt F)) : after stage2 V (Proc.devRef .tc main_arg0) = V (Proc.devRef .tc main_arg0) := by
  after_results_simp

set_option maxRecDepth 16384 in
set_option maxHeartbeats 8000000 in
theorem stage2_main_arg1 (V : Valuation τ sig (Elt F)) : after stage2 V (Proc.devRef .tc main_arg1) = V (Proc.devRef .tc main_arg1) := by
  after_results_simp

set_option maxRecDepth 16384 in
set_option maxHeartbeats 8000000 in
theorem stage2_main_arg2 (V : Valuation τ sig (Elt F)) : after stage2 V (Proc.devRef .tc main_arg2) = V (Proc.devRef .tc main_arg2) := by
  after_results_simp

set_option maxRecDepth 16384 in
set_option maxHeartbeats 8000000 in
theorem stage2_main_arg3 (V : Valuation τ sig (Elt F)) : after stage2 V (Proc.devRef .tc main_arg3) = V (Proc.devRef .tc main_arg3) := by
  after_results_simp

set_option maxRecDepth 16384 in
set_option maxHeartbeats 8000000 in
theorem stage2_main_arg4 (V : Valuation τ sig (Elt F)) : after stage2 V (Proc.devRef .tc main_arg4) = V (Proc.devRef .tc main_arg4) := by
  after_results_simp

set_option maxRecDepth 16384 in
set_option maxHeartbeats 8000000 in
theorem stage2_main_arg5 (V : Valuation τ sig (Elt F)) : after stage2 V (Proc.devRef .tc main_arg5) = V (Proc.devRef .tc main_arg5) := by
  after_results_simp

set_option maxRecDepth 16384 in
set_option maxHeartbeats 8000000 in
theorem stage2_main_arg6 (V : Valuation τ sig (Elt F)) : after stage2 V (Proc.devRef .tc main_arg6) = V (Proc.devRef .tc main_arg6) := by
  after_results_simp

set_option maxRecDepth 16384 in
set_option maxHeartbeats 8000000 in
theorem stage2_main_v11 (V : Valuation τ sig (Elt F)) : after stage2 V (Proc.devRef .tc main_v11) = V (Proc.devRef .tc main_v11) := by
  after_results_simp

set_option maxRecDepth 16384 in
set_option maxHeartbeats 8000000 in
theorem stage2_main_v14 (V : Valuation τ sig (Elt F)) : after stage2 V (Proc.devRef .tc main_v14) = V (Proc.devRef .tc main_v14) := by
  after_results_simp

set_option maxRecDepth 16384 in
set_option maxHeartbeats 8000000 in
/-- Layer 2's result is `layer` of what it finds. -/
theorem stage3_out (V : Valuation τ sig (Elt F)) :
    after stage3 V (Proc.devRef .tc main_v152) = layer (V (Proc.devRef .tc main_v106)) (V (Proc.devRef .tc main_v11)) (V (Proc.devRef .tc main_v14))
      (V (Proc.devRef .tc main_arg1)) (V (Proc.devRef .tc main_arg2)) (extractStridedSlice S1x512 ![2, 0] (V (Proc.devRef .tc main_arg3)) slices_S3x512_S1x512_2_0) (extractStridedSlice S1x512 ![2, 0] (V (Proc.devRef .tc main_arg4)) slices_S3x512_S1x512_2_0)
      (extractStridedSlice S1x512x512 ![2, 0, 0] (V (Proc.devRef .tc main_arg5)) slices_S3x512x512_S1x512x512_2_0_0) (extractStridedSlice S1x512 ![2, 0] (V (Proc.devRef .tc main_arg6)) slices_S3x512_S1x512_2_0) := by
  after_results_simp
  rfl

set_option maxRecDepth 16384 in
set_option maxHeartbeats 8000000 in
theorem stage3_main_arg0 (V : Valuation τ sig (Elt F)) : after stage3 V (Proc.devRef .tc main_arg0) = V (Proc.devRef .tc main_arg0) := by
  after_results_simp

set_option maxRecDepth 16384 in
set_option maxHeartbeats 8000000 in
theorem stage3_main_arg1 (V : Valuation τ sig (Elt F)) : after stage3 V (Proc.devRef .tc main_arg1) = V (Proc.devRef .tc main_arg1) := by
  after_results_simp

set_option maxRecDepth 16384 in
set_option maxHeartbeats 8000000 in
theorem stage3_main_arg2 (V : Valuation τ sig (Elt F)) : after stage3 V (Proc.devRef .tc main_arg2) = V (Proc.devRef .tc main_arg2) := by
  after_results_simp

set_option maxRecDepth 16384 in
set_option maxHeartbeats 8000000 in
theorem stage3_main_arg3 (V : Valuation τ sig (Elt F)) : after stage3 V (Proc.devRef .tc main_arg3) = V (Proc.devRef .tc main_arg3) := by
  after_results_simp

set_option maxRecDepth 16384 in
set_option maxHeartbeats 8000000 in
theorem stage3_main_arg4 (V : Valuation τ sig (Elt F)) : after stage3 V (Proc.devRef .tc main_arg4) = V (Proc.devRef .tc main_arg4) := by
  after_results_simp

set_option maxRecDepth 16384 in
set_option maxHeartbeats 8000000 in
theorem stage3_main_arg5 (V : Valuation τ sig (Elt F)) : after stage3 V (Proc.devRef .tc main_arg5) = V (Proc.devRef .tc main_arg5) := by
  after_results_simp

set_option maxRecDepth 16384 in
set_option maxHeartbeats 8000000 in
theorem stage3_main_arg6 (V : Valuation τ sig (Elt F)) : after stage3 V (Proc.devRef .tc main_arg6) = V (Proc.devRef .tc main_arg6) := by
  after_results_simp

set_option maxRecDepth 16384 in
set_option maxHeartbeats 8000000 in
theorem stage3_main_v11 (V : Valuation τ sig (Elt F)) : after stage3 V (Proc.devRef .tc main_v11) = V (Proc.devRef .tc main_v11) := by
  after_results_simp

set_option maxRecDepth 16384 in
set_option maxHeartbeats 8000000 in
theorem stage3_main_v14 (V : Valuation τ sig (Elt F)) : after stage3 V (Proc.devRef .tc main_v14) = V (Proc.devRef .tc main_v14) := by
  after_results_simp

end Cert.ReferenceIdeal.RefRun

end
-- ==== Proof.RefFinal.lean ====
/-
  The reference's result and arguments after the whole line.

  The fold over the line is the folds over the degree stage and the three layers, one after the other.  A layer writes
  neither the arguments nor the degree columns, so each layer finds the arguments as launched, the columns as the degree
  stage left them, and the layer before's result; the line's result buffer therefore ends at three applications of
  `RefVal.layer` to the first argument, and every argument ends as launched.
-/
import proofs.«108859_j74131135529465_1_alg».proof.Proof.RefRun

noncomputable section

namespace Cert.ReferenceIdeal.RefRun

open Cert.ReferenceIdeal Cert.ReferenceIdeal.Facts₀ Cert.ReferenceIdeal.RefVal Idealize.ShloMosaic Idealize.ShloMosaic.StableHlo Idealize.SL.Sem

variable {F : FTy → Type} [FloatOps F]

/-- The result buffer after the line: three layers over the first argument. -/
theorem result_value (V : Valuation τ sig (Elt F)) :
    after ops V (Proc.devRef .tc main_v152) =
      (layer (layer (layer (V (Proc.devRef .tc main_arg0)) (asCol (degFactor (V (Proc.devRef .tc main_arg1)))) (asCol (degFactor (V (Proc.devRef .tc main_arg2)))) (V (Proc.devRef .tc main_arg1)) (V (Proc.devRef .tc main_arg2))
      (extractStridedSlice S1x512 ![0, 0] (V (Proc.devRef .tc main_arg3)) slices_S3x512_S1x512_0_0) (extractStridedSlice S1x512 ![0, 0] (V (Proc.devRef .tc main_arg4)) slices_S3x512_S1x512_0_0)
      (extractStridedSlice S1x512x512 ![0, 0, 0] (V (Proc.devRef .tc main_arg5)) slices_S3x512x512_S1x512x512_0_0_0) (extractStridedSlice S1x512 ![0, 0] (V (Proc.devRef .tc main_arg6)) slices_S3x512_S1x512_0_0)) (asCol (degFactor (V (Proc.devRef .tc main_arg1)))) (asCol (degFactor (V (Proc.devRef .tc main_arg2)))) (V (Proc.devRef .tc main_arg1)) (V (Proc.devRef .tc main_arg2))
      (extractStridedSlice S1x512 ![1, 0] (V (Proc.devRef .tc main_arg3)) slices_S3x512_S1x512_1_0) (extractStridedSlice S1x512 ![1, 0] (V (Proc.devRef .tc main_arg4)) slices_S3x512_S1x512_1_0)
      (extractStridedSlice S1x512x512 ![1, 0, 0] (V (Proc.devRef .tc main_arg5)) slices_S3x512x512_S1x512x512_1_0_0) (extractStridedSlice S1x512 ![1, 0] (V (Proc.devRef .tc main_arg6)) slices_S3x512_S1x512_1_0)) (asCol (degFactor (V (Proc.devRef .tc main_arg1)))) (asCol (degFactor (V (Proc.devRef .tc main_arg2)))) (V (Proc.devRef .tc main_arg1)) (V (Proc.devRef .tc main_arg2))
      (extractStridedSlice S1x512 ![2, 0] (V (Proc.devRef .tc main_arg3)) slices_S3x512_S1x512_2_0) (extractStridedSlice S1x512 ![2, 0] (V (Proc.devRef .tc main_arg4)) slices_S3x512_S1x512_2_0)
      (extractStridedSlice S1x512x512 ![2, 0, 0] (V (Proc.devRef .tc main_arg5)) slices_S3x512x512_S1x512x512_2_0_0) (extractStridedSlice S1x512 ![2, 0] (V (Proc.devRef .tc main_arg6)) slices_S3x512_S1x512_2_0)) := by
  rw [after_ops, stage3_out, stage2_out, stage2_main_v11, stage2_main_v14, stage2_main_arg1, stage2_main_arg2, stage2_main_arg3, stage2_main_arg4, stage2_main_arg5, stage2_main_arg6, stage1_out, stage1_main_v11, stage1_main_v14, stage1_main_arg1, stage1_main_arg2, stage1_main_arg3, stage1_main_arg4, stage1_main_arg5, stage1_main_arg6, stage0_v11, stage0_v14, stage0_arg0, stage0_arg1, stage0_arg2, stage0_arg3, stage0_arg4, stage0_arg5, stage0_arg6]

theorem kept_arg0 (V : Valuation τ sig (Elt F)) : after ops V (Proc.devRef .tc main_arg0) = V (Proc.devRef .tc main_arg0) := by
  rw [after_ops, stage3_main_arg0, stage2_main_arg0, stage1_main_arg0, stage0_arg0]

theorem kept_arg1 (V : Valuation τ sig (Elt F)) : after ops V (Proc.devRef .tc main_arg1) = V (Proc.devRef .tc main_arg1) := by
  rw [after_ops, stage3_main_arg1, stage2_main_arg1, stage1_main_arg1, stage0_arg1]

theorem kept_arg2 (V : Valuation τ sig (Elt F)) : after ops V (Proc.devRef .tc main_arg2) = V (Proc.devRef .tc main_arg2) := by
  rw [after_ops, stage3_main_arg2, stage2_main_arg2, stage1_main_arg2, stage0_arg2]

theorem kept_arg3 (V : Valuation τ sig (Elt F)) : after ops V (Proc.devRef .tc main_arg3) = V (Proc.devRef .tc main_arg3) := by
  rw [after_ops, stage3_main_arg3, stage2_main_arg3, stage1_main_arg3, stage0_arg3]

theorem kept_arg4 (V : Valuation τ sig (Elt F)) : after ops V (Proc.devRef .tc main_arg4) = V (Proc.devRef .tc main_arg4) := by
  rw [after_ops, stage3_main_arg4, stage2_main_arg4, stage1_main_arg4, stage0_arg4]

theorem kept_arg5 (V : Valuation τ sig (Elt F)) : after ops V (Proc.devRef .tc main_arg5) = V (Proc.devRef .tc main_arg5) := by
  rw [after_ops, stage3_main_arg5, stage2_main_arg5, stage1_main_arg5, stage0_arg5]

theorem kept_arg6 (V : Valuation τ sig (Elt F)) : after ops V (Proc.devRef .tc main_arg6) = V (Proc.devRef .tc main_arg6) := by
  rw [after_ops, stage3_main_arg6, stage2_main_arg6, stage1_main_arg6, stage0_arg6]

end Cert.ReferenceIdeal.RefRun

end
-- ==== Proof.LibContract.lean ====
/-
  Contractions read at an entry, over the extended reals.

  * The host's plain matrix product `[M, K] × [K, N] → [M, N]` at the entry `(p, q)` is `∑ k, lhs (p, k) * rhs (k, q)`,
    the same sum a kernel's product into the zero matrix has there.
  * A batched product `[B, M, K] × [B, K, N] → [B, M, N]` — one batch axis in front, the left operand's last axis
    contracted with the right operand's middle axis — at the entry `(b, p, q)` is `∑ k, lhs (b, p, k) * rhs (b, k, q)`,
    whether a kernel takes it into the zero array or the host takes it.
-/
import Idealize.ShloMosaic.PureOps.Ideal.Laws
import Idealize.ShloMosaic.Lib.ValueIdx
import proofs.«108859_j74131135529465_1_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The left operand's index at the entry `(p, q)` and the contraction position `k` is `(p, k)`. -/
theorem IsPlain.lhsIdx_eq (h : IsPlain d) (p : Fin M) (q : Fin N) (k : Fin K) :
    d.lhsIdx (ix2 p q) ((contrEquiv1 d K h.rank h.size).symm k) = ix2 p k := by
  funext a
  apply Fin.ext
  match a with
  | ⟨0, _⟩ => exact h.lhs_row _ _
  | ⟨1, _⟩ => exact (d.lhsIdx_val_of_single h.lc _ _).trans (contrEquiv1_symm_val d K h.rank h.size k)

/-- The right operand's is `(k, q)`. -/
theorem IsPlain.rhsIdx_eq (h : IsPlain d) (p : Fin M) (q : Fin N) (k : Fin K) :
    d.rhsIdx (ix2 p q) ((contrEquiv1 d K h.rank h.size).symm k) = ix2 k q := by
  funext a
  apply Fin.ext
  match a with
  | ⟨0, _⟩ => exact (d.rhsIdx_val_of_single h.rc _ _).trans (contrEquiv1_symm_val d K h.rank h.size k)
  | ⟨1, _⟩ => exact h.rhs_col _ _

/-- The host's plain product at the entry `(p, q)`: the sum over the contracted axis. -/
theorem dot_apply {φ₁ φ₂ : FTy} (h : IsPlain d) (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q)
      = ∑ k : Fin K, (lhs (ix2 p k) : EReal) * (rhs (ix2 k q) : EReal) := by
  rw [Ideal.dotGeneral_apply]
  rw [← Equiv.sum_comp (contrEquiv1 d K h.rank h.size).symm]
  refine Finset.sum_congr rfl fun k _ => ?_
  rw [h.lhsIdx_eq, h.rhsIdx_eq]

end PlainMatmul

namespace BatchMatmul

variable {B M K N : ℕ}

/-- The dimension numbers of a batched product: the batch axis in front on both sides and in the result, the left
    operand's last axis contracted with the right operand's middle axis. -/
structure IsBatched (d : DotDims (⟨3, ![B, M, K]⟩ : Shape) (⟨3, ![B, K, N]⟩ : Shape) (⟨3, ![B, M, N]⟩ : Shape)) : Prop where
  lc : d.lhsContracting = [2]
  rc : d.rhsContracting = [1]
  ln : d.lhsNonContracting = [1]
  rn : d.rhsNonContracting = [2]
  lb : d.lhsBatch = [0]
  rb : d.rhsBatch = [0]

variable {d : DotDims (⟨3, ![B, M, K]⟩ : Shape) (⟨3, ![B, K, N]⟩ : Shape) (⟨3, ![B, M, N]⟩ : Shape)}

theorem IsBatched.rank (h : IsBatched d) : d.contr.rank = 1 := by rw [d.rank_contr, h.lc]; rfl

theorem IsBatched.size (h : IsBatched d) : d.contr.size ⟨0, by rw [h.rank]; exact Nat.one_pos⟩ = K := by
  rw [d.size_contr 0 (by rw [h.lc]; exact Nat.one_pos)]
  simp only [h.lc]
  rfl

private theorem coord_congr (j : (⟨3, ![B, M, N]⟩ : Shape).Idx) (p q : Nat) (hp : p < (⟨3, ![B, M, N]⟩ : Shape).rank)
    (hq : q < (⟨3, ![B, M, N]⟩ : Shape).rank) (e : p = q) : (j ⟨p, hp⟩).val = (j ⟨q, hq⟩).val := by subst e; rfl

/-- The left operand is read in the batch of the output entry … -/
theorem IsBatched.lhs_batch (h : IsBatched d) (j : (⟨3, ![B, M, N]⟩ : Shape).Idx) (k : d.contr.Idx) :
    (d.lhsIdx j k 0).val = (j 0).val := by
  unfold DotDims.lhsIdx
  rw [dif_pos (by rw [h.lb]; exact List.mem_singleton.mpr rfl)]
  simp only [Fin.val_cast]
  exact coord_congr j _ _ _ _ (by simp [h.lb])

/-- … at its row … -/
theorem IsBatched.lhs_row (h : IsBatched d) (j : (⟨3, ![B, M, N]⟩ : Shape).Idx) (k : d.contr.Idx) :
    (d.lhsIdx j k 1).val = (j 1).val := by
  unfold DotDims.lhsIdx
  rw [dif_neg (by rw [h.lb]; exact fun hmem => Nat.one_ne_zero (congrArg Fin.val (List.mem_singleton.mp hmem))),
    dif_pos (by rw [h.ln]; exact List.mem_singleton.mpr rfl)]
  simp only [Fin.val_cast]
  exact coord_congr j _ _ _ _ (by simp [h.lb, h.ln])

/-- … the right operand in the same batch … -/
theorem IsBatched.rhs_batch (h : IsBatched d) (j : (⟨3, ![B, M, N]⟩ : Shape).Idx) (k : d.contr.Idx) :
    (d.rhsIdx j k 0).val = (j 0).val := by
  unfold DotDims.rhsIdx
  rw [dif_pos (by rw [h.rb]; exact List.mem_singleton.mpr rfl)]
  simp only [Fin.val_cast]
  exact coord_congr j _ _ _ _ (by simp [h.rb])

/-- … at its column. -/
theorem IsBatched.rhs_col (h : IsBatched d) (j : (⟨3, ![B, M, N]⟩ : Shape).Idx) (k : d.contr.Idx) :
    (d.rhsIdx j k 2).val = (j 2).val := by
  unfold DotDims.rhsIdx
  rw [dif_neg (by rw [h.rb]; exact fun hmem => (by decide : (2 : ℕ) ≠ 0) (congrArg Fin.val (List.mem_singleton.mp hmem))),
    dif_pos (by rw [h.rn]; exact List.mem_singleton.mpr rfl)]
  simp only [Fin.val_cast]
  exact coord_congr j _ _ _ _ (by simp [h.lb, h.ln, h.rn])

/-- The left operand's index at the entry `(b, p, q)` and the contraction position `k` is `(b, p, k)`. -/
theorem IsBatched.lhsIdx_eq (h : IsBatched d) (b : Fin B) (p : Fin M) (q : Fin N) (k : Fin K) :
    d.lhsIdx (ix3 b p q) ((contrEquiv1 d K h.rank h.size).symm k) = ix3 b p k := by
  funext a
  apply Fin.ext
  match a with
  | ⟨0, _⟩ => exact h.lhs_batch _ _
  | ⟨1, _⟩ => exact h.lhs_row _ _
  | ⟨2, _⟩ => exact (d.lhsIdx_val_of_single h.lc _ _).trans (contrEquiv1_symm_val d K h.rank h.size k)

/-- The right operand's is `(b, k, q)`. -/
theorem IsBatched.rhsIdx_eq (h : IsBatched d) (b : Fin B) (p : Fin M) (q : Fin N) (k : Fin K) :
    d.rhsIdx (ix3 b p q) ((contrEquiv1 d K h.rank h.size).symm k) = ix3 b k q := by
  funext a
  apply Fin.ext
  match a with
  | ⟨0, _⟩ => exact h.rhs_batch _ _
  | ⟨1, _⟩ => exact (d.rhsIdx_val_of_single h.rc _ _).trans (contrEquiv1_symm_val d K h.rank h.size k)
  | ⟨2, _⟩ => exact h.rhs_col _ _

/-- A kernel's batched product into the zero array, at the entry `(b, p, q)`. -/
theorem apply {φ₁ φ₂ : FTy} (h : IsBatched d) (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    FloatOps.matmul d prec lhs rhs (constant (⟨3, ![B, M, N]⟩ : Shape) .f32 0x00000000#32) (ix3 b p q)
      = ∑ k : Fin K, (lhs (ix3 b p k) : EReal) * (rhs (ix3 b k q) : EReal) := by
  rw [Ideal.matmul_constant_zero_apply]
  rw [← Equiv.sum_comp (contrEquiv1 d K h.rank h.size).symm]
  refine Finset.sum_congr rfl fun k _ => ?_
  rw [h.lhsIdx_eq, h.rhsIdx_eq]

/-- The host's batched product at the entry `(b, p, q)`: the same sum. -/
theorem dot_apply {φ₁ φ₂ : FTy} (h : IsBatched d) (prec : Option ContractPrecision) (sched : HostSchedule)
    (lhs : FVec Ideal (⟨3, ![B, M, K]⟩ : Shape) φ₁) (rhs : FVec Ideal (⟨3, ![B, K, N]⟩ : Shape) φ₂)
    (b : Fin B) (p : Fin M) (q : Fin N) :
    FloatOps.dotGeneral d prec sched lhs rhs (ix3 b p q)
      = ∑ k : Fin K, (lhs (ix3 b p k) : EReal) * (rhs (ix3 b k q) : EReal) := by
  rw [Ideal.dotGeneral_apply]
  rw [← Equiv.sum_comp (contrEquiv1 d K h.rank h.size).symm]
  refine Finset.sum_congr rfl fun k _ => ?_
  rw [h.lhsIdx_eq, h.rhsIdx_eq]

end BatchMatmul

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.Bridge.lean ====
/-
  One layer of the kernel program is one layer of the reference.

  Both compute, for the feature matrix `x`: the columns' mean and biased variance, the batch-normalised matrix with
  every row multiplied by the first degree factor, the gather of rows by source index added into rows by destination
  index, and then every row multiplied by the second degree factor, the product with the layer's weights, the bias and
  the clamp at zero — with the same operations in the same order.  They differ only in how vectors are laid out: the
  kernel program keeps a column's statistic and a layer's gain, offset and bias as one-row matrices and the degree factors
  as reshaped columns, where the reference keeps vectors and spreads them over the matrix; and the kernel program narrows
  the operands of the product, which is the identity on extended reals.  So the two agree entry by entry: each spread
  vector read at an entry is the vector's entry, and the product into zero and the host's contraction are both the sum
  over the contracted axis.
-/
import proofs.«108859_j74131135529465_1_alg».proof.Proof.KerVal
import proofs.«108859_j74131135529465_1_alg».proof.Proof.RefVal
import proofs.«108859_j74131135529465_1_alg».proof.Proof.LibContract
import proofs.«108859_j74131135529465_1_alg».proof.Proof.LibRowBroadcast

noncomputable section

open scoped BigOperators
open Idealize.ShloMosaic Idealize.ShloMosaic.ValueIdx

namespace Cert.Bridge

/-! ## Spread vectors read at an entry -/

/-- A scalar spread over any shape reads the scalar. -/
theorem bcScalar_apply {α : Type} {t : Shape} (h : (⟨0, ![]⟩ : Shape).BroadcastsInDim t ![]) (c : (⟨0, ![]⟩ : Shape).Idx → α) (i : t.Idx) :
    broadcastInDim t ![] h c i = c ix0 :=
  broadcastInDim_apply ![] h c i ix0 fun a => a.elim0

/-- A vector as a one-row matrix reads the vector's entry. -/
theorem bcRow_apply {α : Type} {H : ℕ} (h : (⟨1, ![H]⟩ : Shape).BroadcastsInDim ⟨2, ![1, H]⟩ ![1]) (v : (⟨1, ![H]⟩ : Shape).Idx → α)
    (j : Fin H) : broadcastInDim ⟨2, ![1, H]⟩ ![1] h v (ix2 0 j) = v (ix1 j) := by
  refine broadcastInDim_apply ![1] h v (ix2 0 j) (ix1 j) fun a => ?_
  match a with
  | ⟨0, _⟩ =>
    show j.val = if H = 1 then 0 else j.val
    split
    · have := j.isLt; omega
    · rfl

/-- A one-column matrix repeated along the columns reads the row's entry. -/
theorem colSpread_apply {α : Type} {N H : ℕ} (h : (⟨2, ![N, 1]⟩ : Shape).BroadcastsInDim ⟨2, ![N, H]⟩ ![0, 1])
    (s : (⟨2, ![N, 1]⟩ : Shape).Idx → α) (r : Fin N) (j : Fin H) :
    broadcastInDim ⟨2, ![N, H]⟩ ![0, 1] h s (ix2 r j) = s (ix2 r 0) := by
  refine broadcastInDim_apply ![0, 1] h s (ix2 r j) (ix2 r 0) fun a => ?_
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A one-row matrix flattened reads the row's entry. -/
theorem flat_apply {α : Type} {H : ℕ} (g : (⟨2, ![1, H]⟩ : Shape).Idx → α) (h : (⟨2, ![1, H]⟩ : Shape).ShapeCasts ⟨1, ![H]⟩) (j : Fin H) :
    shapeCast ⟨1, ![H]⟩ g h (ix1 j) = g (ix2 0 j) :=
  shapeCast_apply g h _ _ (by
    rw [Shape.rowMajor_val_two, Shape.rowMajor_val_one]
    show 0 * H + j.val = j.val
    omega)

theorem select3 {α : Type} {c c' : BitVec 1} {a a' b b' : α} (hc : c = c') (ha : a = a') (hb : b = b') :
    Scalar.select c a b = Scalar.select c' a' b' := by subst hc ha hb; rfl

theorem norm_arith {x a a' q q' c c' d d' e e' : EReal} (ha : a = a') (hq : q = q') (hc : c = c') (hd : d = d') (he : e = e') :
    ((x - a) * q * c + d) * e = ((x - a') * q' * c' + d') * e' := by subst ha hq hc hd he; rfl

theorem relu_arith {S S' b b' z' : EReal} (hS : S = S') (hb : b = b') (hz : (0 : EReal) = z') :
    max (S + b) 0 = max (S' + b') z' := by subst hS hb hz; rfl

variable [Cert.KernelIdeal.Facts₀] [Cert.ReferenceIdeal.Facts₀]

/-! ## The stages -/

theorem degFactor_eq (a : (⟨Cert.KernelIdeal.S160000, .i32⟩ : BufTy).Contents (Elt Ideal)) : Cert.KernelIdeal.KerVal.degFactor (F := Ideal) a = Cert.ReferenceIdeal.RefVal.degFactor (F := Ideal) a := rfl

theorem asCol_eq (n : (⟨Cert.KernelIdeal.S10000, .f32⟩ : BufTy).Contents (Elt Ideal)) : Cert.KernelIdeal.KerVal.asCol (F := Ideal) n = Cert.ReferenceIdeal.RefVal.asCol (F := Ideal) n := by
  funext i
  obtain ⟨r, u, rfl⟩ : ∃ (r : Fin 10000) (u : Fin 1), i = ix2 r u := ⟨i 0, i 1, eq_ix2 i⟩
  unfold Cert.KernelIdeal.KerVal.asCol Cert.ReferenceIdeal.RefVal.asCol
  exact (RowBroadcast.reshape_col_apply n _ r u).trans (RowBroadcast.col_apply _ n r u).symm

theorem colMean_eq (x : (⟨Cert.KernelIdeal.S10000x512, .f32⟩ : BufTy).Contents (Elt Ideal)) (j : Fin 512) :
    Cert.KernelIdeal.KerVal.colMean (F := Ideal) x (ix2 0 j) = Cert.ReferenceIdeal.RefVal.colMean (F := Ideal) x (ix1 j) := by
  unfold Cert.KernelIdeal.KerVal.colMean Cert.ReferenceIdeal.RefVal.colMean
  show FloatOps.hostDivf (F := Ideal) _ _ = FloatOps.hostDivf (F := Ideal) _ _
  exact congrArg₂ FloatOps.hostDivf ((bcRow_apply _ _ j).trans rfl) ((bcScalar_apply _ _ _).trans (bcScalar_apply _ _ _).symm)

theorem colVar_eq (x : (⟨Cert.KernelIdeal.S10000x512, .f32⟩ : BufTy).Contents (Elt Ideal)) (j : Fin 512) :
    Cert.KernelIdeal.KerVal.colVar (F := Ideal) x (ix2 0 j) = Cert.ReferenceIdeal.RefVal.colVar (F := Ideal) x (ix1 j) := by
  unfold Cert.KernelIdeal.KerVal.colVar Cert.ReferenceIdeal.RefVal.colVar
  show Scalar.select _ (FloatOps.hostDivf (F := Ideal) _ _) _ = Scalar.select _ (FloatOps.hostDivf (F := Ideal) _ _) _
  exact select3 ((bcScalar_apply _ _ _).trans (bcScalar_apply _ _ _).symm)
    (congrArg₂ FloatOps.hostDivf ((bcRow_apply _ _ j).trans rfl) ((bcScalar_apply _ _ _).trans (bcScalar_apply _ _ _).symm))
    ((bcScalar_apply _ _ _).trans (bcScalar_apply _ _ _).symm)

theorem asRow_eq (g : (⟨Cert.KernelIdeal.S1x512, .f32⟩ : BufTy).Contents (Elt Ideal)) : Cert.KernelIdeal.KerVal.asRow (F := Ideal) g = g := by
  unfold Cert.KernelIdeal.KerVal.asRow
  exact shapeCast_shapeCast g _ _

theorem aggregate_eq (h : (⟨Cert.KernelIdeal.S10000x512, .f32⟩ : BufTy).Contents (Elt Ideal)) (a1 a2 : (⟨Cert.KernelIdeal.S160000, .i32⟩ : BufTy).Contents (Elt Ideal)) :
    Cert.KernelIdeal.KerVal.aggregate (F := Ideal) h a1 a2 = Cert.ReferenceIdeal.RefVal.aggregate (F := Ideal) h a1 a2 := rfl

theorem norm_eq (x : (⟨Cert.KernelIdeal.S10000x512, .f32⟩ : BufTy).Contents (Elt Ideal)) (g be : (⟨Cert.KernelIdeal.S1x512, .f32⟩ : BufTy).Contents (Elt Ideal)) (s : (⟨Cert.KernelIdeal.S10000x1, .f32⟩ : BufTy).Contents (Elt Ideal)) :
    GraphConv.normScale (M := 10000) (N := 512) x (Cert.KernelIdeal.KerVal.asRow g) (Cert.KernelIdeal.KerVal.asRow be) (Cert.KernelIdeal.KerVal.colMean x) (Cert.KernelIdeal.KerVal.colVar x) s
      = Cert.ReferenceIdeal.RefVal.normRows (F := Ideal) x g be s := by
  funext i
  obtain ⟨r, j, rfl⟩ : ∃ (r : Fin 10000) (j : Fin 512), i = ix2 r j := ⟨i 0, i 1, eq_ix2 i⟩
  rw [asRow_eq, asRow_eq]
  unfold Cert.ReferenceIdeal.RefVal.normRows
  show ((x (ix2 r j) - Cert.KernelIdeal.KerVal.colMean x (ix2 0 j)) * Ideal.rsqrt (Cert.KernelIdeal.KerVal.colVar x (ix2 0 j) + GraphConv.eps) * g (ix2 0 j) + be (ix2 0 j))
      * s (ix2 r 0) = _
  refine norm_arith ?_ ?_ ?_ ?_ ?_
  · exact (colMean_eq x j).trans (RowBroadcast.cols_apply _ _ _ r j).symm
  · refine Eq.symm ((RowBroadcast.cols_apply _ _ _ r j).trans ?_)
    exact congrArg Ideal.rsqrt (congrArg₂ (· + ·) (colVar_eq x j).symm (bcScalar_apply _ _ _))
  · exact ((RowBroadcast.cols_apply _ _ _ r j).trans (flat_apply g _ j)).symm
  · exact ((RowBroadcast.cols_apply _ _ _ r j).trans (flat_apply be _ j)).symm
  · exact (colSpread_apply _ s r j).symm

/-- The printed dimension numbers of the reference's contraction are those of a plain matrix product. -/
theorem dot_plain : PlainMatmul.IsPlain (M := 10000) (K := 512) (N := 512) Cert.ReferenceIdeal.dot_S10000x512_S512x512_S10000x512_1_0_0_1_n_n :=
  ⟨rfl, rfl, rfl, rfl, rfl, rfl⟩

theorem prod_eq (agg : (⟨Cert.KernelIdeal.S10000x512, .f32⟩ : BufTy).Contents (Elt Ideal)) (d : (⟨Cert.KernelIdeal.S10000x1, .f32⟩ : BufTy).Contents (Elt Ideal)) (w : (⟨Cert.KernelIdeal.S1x512x512, .f32⟩ : BufTy).Contents (Elt Ideal)) (b : (⟨Cert.KernelIdeal.S1x512, .f32⟩ : BufTy).Contents (Elt Ideal)) :
    GraphConv.scaleAffineRelu (M := 10000) (K := 512) (N := 512) agg d (Cert.KernelIdeal.KerVal.narrow w) (Cert.KernelIdeal.KerVal.asRow b)
      = Cert.ReferenceIdeal.RefVal.rowsTimes (F := Ideal) agg d w b := by
  funext i
  obtain ⟨r, q, rfl⟩ : ∃ (r : Fin 10000) (q : Fin 512), i = ix2 r q := ⟨i 0, i 1, eq_ix2 i⟩
  rw [asRow_eq]
  unfold Cert.ReferenceIdeal.RefVal.rowsTimes
  show max ((∑ k : Fin 512, (agg (ix2 r k) * d (ix2 r 0)) * Cert.KernelIdeal.KerVal.narrow (F := Ideal) w (ix2 k q)) + b (ix2 0 q)) 0 = _
  refine relu_arith ?_ ?_ ?_
  · refine Eq.symm ((PlainMatmul.dot_apply dot_plain none _ _ _ r q).trans (Finset.sum_congr rfl fun k _ => ?_))
    exact congrArg₂ (· * ·) (congrArg (agg (ix2 r k) * ·) (colSpread_apply _ d r k)) rfl
  · exact ((RowBroadcast.cols_apply _ _ _ r q).trans (flat_apply b _ q)).symm
  · exact ((bcScalar_apply _ _ _).trans Ideal.ofBits_zero_f32).symm

/-- One layer of the kernel program is one layer of the reference. -/
theorem layer_eq (x : (⟨Cert.KernelIdeal.S10000x512, .f32⟩ : BufTy).Contents (Elt Ideal)) (s d : (⟨Cert.KernelIdeal.S10000x1, .f32⟩ : BufTy).Contents (Elt Ideal)) (a1 a2 : (⟨Cert.KernelIdeal.S160000, .i32⟩ : BufTy).Contents (Elt Ideal))
    (g be : (⟨Cert.KernelIdeal.S1x512, .f32⟩ : BufTy).Contents (Elt Ideal)) (w : (⟨Cert.KernelIdeal.S1x512x512, .f32⟩ : BufTy).Contents (Elt Ideal)) (b : (⟨Cert.KernelIdeal.S1x512, .f32⟩ : BufTy).Contents (Elt Ideal)) :
    Cert.KernelIdeal.KerVal.layer x s d a1 a2 g be w b = Cert.ReferenceIdeal.RefVal.layer (F := Ideal) x s d a1 a2 g be w b := by
  unfold Cert.KernelIdeal.KerVal.layer Cert.ReferenceIdeal.RefVal.layer
  rw [norm_eq, prod_eq, aggregate_eq]

end Cert.Bridge

end
-- ==== Proof.lean ====
/-
  The certificate: a three-layer graph convolution — batch normalisation, a gather of rows by source index added into
  rows by destination index between two degree scalings, a dense layer and a clamp at zero — computed by six kernel
  launches among host operations, against the same computation written with host operations only.

  Over the extended reals the two programs apply the same operations in the same order; they differ in tiling (each
  launch works on five tiles of 2000 rows), in the narrowing of the dense layer's operands (the identity on extended
  reals), and in whether a vector of column statistics or row factors is kept as a vector or as a thin matrix.  The kernel
  program's result buffer ends at three applications of `KerVal.layer` to the first argument (`Fold.result_value`, over the
  launches' whole-array results), the reference's at three applications of `RefVal.layer` (`RefRun.result_value`), and a
  layer of the one is a layer of the other (`Bridge.layer_eq`).  No law of arithmetic is used, so the precondition is not
  opened.  The frames of the two kernel programs are the generated ones; the reference's frame is its run with the result
  dropped; the idealisation rewrote nothing.
-/
import proofs.«108859_j74131135529465_1_alg».proof.Defs
import proofs.«108859_j74131135529465_1_alg».proof.Proof.Gen.Kernel
import proofs.«108859_j74131135529465_1_alg».proof.Proof.Gen.Kernel.Frame
import proofs.«108859_j74131135529465_1_alg».proof.Proof.Gen.KernelIdeal
import proofs.«108859_j74131135529465_1_alg».proof.Proof.Gen.KernelIdeal.Frame
import proofs.«108859_j74131135529465_1_alg».proof.Proof.Gen.ReferenceIdeal
import proofs.«108859_j74131135529465_1_alg».proof.Proof.Gen.Pre_finite_inputs
import proofs.«108859_j74131135529465_1_alg».proof.Proof.RunValue
import proofs.«108859_j74131135529465_1_alg».proof.Proof.KerFold
import proofs.«108859_j74131135529465_1_alg».proof.Proof.RefFinal
import proofs.«108859_j74131135529465_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

open Cert.ReferenceIdeal in
/-- The reference runs and leaves its arguments as launched: its run, read at the argument buffers. -/
theorem frame_reference : Cert.frame_ReferenceIdeal := fun m ρ _ =>
  (θ_run Cert.ReferenceIdeal.defs _ _).mono (fun r h c =>
    ⟨(h c main_arg0).trans (RefRun.kept_arg0 _), (h c main_arg1).trans (RefRun.kept_arg1 _), (h c main_arg2).trans (RefRun.kept_arg2 _),
     (h c main_arg3).trans (RefRun.kept_arg3 _), (h c main_arg4).trans (RefRun.kept_arg4 _), (h c main_arg5).trans (RefRun.kept_arg5 _),
     (h c main_arg6).trans (RefRun.kept_arg6 _)⟩)
    (RefRun.run_main (F := Ideal) m ρ)

theorem preserves : Cert.preserves_Kernel_KernelIdeal := trivial

/-- From memories agreeing on the arguments both programs end with the result buffer at three layers over the first
    argument, and a layer of the kernel program is a layer of the reference. -/
theorem algebraic : Cert.algebraic_KernelIdeal_ReferenceIdeal := by
  intro m ρ m' ρ' _ hagree
  refine ⟨fun c => Cert.KernelIdeal.Fold.x3 m c, ?_, ?_⟩
  · exact (θ_run Cert.KernelIdeal.defs _ _).mono
      (fun r h c => ⟨(h c).1.trans (Cert.KernelIdeal.Fold.result_value m ρ c), (h c).2⟩)
      (Cert.KernelIdeal.RunValue.run_value (F := Ideal) m ρ)
  · refine (θ_run Cert.ReferenceIdeal.defs _ _).mono (fun r h c => ?_) (Cert.ReferenceIdeal.RefRun.run_main (F := Ideal) m' ρ')
    refine ⟨?_, (h c _).trans (Cert.ReferenceIdeal.RefRun.kept_arg0 _), (h c _).trans (Cert.ReferenceIdeal.RefRun.kept_arg1 _),
      (h c _).trans (Cert.ReferenceIdeal.RefRun.kept_arg2 _), (h c _).trans (Cert.ReferenceIdeal.RefRun.kept_arg3 _),
      (h c _).trans (Cert.ReferenceIdeal.RefRun.kept_arg4 _), (h c _).trans (Cert.ReferenceIdeal.RefRun.kept_arg5 _),
      (h c _).trans (Cert.ReferenceIdeal.RefRun.kept_arg6 _)⟩
    refine (h c _).trans ((Cert.ReferenceIdeal.RefRun.result_value _).trans ?_)
    obtain ⟨e0, e1, e2, e3, e4, e5, e6⟩ := hagree c
    have a0 : StableHlo.launchContents m' c (Proc.devRef .tc Cert.ReferenceIdeal.main_arg0) = m ((c.tc : Thread Cert.KernelIdeal.nD Cert.KernelIdeal.τ).loc Cert.KernelIdeal.main_arg0) := e0
    have a1 : StableHlo.launchContents m' c (Proc.devRef .tc Cert.ReferenceIdeal.main_arg1) = m ((c.tc : Thread Cert.KernelIdeal.nD Cert.KernelIdeal.τ).loc Cert.KernelIdeal.main_arg1) := e1
    have a2 : StableHlo.launchContents m' c (Proc.devRef .tc Cert.ReferenceIdeal.main_arg2) = m ((c.tc : Thread Cert.KernelIdeal.nD Cert.KernelIdeal.τ).loc Cert.KernelIdeal.main_arg2) := e2
    have a3 : StableHlo.launchContents m' c (Proc.devRef .tc Cert.ReferenceIdeal.main_arg3) = m ((c.tc : Thread Cert.KernelIdeal.nD Cert.KernelIdeal.τ).loc Cert.KernelIdeal.main_arg3) := e3
    have a4 : StableHlo.launchContents m' c (Proc.devRef .tc Cert.ReferenceIdeal.main_arg4) = m ((c.tc : Thread Cert.KernelIdeal.nD Cert.KernelIdeal.τ).loc Cert.KernelIdeal.main_arg4) := e4
    have a5 : StableHlo.launchContents m' c (Proc.devRef .tc Cert.ReferenceIdeal.main_arg5) = m ((c.tc : Thread Cert.KernelIdeal.nD Cert.KernelIdeal.τ).loc Cert.KernelIdeal.main_arg5) := e5
    have a6 : StableHlo.launchContents m' c (Proc.devRef .tc Cert.ReferenceIdeal.main_arg6) = m ((c.tc : Thread Cert.KernelIdeal.nD Cert.KernelIdeal.τ).loc Cert.KernelIdeal.main_arg6) := e6
    rw [a0, a1, a2, a3, a4, a5, a6]
    show _ = Cert.KernelIdeal.Fold.x3 m c
    unfold Cert.KernelIdeal.Fold.x3 Cert.KernelIdeal.Fold.x2 Cert.KernelIdeal.Fold.x1
    rw [Cert.Bridge.layer_eq, Cert.Bridge.layer_eq, Cert.Bridge.layer_eq, Cert.Bridge.asCol_eq, Cert.Bridge.asCol_eq,
      Cert.Bridge.degFactor_eq, Cert.Bridge.degFactor_eq]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
